-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S50000x768 : Shape := ⟨2, ![50000, 768]⟩
abbrev S128x512 : Shape := ⟨2, ![128, 512]⟩
abbrev S128 : Shape := ⟨1, ![128]⟩
abbrev S128x768 : Shape := ⟨2, ![128, 768]⟩
abbrev S128x128 : Shape := ⟨2, ![128, 128]⟩
abbrev S2000000 : Shape := ⟨1, ![2000000]⟩
abbrev S500000 : Shape := ⟨1, ![500000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S50000x768 : S_.BroadcastsInDim S50000x768 (![] : Fin 0 → Fin S50000x768.rank)
  reducesTo_S50000x768_S_d0_1 : S50000x768.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_
  bcast_S_S128x128 : S_.BroadcastsInDim S128x128 (![] : Fin 0 → Fin S128x128.rank)
  reducesTo_S128x128_S_d0_1 : S128x128.ReducesTo [0, 1] S_

variable [Facts]

def fn_part8 {F : FTy → Type} [FloatOps F] (main_v132 : IVec S_ 1) (main_v135 : IVec S_ 1) : IVec S_ 1 :=
  let main_v136 : IVec S_ 1 := andi main_v132 main_v135
  main_v136

def fn_part7 {F : FTy → Type} [FloatOps F] (main_arg7 : FVec F S128 .f32) (main_arg13 : FVec F S128 .f32) (main_arg25 : FVec F S128x128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg25
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_cst_50 : FVec F S_ .f32 := constant S_ .f32 0x00000000#32
  let main_v129 : FVec F S128 .f32 := broadcastInDim S128 ![] bcast_S_S128 main_cst_50
  let main_v130 : IVec S128 1 := cmpf .oge main_arg7 main_v129
  let main_c_51 : IVec S_ 1 := constantI S_ 1 1#1
  let main_v131 : IVec S_ 1 := (fun x v => Host.reduce IntOp.andi x v reducesTo_S128_S_d0 h_S_) main_v130 main_c_51
  let main_v132 : IVec S_ 1 := andi main_v128 main_v131
  let main_cst_52 : FVec F S_ .f32 := constant S_ .f32 0x00000000#32
  let main_v133 : FVec F S128 .f32 := broadcastInDim S128 ![] bcast_S_S128 main_cst_52
  let main_v134 : IVec S128 1 := cmpf .oge main_arg13 main_v133
  let main_c_53 : IVec S_ 1 := constantI S_ 1 1#1
  let main_v135 : IVec S_ 1 := (fun x v => Host.reduce IntOp.andi x v reducesTo_S128_S_d0 h_S_) main_v134 main_c_53
  fn_part8 (F := F) main_v132 main_v135

def fn_part6 {F : FTy → Type} [FloatOps F] (main_arg7 : FVec F S128 .f32) (main_arg13 : FVec F S128 .f32) (main_arg21 : FVec F S128 .f32) (main_arg22 : FVec F S128x128 .f32) (main_arg23 : FVec F S128x128 .f32) (main_arg24 : FVec F S128 .f32) (main_arg25 : FVec F S128x128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg22
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128x128 .f32 := Host.absf main_arg23
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg24
  fn_part7 (F := F) main_arg7 main_arg13 main_arg25 main_v118 main_v119

def fn_part5 {F : FTy → Type} [FloatOps F] (main_arg7 : FVec F S128 .f32) (main_arg13 : FVec F S128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg7 main_arg13 main_arg21 main_arg22 main_arg23 main_arg24 main_arg25 main_v98 main_v101 main_c_39

def fn_part4 {F : FTy → Type} [FloatOps F] (main_arg7 : FVec F S128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg7 main_arg13 main_arg18 main_arg19 main_arg20 main_arg21 main_arg22 main_arg23 main_arg24 main_arg25 main_v83 main_v84 main_cst_32

def fn_part3 {F : FTy → Type} [FloatOps F] (main_arg7 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg7 main_arg13 main_arg14 main_arg15 main_arg16 main_arg17 main_arg18 main_arg19 main_arg20 main_arg21 main_arg22 main_arg23 main_arg24 main_arg25 main_v63 main_v67

def fn_part2 {F : FTy → Type} [FloatOps F] (main_arg7 : FVec F S128 .f32) (main_arg8 : FVec F S128x768 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x768 .f32 := Host.absf main_arg8
  let main_cst_14 : FVec F S_ .f32 := constant S_ .f32 0x7F800000#32
  let main_v40 : FVec F S128x768 .f32 := broadcastInDim S128x768 ![] bcast_S_S128x768 main_cst_14
  let main_v41 : IVec S128x768 1 := cmpf .olt main_v39 main_v40
  let main_c_15 : IVec S_ 1 := constantI S_ 1 1#1
  let main_v42 : IVec S_ 1 := (fun x v => Host.reduce IntOp.andi x v reducesTo_S128x768_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg7 main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128x768 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x512 .f32) (main_arg1 : FVec F S50000x768 .f32) (main_arg2 : FVec F S128x512 .f32) (main_arg3 : FVec F S128 .f32) (main_arg4 : FVec F S128 .f32) (main_arg5 : FVec F S128 .f32) (main_arg6 : FVec F S128 .f32) (main_arg7 : FVec F S128 .f32) (main_arg8 : FVec F S128x768 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : IVec S2000000 32) (main_arg27 : IVec S2000000 32) (main_arg28 : IVec S500000 32) (main_arg29 : IVec S500000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S50000x768 .f32 := Host.absf main_arg1
  let main_cst_0 : FVec F S_ .f32 := constant S_ .f32 0x7F800000#32
  let main_v5 : FVec F S50000x768 .f32 := broadcastInDim S50000x768 ![] bcast_S_S50000x768 main_cst_0
  let main_v6 : IVec S50000x768 1 := cmpf .olt main_v4 main_v5
  let main_c_1 : IVec S_ 1 := constantI S_ 1 1#1
  let main_v7 : IVec S_ 1 := (fun x v => Host.reduce IntOp.andi x v reducesTo_S50000x768_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x512 : Shape := ⟨2, ![100000, 512]⟩
abbrev S50000x768 : Shape := ⟨2, ![50000, 768]⟩
abbrev S128x512 : Shape := ⟨2, ![128, 512]⟩
abbrev S128 : Shape := ⟨1, ![128]⟩
abbrev S128x768 : Shape := ⟨2, ![128, 768]⟩
abbrev S128x128 : Shape := ⟨2, ![128, 128]⟩
abbrev S2000000 : Shape := ⟨1, ![2000000]⟩
abbrev S500000 : Shape := ⟨1, ![500000]⟩
abbrev S_ : Shape := ⟨0, ![]⟩
abbrev S512x128 : Shape := ⟨2, ![512, 128]⟩
abbrev S1x128 : Shape := ⟨2, ![1, 128]⟩
abbrev S100000x128 : Shape := ⟨2, ![100000, 128]⟩
abbrev S5000x512 : Shape := ⟨2, ![5000, 512]⟩
abbrev S5000x128 : Shape := ⟨2, ![5000, 128]⟩
abbrev S768x128 : Shape := ⟨2, ![768, 128]⟩
abbrev S50000x128 : Shape := ⟨2, ![50000, 128]⟩
abbrev S2000x768 : Shape := ⟨2, ![2000, 768]⟩
abbrev S2000x128 : Shape := ⟨2, ![2000, 128]⟩
abbrev S50000 : Shape := ⟨1, ![50000]⟩
abbrev S2000000x1 : Shape := ⟨2, ![2000000, 1]⟩
abbrev S100000 : Shape := ⟨1, ![100000]⟩
abbrev S50000x1 : Shape := ⟨2, ![50000, 1]⟩
abbrev S100000x1 : Shape := ⟨2, ![100000, 1]⟩
abbrev S2000000x128 : Shape := ⟨2, ![2000000, 128]⟩
abbrev S500000x1 : Shape := ⟨2, ![500000, 1]⟩
abbrev S500000x128 : Shape := ⟨2, ![500000, 128]⟩

abbrev nBuf : Space → Nat
  | .hbm => 181
  | .vmem => 50
  | .smem => 0
  | _ => 0

abbrev hbmTy0_0 (i : Nat) : BufTy := match i % 128 with
  | 0 => ⟨S100000x512, .f32⟩
  | 1 => ⟨S50000x768, .f32⟩
  | 2 => ⟨S128x512, .f32⟩
  | 3 => ⟨S128, .f32⟩
  | 4 => ⟨S128, .f32⟩
  | 5 => ⟨S128, .f32⟩
  | 6 => ⟨S128, .f32⟩
  | 7 => ⟨S128, .f32⟩
  | 8 => ⟨S128x768, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S2000000, .i32⟩
  | 27 => ⟨S2000000, .i32⟩
  | 28 => ⟨S500000, .i32⟩
  | 29 => ⟨S500000, .i32⟩
  | 30 => ⟨S_, .f32⟩
  | 31 => ⟨S128, .f32⟩
  | 32 => ⟨S128, .f32⟩
  | 33 => ⟨S128, .f32⟩
  | 34 => ⟨S128, .f32⟩
  | 35 => ⟨S128, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S128, .f32⟩
  | 44 => ⟨S128, .f32⟩
  | 45 => ⟨S128, .f32⟩
  | 46 => ⟨S512x128, .f32⟩
  | 47 => ⟨S1x128, .f32⟩
  | 48 => ⟨S1x128, .f32⟩
  | 49 => ⟨S100000x128, .bf16⟩
  | 50 => ⟨S768x128, .f32⟩
  | 51 => ⟨S1x128, .f32⟩
  | 52 => ⟨S1x128, .f32⟩
  | 53 => ⟨S50000x128, .bf16⟩
  | 54 => ⟨S_, .f32⟩
  | 55 => ⟨S2000000, .f32⟩
  | 56 => ⟨S_, .f32⟩
  | 57 => ⟨S50000, .f32⟩
  | 58 => ⟨S2000000x1, .i32⟩
  | 59 => ⟨S50000, .f32⟩
  | 60 => ⟨S_, .f32⟩
  | 61 => ⟨S100000, .f32⟩
  | 62 => ⟨S2000000x1, .i32⟩
  | 63 => ⟨S100000, .f32⟩
  | 64 => ⟨S_, .f32⟩
  | 65 => ⟨S50000, .f32⟩
  | 66 => ⟨S50000, .f32⟩
  | 67 => ⟨S_, .f32⟩
  | 68 => ⟨S50000, .f32⟩
  | 69 => ⟨S50000, .f32⟩
  | 70 => ⟨S50000x1, .f32⟩
  | 71 => ⟨S_, .f32⟩
  | 72 => ⟨S100000, .f32⟩
  | 73 => ⟨S100000, .f32⟩
  | 74 => ⟨S_, .f32⟩
  | 75 => ⟨S100000, .f32⟩
  | 76 => ⟨S100000, .f32⟩
  | 77 => ⟨S100000x1, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x128, .bf16⟩
  | 87 => ⟨S2000000x128, .f32⟩
  | 88 => ⟨S_, .f32⟩
  | 89 => ⟨S50000x128, .f32⟩
  | 90 => ⟨S2000000x1, .i32⟩
  | 91 => ⟨S50000x128, .f32⟩
  | 92 => ⟨S50000x128, .f32⟩
  | 93 => ⟨S50000x128, .f32⟩
  | 94 => ⟨S128x128, .f32⟩
  | 95 => ⟨S128x128, .f32⟩
  | 96 => ⟨S1x128, .f32⟩
  | 97 => ⟨S50000x128, .bf16⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x128, .bf16⟩
  | 107 => ⟨S2000000x128, .f32⟩
  | 108 => ⟨S_, .f32⟩
  | 109 => ⟨S100000x128, .f32⟩
  | 110 => ⟨S2000000x1, .i32⟩
  | 111 => ⟨S100000x128, .f32⟩
  | 112 => ⟨S100000x128, .f32⟩
  | 113 => ⟨S100000x128, .f32⟩
  | 114 => ⟨S128x128, .f32⟩
  | 115 => ⟨S128x128, .f32⟩
  | 116 => ⟨S1x128, .f32⟩
  | 117 => ⟨S100000x128, .bf16⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x128, .bf16⟩
  | 127 => ⟨S2000000x128, .f32⟩
  | _ => ⟨S100000x512, .f32⟩

abbrev hbmTy0_1 (i : Nat) : BufTy := match i % 128 with
  | 0 => ⟨S_, .f32⟩
  | 1 => ⟨S50000x128, .f32⟩
  | 2 => ⟨S2000000x1, .i32⟩
  | 3 => ⟨S50000x128, .f32⟩
  | 4 => ⟨S50000x128, .f32⟩
  | 5 => ⟨S50000x128, .f32⟩
  | 6 => ⟨S128x128, .f32⟩
  | 7 => ⟨S128x128, .f32⟩
  | 8 => ⟨S1x128, .f32⟩
  | 9 => ⟨S50000x128, .bf16⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x128, .bf16⟩
  | 19 => ⟨S2000000x128, .f32⟩
  | 20 => ⟨S_, .f32⟩
  | 21 => ⟨S100000x128, .f32⟩
  | 22 => ⟨S2000000x1, .i32⟩
  | 23 => ⟨S100000x128, .f32⟩
  | 24 => ⟨S100000x128, .f32⟩
  | 25 => ⟨S100000x128, .f32⟩
  | 26 => ⟨S128x128, .f32⟩
  | 27 => ⟨S128x128, .f32⟩
  | 28 => ⟨S1x128, .f32⟩
  | 29 => ⟨S100000x128, .bf16⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .bf16⟩
  | 39 => ⟨S500000x128, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x128, .bf16⟩
  | 49 => ⟨S500000x128, .f32⟩
  | 50 => ⟨S500000x128, .f32⟩
  | 51 => ⟨S_, .f32⟩
  | 52 => ⟨S500000, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S1x128, .f32⟩
  | .local _ .vmem, ⟨4, _⟩ => ⟨S1x128, .f32⟩
  | .local _ .vmem, ⟨5, _⟩ => ⟨S5000x128, .bf16⟩
  | .local _ .vmem, ⟨6, _⟩ => ⟨S5000x128, .bf16⟩
  | .local _ .vmem, ⟨7, _⟩ => ⟨S2000x768, .f32⟩
  | .local _ .vmem, ⟨8, _⟩ => ⟨S2000x768, .f32⟩
  | .local _ .vmem, ⟨9, _⟩ => ⟨S768x128, .f32⟩
  | .local _ .vmem, ⟨10, _⟩ => ⟨S1x128, .f32⟩
  | .local _ .vmem, ⟨11, _⟩ => ⟨S1x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .f32⟩
  | .local _ .vmem, ⟨15, _⟩ => ⟨S2000x128, .f32⟩
  | .local _ .vmem, ⟨16, _⟩ => ⟨S2000x128, .bf16⟩
  | .local _ .vmem, ⟨17, _⟩ => ⟨S2000x128, .bf16⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S2000x128, .bf16⟩
  | .local _ .vmem, ⟨22, _⟩ => ⟨S2000x128, .bf16⟩
  | .local _ .vmem, ⟨23, _⟩ => ⟨S5000x128, .f32⟩
  | .local _ .vmem, ⟨24, _⟩ => ⟨S5000x128, .f32⟩
  | .local _ .vmem, ⟨25, _⟩ => ⟨S5000x128, .bf16⟩
  | .local _ .vmem, ⟨26, _⟩ => ⟨S5000x128, .bf16⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S5000x128, .bf16⟩
  | .local _ .vmem, ⟨31, _⟩ => ⟨S5000x128, .bf16⟩
  | .local _ .vmem, ⟨32, _⟩ => ⟨S2000x128, .f32⟩
  | .local _ .vmem, ⟨33, _⟩ => ⟨S2000x128, .f32⟩
  | .local _ .vmem, ⟨34, _⟩ => ⟨S2000x128, .bf16⟩
  | .local _ .vmem, ⟨35, _⟩ => ⟨S2000x128, .bf16⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S2000x128, .bf16⟩
  | .local _ .vmem, ⟨40, _⟩ => ⟨S2000x128, .bf16⟩
  | .local _ .vmem, ⟨41, _⟩ => ⟨S5000x128, .f32⟩
  | .local _ .vmem, ⟨42, _⟩ => ⟨S5000x128, .f32⟩
  | .local _ .vmem, ⟨43, _⟩ => ⟨S5000x128, .bf16⟩
  | .local _ .vmem, ⟨44, _⟩ => ⟨S5000x128, .bf16⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S5000x128, .bf16⟩
  | .local _ .vmem, ⟨49, _⟩ => ⟨S5000x128, .bf16⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_cst_5 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_cst_7 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c : Ref sig .tc := ⟨.hbm, 78, rfl⟩
abbrev main_v39 : Ref sig .tc := ⟨.hbm, 79, rfl⟩
abbrev main_v40 : Ref sig .tc := ⟨.hbm, 80, rfl⟩
abbrev main_c_8 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_9 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_10 : Ref sig .tc := ⟨.hbm, 98, rfl⟩
abbrev main_v56 : Ref sig .tc := ⟨.hbm, 99, rfl⟩
abbrev main_v57 : Ref sig .tc := ⟨.hbm, 100, rfl⟩
abbrev main_c_11 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_12 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_13 : Ref sig .tc := ⟨.hbm, 118, rfl⟩
abbrev main_v73 : Ref sig .tc := ⟨.hbm, 119, rfl⟩
abbrev main_v74 : Ref sig .tc := ⟨.hbm, 120, rfl⟩
abbrev main_c_14 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_16 : Ref sig .tc := ⟨.hbm, 138, rfl⟩
abbrev main_v90 : Ref sig .tc := ⟨.hbm, 139, rfl⟩
abbrev main_v91 : Ref sig .tc := ⟨.hbm, 140, rfl⟩
abbrev main_c_17 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_18 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_19 : Ref sig .tc := ⟨.hbm, 158, rfl⟩
abbrev main_v107 : Ref sig .tc := ⟨.hbm, 159, rfl⟩
abbrev main_v108 : Ref sig .tc := ⟨.hbm, 160, rfl⟩
abbrev main_c_20 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_21 : Ref sig .tc := ⟨.hbm, 168, rfl⟩
abbrev main_v115 : Ref sig .tc := ⟨.hbm, 169, rfl⟩
abbrev main_v116 : Ref sig .tc := ⟨.hbm, 170, rfl⟩
abbrev main_c_22 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_23 : Ref sig .tc := ⟨.hbm, 179, rfl⟩
abbrev main_v124 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S128 : S_.BroadcastsInDim S128 (![] : Fin 0 → Fin S128.rank)
  transposes_S128x512_S512x128_1_0 : S128x512.Transposes [1, 0] S512x128
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  transposes_S128x768_S768x128_1_0 : S128x768.Transposes [1, 0] S768x128
  inb_S2000x768_S2000x768_0_0 : ∀ a, (![0, 0] : Fin 2 → Nat) a + S2000x768.size a ≤ S2000x768.size a
  h_S2000x768 : 0 < S2000x768.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S2000000 : S_.BroadcastsInDim S2000000 (![] : Fin 0 → Fin S2000000.rank)
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S50000_S50000x1_0 : S50000.BroadcastsInDim S50000x1 (![0] : Fin 1 → Fin S50000x1.rank)
  bcast_S100000_S100000x1_0 : S100000.BroadcastsInDim S100000x1 (![0] : Fin 1 → Fin S100000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  dot_S5000x512_S512x128_S5000x128_1_0_0_1_n_n_wf : DotDims.WF S5000x512 S512x128 S5000x128 [1] [0] [0] [1] [] []
  dot_S2000x768_S768x128_S2000x128_1_0_0_1_n_n_wf : DotDims.WF S2000x768 S768x128 S2000x128 [1] [0] [0] [1] [] []
  scatter_S50000_S2000000x1_S2000000_n_0_0_1_wf : ScatterDims.WF S50000 S2000000x1 S2000000 [] [0] [0] 1
  scatter_S100000_S2000000x1_S2000000_n_0_0_1_wf : ScatterDims.WF S100000 S2000000x1 S2000000 [] [0] [0] 1
  gather_S100000x128_S2000000x1_S2000000x128_1_0_n_n_0_1_1128_wf : GatherDims.WF S100000x128 S2000000x1 S2000000x128 [1] [0] [] [0] [] 1 ![1, 128]
  scatter_S50000x128_S2000000x1_S2000000x128_1_0_0_1_wf : ScatterDims.WF S50000x128 S2000000x1 S2000000x128 [1] [0] [0] 1
  dot_S2000x128_S128x128_S2000x128_1_0_0_1_n_n_wf : DotDims.WF S2000x128 S128x128 S2000x128 [1] [0] [0] [1] [] []
  gather_S50000x128_S2000000x1_S2000000x128_1_0_n_n_0_1_1128_wf : GatherDims.WF S50000x128 S2000000x1 S2000000x128 [1] [0] [] [0] [] 1 ![1, 128]
  scatter_S100000x128_S2000000x1_S2000000x128_1_0_0_1_wf : ScatterDims.WF S100000x128 S2000000x1 S2000000x128 [1] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S50000x768.size a
  hwx1_0 : ∀ i : grid1.Coords, EltTy.bits .f32 = 32 ∨ (Rect.block (s := S50000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x128.size a ≤ S768x128.size a
  hwx1_1 : ∀ i : grid1.Coords, EltTy.bits .f32 = 32 ∨ (Rect.block (s := S768x128) S768x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .bf16 = 32 ∨ (Rect.block (s := S50000x128) S2000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .bf16 = 32 ∨ (Rect.block (s := S100000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .bf16 = 32 ∨ (Rect.block (s := S100000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .bf16 = 32 ∨ (Rect.block (s := S50000x128) S2000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .bf16 = 32 ∨ (Rect.block (s := S50000x128) S2000x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .bf16 = 32 ∨ (Rect.block (s := S100000x128) S5000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .bf16 = 32 ∨ (Rect.block (s := S100000x128) S5000x128.size (cc5_transform_5 i) (hinb5_5 i)).WholeWords (EltTy.packing .bf16)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S50000x128_S2000000x1_S2000000x128_1_0_0_1 : ScatterDims S50000x128 S2000000x1 S2000000x128 where
  updateWindowDims := [1]
  insertedWindowDims := [0]
  scatterDimsToOperandDims := [0]
  indexVectorDim := 1
  wf := scatter_S50000x128_S2000000x1_S2000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S768x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v102) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x512 : Shape := ⟨2, ![100000, 512]⟩
abbrev S50000x768 : Shape := ⟨2, ![50000, 768]⟩
abbrev S128x512 : Shape := ⟨2, ![128, 512]⟩
abbrev S128 : Shape := ⟨1, ![128]⟩
abbrev S128x768 : Shape := ⟨2, ![128, 768]⟩
abbrev S128x128 : Shape := ⟨2, ![128, 128]⟩
abbrev S2000000 : Shape := ⟨1, ![2000000]⟩
abbrev S500000 : Shape := ⟨1, ![500000]⟩
abbrev S512x128 : Shape := ⟨2, ![512, 128]⟩
abbrev S100000x128 : Shape := ⟨2, ![100000, 128]⟩
abbrev S1x128 : Shape := ⟨2, ![1, 128]⟩
abbrev S_ : Shape := ⟨0, ![]⟩
abbrev S768x128 : Shape := ⟨2, ![768, 128]⟩
abbrev S50000x128 : Shape := ⟨2, ![50000, 128]⟩
abbrev S2000000x1 : Shape := ⟨2, ![2000000, 1]⟩
abbrev S2000000x128 : Shape := ⟨2, ![2000000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 233
  | .vmem => 0
  | .smem => 0
  | _ => 0

abbrev hbmTy0_0 (i : Nat) : BufTy := match i % 128 with
  | 0 => ⟨S100000x512, .f32⟩
  | 1 => ⟨S50000x768, .f32⟩
  | 2 => ⟨S128x512, .f32⟩
  | 3 => ⟨S128, .f32⟩
  | 4 => ⟨S128, .f32⟩
  | 5 => ⟨S128, .f32⟩
  | 6 => ⟨S128, .f32⟩
  | 7 => ⟨S128, .f32⟩
  | 8 => ⟨S128x768, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S2000000, .i32⟩
  | 27 => ⟨S2000000, .i32⟩
  | 28 => ⟨S500000, .i32⟩
  | 29 => ⟨S500000, .i32⟩
  | 30 => ⟨S512x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S768x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x128, .f32⟩
  | 83 => ⟨S_, .f32⟩
  | 84 => ⟨S50000x128, .f32⟩
  | 85 => ⟨S2000000x1, .i32⟩
  | 86 => ⟨S50000x128, .f32⟩
  | 87 => ⟨S_, .f32⟩
  | 88 => ⟨S2000000, .f32⟩
  | 89 => ⟨S_, .f32⟩
  | 90 => ⟨S50000, .f32⟩
  | 91 => ⟨S2000000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S128x128, .f32⟩
  | 100 => ⟨S50000x128, .f32⟩
  | 101 => ⟨S1x128, .f32⟩
  | 102 => ⟨S50000x128, .f32⟩
  | 103 => ⟨S50000x128, .f32⟩
  | 104 => ⟨S128x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x128, .f32⟩
  | 119 => ⟨S_, .f32⟩
  | 120 => ⟨S100000x128, .f32⟩
  | 121 => ⟨S2000000x1, .i32⟩
  | 122 => ⟨S100000x128, .f32⟩
  | 123 => ⟨S_, .f32⟩
  | 124 => ⟨S2000000, .f32⟩
  | 125 => ⟨S_, .f32⟩
  | 126 => ⟨S100000, .f32⟩
  | 127 => ⟨S2000000x1, .i32⟩
  | _ => ⟨S100000x512, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S128x128, .f32⟩
  | 8 => ⟨S100000x128, .f32⟩
  | 9 => ⟨S1x128, .f32⟩
  | 10 => ⟨S100000x128, .f32⟩
  | 11 => ⟨S100000x128, .f32⟩
  | 12 => ⟨S128x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x128, .f32⟩
  | 27 => ⟨S_, .f32⟩
  | 28 => ⟨S50000x128, .f32⟩
  | 29 => ⟨S2000000x1, .i32⟩
  | 30 => ⟨S50000x128, .f32⟩
  | 31 => ⟨S_, .f32⟩
  | 32 => ⟨S2000000, .f32⟩
  | 33 => ⟨S_, .f32⟩
  | 34 => ⟨S50000, .f32⟩
  | 35 => ⟨S2000000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S128x128, .f32⟩
  | 44 => ⟨S50000x128, .f32⟩
  | 45 => ⟨S1x128, .f32⟩
  | 46 => ⟨S50000x128, .f32⟩
  | 47 => ⟨S50000x128, .f32⟩
  | 48 => ⟨S128x128, .f32⟩
  | 49 => ⟨S50000x128, .f32⟩
  | 50 => ⟨S50000x128, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x128, .f32⟩
  | 60 => ⟨S_, .f32⟩
  | 61 => ⟨S100000x128, .f32⟩
  | 62 => ⟨S2000000x1, .i32⟩
  | 63 => ⟨S100000x128, .f32⟩
  | 64 => ⟨S_, .f32⟩
  | 65 => ⟨S2000000, .f32⟩
  | 66 => ⟨S_, .f32⟩
  | 67 => ⟨S100000, .f32⟩
  | 68 => ⟨S2000000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S128x128, .f32⟩
  | 77 => ⟨S100000x128, .f32⟩
  | 78 => ⟨S1x128, .f32⟩
  | 79 => ⟨S100000x128, .f32⟩
  | 80 => ⟨S100000x128, .f32⟩
  | 81 => ⟨S128x128, .f32⟩
  | 82 => ⟨S100000x128, .f32⟩
  | 83 => ⟨S100000x128, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x128, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x128, .f32⟩
  | 102 => ⟨S500000x128, .f32⟩
  | 103 => ⟨S_, .f32⟩
  | 104 => ⟨S500000, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call0_cst : Ref sig .tc := ⟨.hbm, 49, rfl⟩
abbrev main_call0_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_0 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_call1_cst : Ref sig .tc := ⟨.hbm, 71, rfl⟩
abbrev main_call1_v0 : Ref sig .tc := ⟨.hbm, 72, rfl⟩
abbrev main_v37 : Ref sig .tc := ⟨.hbm, 73, rfl⟩
abbrev main_c : Ref sig .tc := ⟨.hbm, 74, rfl⟩
abbrev main_v38 : Ref sig .tc := ⟨.hbm, 75, rfl⟩
abbrev main_v39 : Ref sig .tc := ⟨.hbm, 76, rfl⟩
abbrev main_c_1 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_2 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_3 : Ref sig .tc := ⟨.hbm, 87, rfl⟩
abbrev main_v48 : Ref sig .tc := ⟨.hbm, 88, rfl⟩
abbrev main_cst_4 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_5 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call2_cst : Ref sig .tc := ⟨.hbm, 107, rfl⟩
abbrev main_call2_v0 : Ref sig .tc := ⟨.hbm, 108, rfl⟩
abbrev main_v65 : Ref sig .tc := ⟨.hbm, 109, rfl⟩
abbrev main_c_6 : Ref sig .tc := ⟨.hbm, 110, rfl⟩
abbrev main_v66 : Ref sig .tc := ⟨.hbm, 111, rfl⟩
abbrev main_v67 : Ref sig .tc := ⟨.hbm, 112, rfl⟩
abbrev main_c_7 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_8 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_9 : Ref sig .tc := ⟨.hbm, 123, rfl⟩
abbrev main_v76 : Ref sig .tc := ⟨.hbm, 124, rfl⟩
abbrev main_cst_10 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_11 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call3_cst : Ref sig .tc := ⟨.hbm, 143, rfl⟩
abbrev main_call3_v0 : Ref sig .tc := ⟨.hbm, 144, rfl⟩
abbrev main_v93 : Ref sig .tc := ⟨.hbm, 145, rfl⟩
abbrev main_c_12 : Ref sig .tc := ⟨.hbm, 146, rfl⟩
abbrev main_v94 : Ref sig .tc := ⟨.hbm, 147, rfl⟩
abbrev main_v95 : Ref sig .tc := ⟨.hbm, 148, rfl⟩
abbrev main_c_13 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_14 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_15 : Ref sig .tc := ⟨.hbm, 159, rfl⟩
abbrev main_v104 : Ref sig .tc := ⟨.hbm, 160, rfl⟩
abbrev main_cst_16 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_17 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_18 : Ref sig .tc := ⟨.hbm, 179, rfl⟩
abbrev main_v121 : Ref sig .tc := ⟨.hbm, 180, rfl⟩
abbrev main_v122 : Ref sig .tc := ⟨.hbm, 181, rfl⟩
abbrev main_c_19 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_20 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_21 : Ref sig .tc := ⟨.hbm, 192, rfl⟩
abbrev main_v131 : Ref sig .tc := ⟨.hbm, 193, rfl⟩
abbrev main_cst_22 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_23 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_c_24 : Ref sig .tc := ⟨.hbm, 212, rfl⟩
abbrev main_v148 : Ref sig .tc := ⟨.hbm, 213, rfl⟩
abbrev main_v149 : Ref sig .tc := ⟨.hbm, 214, rfl⟩
abbrev main_c_25 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_c_26 : Ref sig .tc := ⟨.hbm, 221, rfl⟩
abbrev main_v155 : Ref sig .tc := ⟨.hbm, 222, rfl⟩
abbrev main_v156 : Ref sig .tc := ⟨.hbm, 223, rfl⟩
abbrev main_c_27 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_28 : Ref sig .tc := ⟨.hbm, 231, rfl⟩
abbrev main_v163 : Ref sig .tc := ⟨.hbm, 232, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  transposes_S128x768_S768x128_1_0 : S128x768.Transposes [1, 0] S768x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  dot_S100000x512_S512x128_S100000x128_1_0_0_1_n_n_wf : DotDims.WF S100000x512 S512x128 S100000x128 [1] [0] [0] [1] [] []
  dot_S50000x768_S768x128_S50000x128_1_0_0_1_n_n_wf : DotDims.WF S50000x768 S768x128 S50000x128 [1] [0] [0] [1] [] []
  gather_S100000x128_S2000000x1_S2000000x128_1_0_n_n_0_1_1128_wf : GatherDims.WF S100000x128 S2000000x1 S2000000x128 [1] [0] [] [0] [] 1 ![1, 128]
  scatter_S50000x128_S2000000x1_S2000000x128_1_0_0_1_wf : ScatterDims.WF S50000x128 S2000000x1 S2000000x128 [1] [0] [0] 1
  scatter_S50000_S2000000x1_S2000000_n_0_0_1_wf : ScatterDims.WF S50000 S2000000x1 S2000000 [] [0] [0] 1
  dot_S50000x128_S128x128_S50000x128_1_0_0_1_n_n_wf : DotDims.WF S50000x128 S128x128 S50000x128 [1] [0] [0] [1] [] []
  gather_S50000x128_S2000000x1_S2000000x128_1_0_n_n_0_1_1128_wf : GatherDims.WF S50000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S50000x128_S2000000x1_S2000000x128_1_0_0_1 : ScatterDims S50000x128 S2000000x1 S2000000x128 where
  updateWindowDims := [1]
  insertedWindowDims := [0]
  scatterDimsToOperandDims := [0]
  indexVectorDim := 1
  wf := scatter_S50000x128_S2000000x1_S2000000x128_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

class Facts : Prop extends Facts₀ where

variable [Facts]
-- ==== Proof.KernelRun.lean ====
/-
  The idealized kernel's run, with its result named.

  The program is thirteen segments: seven stretches of host operations and six pipelined regions between them.
  The buffer contents at each boundary are a fold through the segments from the launch memory: a host stretch
  applies its operations to the contents it finds, and a region leaves in each of its arrays what its grid points
  wrote back, every other buffer as it found it. Every weakly fair execution terminates without fault, and the
  final memory holds at every unscoped buffer the last boundary's contents. Read at the thirty argument arrays
  this gives the frame; read at the result buffer it gives the result as the last boundary's contents there,
  which is what this module states. The equivalence proof then evaluates that fold.
-/
import proofs.«160307_j3882650436638_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v124) = W13 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v124 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c),
       (h c _ (mem_uc main_arg24 (by decide))).trans (W13_main_arg24 m ρ c),
       (h c _ (mem_uc main_arg25 (by decide))).trans (W13_main_arg25 m ρ c),
       (h c _ (mem_uc main_arg26 (by decide))).trans (W13_main_arg26 m ρ c),
       (h c _ (mem_uc main_arg27 (by decide))).trans (W13_main_arg27 m ρ c),
       (h c _ (mem_uc main_arg28 (by decide))).trans (W13_main_arg28 m ρ c),
       (h c _ (mem_uc main_arg29 (by decide))).trans (W13_main_arg29 m ρ c)⟩)

end Cert.KernelIdeal.ResultRun

end
-- ==== Proof.Finite.lean ====
/-
  From the precondition to "every entry is a real number".

  The precondition is one bit: the conjunction, over the twenty-six float arrays, of "every entry x has |x| < +∞",
  and of "every entry is ≥ 0" for the two variance rows. Over the extended reals |x| = max x (−x), and max x (−x) < ⊤
  excludes both ⊤ and ⊥, so x is the image of a real number; a real whose image is ≥ 0 is ≥ 0.

  The last statement is about the normalisation scale γ · rsqrt(var + ε): the word of ε denotes the positive real
  10995116 · 2⁻⁴⁰ (sign 0, exponent field 110, fraction field 2606508: (2²³ + 2606508) · 2^(110 − 127 − 23)), so
  var + ε is a positive real, its reciprocal square root is the real (√(var + ε))⁻¹, and the product with a real γ is real.
-/
import proofs.«160307_j3882650436638_2_alg».proof.Defs
import Idealize.ShloMosaic.Lib.ReduceAll
import Idealize.ShloMosaic.Lib.ValueIdx

noncomputable section

namespace Cert.Finite

open Cert.KernelIdeal Idealize.ShloMosaic Idealize.SL.Sem

/-- Every entry is (the image of) a real number. -/
def AllReal {s : Shape} (x : s.Idx → EReal) : Prop := ∀ i, ∃ r : ℝ, x i = (r : EReal)

/-- The word with all-ones exponent and zero fraction denotes +∞. -/
theorem inf_word : Ideal.ofBits .f32 0x7F800000#32 = (⊤ : EReal) := by
  simp [Ideal.ofBits, Ideal.ieee]

/-- The zero word denotes 0. -/
theorem zero_word : Ideal.ofBits .f32 0x00000000#32 = (0 : EReal) := by
  simp [Ideal.ofBits, Ideal.ieee]

/-- An extended real whose absolute value max x (−x) is below ⊤ is neither ⊤ nor ⊥: it is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- The comparison |x| < +∞ being 1 at an index says the entry there is a real number. -/
theorem elem_real {s : Shape} (x : s.Idx → EReal) (hb : S_.BroadcastsInDim s ![]) (i : s.Idx)
    (h : cmpf (F := Ideal) (φ := .f32) .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  unfold Ideal.cmp at h'
  rw [ofBool_eq_one] at h'
  exact real_of_abs_lt_top _ (of_decide_eq_true h')

/-- The comparison x ≥ 0 being 1 at an index says the entry there is ≥ 0. -/
theorem elem_nonneg {s : Shape} (x : s.Idx → EReal) (hb : S_.BroadcastsInDim s ![]) (i : s.Idx)
    (h : cmpf (F := Ideal) (φ := .f32) .oge x (broadcastInDim s ![] hb (constant S_ .f32 0x00000000#32)) i = 1#1) :
    0 ≤ x i := by
  have h' : Ideal.cmp .oge (x i) (Ideal.ofBits .f32 0x00000000#32) = 1#1 := h
  rw [zero_word] at h'
  unfold Ideal.cmp at h'
  rw [ofBool_eq_one] at h'
  exact of_decide_eq_true h'

/-- The rank-0 shape has one index. -/
instance : Subsingleton S_.Idx := ⟨fun a b => funext fun d => d.elim0⟩

/-- "All of |x| < +∞", reduced by conjunction over every axis to one bit that is 1: every entry of x is real. -/
theorem all_real_of_reduce {s : Shape} {axes : List (Fin s.rank)} (x : s.Idx → EReal) (hb : S_.BroadcastsInDim s ![])
    (hr : s.ReducesTo axes S_) (hu : 0 < S_.numel)
    (h : Host.reduce IntOp.andi (cmpf (F := Ideal) (φ := .f32) .olt (Host.absf x) (broadcastInDim s ![] hb (constant S_ .f32 0x7F800000#32)))
      (constantI S_ 1 1#1) hr hu ValueIdx.ix0 = 1#1) : AllReal x :=
  fun i => elem_real x hb i (Host.reduce_andi_all _ _ hr hu _ h i)

/-- "All of x ≥ 0", reduced to one bit that is 1, for an array of reals: every entry is a non-negative real. -/
theorem nonneg_of_reduce {s : Shape} {axes : List (Fin s.rank)} (x : s.Idx → EReal) (hb : S_.BroadcastsInDim s ![])
    (hr : s.ReducesTo axes S_) (hu : 0 < S_.numel) (hx : AllReal x)
    (h : Host.reduce IntOp.andi (cmpf (F := Ideal) (φ := .f32) .oge x (broadcastInDim s ![] hb (constant S_ .f32 0x00000000#32)))
      (constantI S_ 1 1#1) hr hu ValueIdx.ix0 = 1#1) : ∀ i, ∃ r : ℝ, 0 ≤ r ∧ x i = (r : EReal) := by
  intro i
  obtain ⟨r, hr'⟩ := hx i
  have h0 := elem_nonneg x hb i (Host.reduce_andi_all _ _ hr hu _ h i)
  rw [hr'] at h0
  exact ⟨r, EReal.coe_nonneg.1 h0, hr'⟩

/-- Under the precondition the first fourteen arrays hold real numbers only. The precondition's bit is a conjunction,
    nested to the left, of twenty-eight bits; a conjunction of bits is 1 exactly when both are. -/
theorem args_real [Cert.Pre_finite_inputs.Facts] (m : (ℓ : Loc nD τ sig) → Buf (Elt Ideal) ℓ) (h : Cert.Pre_KernelIdeal m) (c : Dev nD) :
      AllReal (m ((c.tc : Thread nD τ).loc main_arg0) : S100000x512.Idx → EReal) ∧
      AllReal (m ((c.tc : Thread nD τ).loc main_arg1) : S50000x768.Idx → EReal) ∧
      AllReal (m ((c.tc : Thread nD τ).loc main_arg2) : S128x512.Idx → EReal) ∧
      AllReal (m ((c.tc : Thread nD τ).loc main_arg3) : S128.Idx → EReal) ∧
      AllReal (m ((c.tc : Thread nD τ).loc main_arg4) : S128.Idx → EReal) ∧
      AllReal (m ((c.tc : Thread nD τ).loc main_arg5) : S128.Idx → EReal) ∧
      AllReal (m ((c.tc : Thread nD τ).loc main_arg6) : S128.Idx → EReal) ∧
      AllReal (m ((c.tc : Thread nD τ).loc main_arg7) : S128.Idx → EReal) ∧
      AllReal (m ((c.tc : Thread nD τ).loc main_arg8) : S128x768.Idx → EReal) ∧
      AllReal (m ((c.tc : Thread nD τ).loc main_arg9) : S128.Idx → EReal) ∧
      AllReal (m ((c.tc : Thread nD τ).loc main_arg10) : S128.Idx → EReal) ∧
      AllReal (m ((c.tc : Thread nD τ).loc main_arg11) : S128.Idx → EReal) ∧
      AllReal (m ((c.tc : Thread nD τ).loc main_arg12) : S128.Idx → EReal) ∧
      AllReal (m ((c.tc : Thread nD τ).loc main_arg13) : S128.Idx → EReal) := by
  have e := congrFun (h c) ValueIdx.ix0
  simp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7,
    Cert.Pre_finite_inputs.fn_part8, andi, IntOp.andi_eq_one] at e
  obtain ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ := e
  exact ⟨all_real_of_reduce _ _ _ _ h0, all_real_of_reduce _ _ _ _ h1, all_real_of_reduce _ _ _ _ h2, all_real_of_reduce _ _ _ _ h3,
    all_real_of_reduce _ _ _ _ h4, all_real_of_reduce _ _ _ _ h5, all_real_of_reduce _ _ _ _ h6, all_real_of_reduce _ _ _ _ h7,
    all_real_of_reduce _ _ _ _ h8, all_real_of_reduce _ _ _ _ h9, all_real_of_reduce _ _ _ _ h10, all_real_of_reduce _ _ _ _ h11,
    all_real_of_reduce _ _ _ _ h12, all_real_of_reduce _ _ _ _ h13⟩

/-- Under the precondition the two variance rows hold non-negative reals: the last two of the twenty-eight bits,
    with the finiteness bits of the same two rows. -/
theorem var_nonneg [Cert.Pre_finite_inputs.Facts] (m : (ℓ : Loc nD τ sig) → Buf (Elt Ideal) ℓ) (h : Cert.Pre_KernelIdeal m) (c : Dev nD) :
    (∀ i, ∃ r : ℝ, 0 ≤ r ∧ (m ((c.tc : Thread nD τ).loc main_arg7) : S128.Idx → EReal) i = (r : EReal)) ∧
    (∀ i, ∃ r : ℝ, 0 ≤ r ∧ (m ((c.tc : Thread nD τ).loc main_arg13) : S128.Idx → EReal) i = (r : EReal)) := by
  have e := congrFun (h c) ValueIdx.ix0
  simp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7,
    Cert.Pre_finite_inputs.fn_part8, andi, IntOp.andi_eq_one] at e
  obtain ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ := e
  exact ⟨nonneg_of_reduce _ _ _ _ (all_real_of_reduce _ _ _ _ h7) h26, nonneg_of_reduce _ _ _ _ (all_real_of_reduce _ _ _ _ h13) h27⟩

/-- The word of ε denotes the positive real 10995116 · 2⁻⁴⁰. -/
theorem eps_word : ∃ e : ℝ, 0 < e ∧ Ideal.ofBits .f32 0x3727C5AC#32 = (e : EReal) := by
  refine ⟨10995116 * ((2 : ℝ) ^ 40)⁻¹, by positivity, ?_⟩
  simp [Ideal.ofBits, Ideal.ieee]

/-- γ · rsqrt(var + ε) is real when γ is real and var is a non-negative real: var + ε is a positive real r, and the
    reciprocal square root of a positive real r is the real (√r)⁻¹. -/
theorem scale_real (g v : S128.Idx → EReal) (hb : S_.BroadcastsInDim S128 ![]) (hg : AllReal g) (hv : ∀ i, ∃ r : ℝ, 0 ≤ r ∧ v i = (r : EReal)) :
    AllReal (mulf (F := Ideal) (φ := .f32) g (Host.rsqrt (addf v (broadcastInDim S128 ![] hb (constant (F := Ideal) S_ .f32 0x3727C5AC#32))))) := by
  intro i
  obtain ⟨a, ha⟩ := hg i
  obtain ⟨r, hr0, hr⟩ := hv i
  obtain ⟨e, he0, he⟩ := eps_word
  have hre : ¬ (r + e < 0) := by linarith
  have hre' : r + e ≠ 0 := by linarith
  show ∃ q : ℝ, g i * Ideal.rsqrt (v i + Ideal.ofBits .f32 0x3727C5AC#32) = (q : EReal)
  rw [ha, hr, he, ← EReal.coe_add, Ideal.rsqrt_coe, if_neg hre, if_neg hre', ← EReal.coe_mul]
  exact ⟨_, rfl⟩

end Cert.Finite

end
-- ==== Proof.LibDenseStages.lean ====
/-
  The arithmetic of the network's dense stages, entry by entry, over the extended reals.

  A matrix is a function of a two-coordinate index. The product of an m-by-k matrix A and a k-by-n matrix W at
  (p, q) is the sum over c of A(p, c) · W(c, q). An encoder stage clamps at zero an affine image of such a product;
  a graph-convolution stage adds two such products and a bias row, and clamps or not.

  Each stage is written twice, in the two orders of operations that occur:
  * the encoder with the normalisation folded into one scale row and one bias row applied after the product,
    against the encoder that adds the linear bias, subtracts the running mean, multiplies by the scale and adds
    the shift, in that order;
  * the convolution that adds the two products first and the bias last, against the one that adds the bias
    between the two products.
  The convolution's two forms agree on all extended reals (addition is commutative and associative there). The
  encoder's two forms agree when the product, the bias, the mean and the scale are real numbers: then
  (z + b − μ)·s + β = z·s + ((b − μ)·s + β) is distributivity in the reals.
-/
import Idealize.ShloMosaic.Lib.ValueIdx
import Idealize.ShloMosaic.PureOps.Ideal.Laws

noncomputable section

namespace DenseStages

open Idealize.ShloMosaic Idealize.ShloMosaic.ValueIdx

variable {m k n : Nat}

/-- A matrix of extended reals, entry by entry. -/
abbrev Mat (m n : Nat) := (⟨2, ![m, n]⟩ : Shape).Idx → EReal
/-- A vector of extended reals, entry by entry. -/
abbrev Vec1 (n : Nat) := (⟨1, ![n]⟩ : Shape).Idx → EReal

/-- The value of the zero word. -/
abbrev z32 : EReal := Ideal.ofBits .f32 0x00000000#32

/-- Entry (p, q) of the product A·W. -/
def dotAt (A : Mat m k) (W : Mat k n) (p : Fin m) (q : Fin n) : EReal := ∑ c : Fin k, A (ix2 p c) * W (ix2 c q)

/-- Entry (p, q) of the encoder with folded normalisation: max(z·s + t, 0), s and t one-row matrices. -/
def encFoldedAt (x : Mat m k) (Wt : Mat k n) (sc bi : Mat 1 n) (p : Fin m) (q : Fin n) : EReal :=
  max (dotAt x Wt p q * sc (ix2 (0 : Fin 1) q) + bi (ix2 (0 : Fin 1) q)) z32

/-- The encoder with folded normalisation, as a matrix. -/
def encFolded (x : Mat m k) (Wt : Mat k n) (sc bi : Mat 1 n) : Mat m n := fun i => encFoldedAt x Wt sc bi (i 0) (i 1)

theorem encFolded_apply (x : Mat m k) (Wt : Mat k n) (sc bi : Mat 1 n) (p : Fin m) (q : Fin n) :
    encFolded x Wt sc bi (ix2 p q) = encFoldedAt x Wt sc bi p q := rfl

/-- Entry (p, q) of the encoder in the order bias, mean, scale, shift: max(((z + b) − μ)·s + β, 0). -/
def encStepsAt (x : Mat m k) (Wt : Mat k n) (b mu s beta : Vec1 n) (p : Fin m) (q : Fin n) : EReal :=
  max (((dotAt x Wt p q + b (ix1 q)) - mu (ix1 q)) * s (ix1 q) + beta (ix1 q)) z32

/-- The encoder in the order bias, mean, scale, shift, as a matrix. -/
def encSteps (x : Mat m k) (Wt : Mat k n) (b mu s beta : Vec1 n) : Mat m n := fun i => encStepsAt x Wt b mu s beta (i 0) (i 1)

theorem encSteps_apply (x : Mat m k) (Wt : Mat k n) (b mu s beta : Vec1 n) (p : Fin m) (q : Fin n) :
    encSteps x Wt b mu s beta (ix2 p q) = encStepsAt x Wt b mu s beta p q := rfl

/-- Clamp at zero, or not. -/
def clampIf (relu : Bool) (v : EReal) : EReal := if relu then max v z32 else v

/-- Entry (p, q) of the convolution stage with the bias last: (a·Wl + x·Wr) + bl, bl a one-row matrix. -/
def convBiasLastAt (relu : Bool) (a x : Mat m k) (Wl Wr : Mat k n) (bl : Mat 1 n) (p : Fin m) (q : Fin n) : EReal :=
  clampIf relu ((dotAt a Wl p q + dotAt x Wr p q) + bl (ix2 (0 : Fin 1) q))

def convBiasLast (relu : Bool) (a x : Mat m k) (Wl Wr : Mat k n) (bl : Mat 1 n) : Mat m n :=
  fun i => convBiasLastAt relu a x Wl Wr bl (i 0) (i 1)

theorem convBiasLast_apply (relu : Bool) (a x : Mat m k) (Wl Wr : Mat k n) (bl : Mat 1 n) (p : Fin m) (q : Fin n) :
    convBiasLast relu a x Wl Wr bl (ix2 p q) = convBiasLastAt relu a x Wl Wr bl p q := rfl

/-- Entry (p, q) of the convolution stage with the bias between the products: (a·Wl + bl) + x·Wr, bl a vector. -/
def convBiasMidAt (relu : Bool) (a x : Mat m k) (Wl Wr : Mat k n) (bl : Vec1 n) (p : Fin m) (q : Fin n) : EReal :=
  clampIf relu ((dotAt a Wl p q + bl (ix1 q)) + dotAt x Wr p q)

def convBiasMid (relu : Bool) (a x : Mat m k) (Wl Wr : Mat k n) (bl : Vec1 n) : Mat m n :=
  fun i => convBiasMidAt relu a x Wl Wr bl (i 0) (i 1)

theorem convBiasMid_apply (relu : Bool) (a x : Mat m k) (Wl Wr : Mat k n) (bl : Vec1 n) (p : Fin m) (q : Fin n) :
    convBiasMid relu a x Wl Wr bl (ix2 p q) = convBiasMidAt relu a x Wl Wr bl p q := rfl

/-- The two convolution forms agree when the bias row is the bias vector laid as one row. -/
theorem convBiasLastAt_eq_mid (relu : Bool) (a x : Mat m k) (Wl Wr : Mat k n) (bl : Mat 1 n) (bv : Vec1 n)
    (hb : ∀ q : Fin n, bl (ix2 (0 : Fin 1) q) = bv (ix1 q)) (p : Fin m) (q : Fin n) :
    convBiasLastAt relu a x Wl Wr bl p q = convBiasMidAt relu a x Wl Wr bv p q := by
  unfold convBiasLastAt convBiasMidAt
  rw [hb q, add_right_comm]

/-- A finite sum of real numbers, formed in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih (fun i hi => hf i (Finset.mem_insert_of_mem hi))
    obtain ⟨ra, hra⟩ := hf a (Finset.mem_insert_self a s)
    exact ⟨ra + r, by rw [Finset.sum_insert ha, hr, hra, EReal.coe_add]⟩

/-- The product of two matrices of real numbers has real entries. -/
theorem exists_real_dotAt (A : Mat m k) (W : Mat k n) (hA : ∀ i, ∃ r : ℝ, A i = (r : EReal)) (hW : ∀ i, ∃ r : ℝ, W i = (r : EReal))
    (p : Fin m) (q : Fin n) : ∃ r : ℝ, dotAt A W p q = (r : EReal) := by
  unfold dotAt
  refine exists_real_sum _ _ fun c _ => ?_
  obtain ⟨a, ha⟩ := hA (ix2 p c)
  obtain ⟨w, hw⟩ := hW (ix2 c q)
  exact ⟨a * w, by rw [ha, hw, EReal.coe_mul]⟩

/-- The folded encoder is the stepwise encoder when the inputs, the weights, the bias, the mean and the scale are real:
    with sc = s and bi = (b − μ)·s + β entrywise, z·s + ((b − μ)·s + β) = ((z + b) − μ)·s + β. -/
theorem encFoldedAt_eq_steps (x : Mat m k) (Wt : Mat k n) (sc bi : Mat 1 n) (b mu s beta : Vec1 n)
    (hx : ∀ i, ∃ r : ℝ, x i = (r : EReal)) (hW : ∀ i, ∃ r : ℝ, Wt i = (r : EReal))
    (hbr : ∀ i, ∃ r : ℝ, b i = (r : EReal)) (hmu : ∀ i, ∃ r : ℝ, mu i = (r : EReal)) (hs : ∀ i, ∃ r : ℝ, s i = (r : EReal))
    (hsc : ∀ q : Fin n, sc (ix2 (0 : Fin 1) q) = s (ix1 q))
    (hbi : ∀ q : Fin n, bi (ix2 (0 : Fin 1) q) = (b (ix1 q) - mu (ix1 q)) * s (ix1 q) + beta (ix1 q))
    (p : Fin m) (q : Fin n) :
    encFoldedAt x Wt sc bi p q = encStepsAt x Wt b mu s beta p q := by
  unfold encFoldedAt encStepsAt
  rw [hsc q, hbi q]
  obtain ⟨z, hz⟩ := exists_real_dotAt x Wt hx hW p q
  obtain ⟨rb, hrb⟩ := hbr (ix1 q)
  obtain ⟨rm, hrm⟩ := hmu (ix1 q)
  obtain ⟨rs, hrs⟩ := hs (ix1 q)
  rw [hz, hrb, hrm, hrs]
  congr 1
  rw [← add_assoc]
  congr 1
  rw [← EReal.coe_sub, ← EReal.coe_mul, ← EReal.coe_mul, ← EReal.coe_add, ← EReal.coe_add, ← EReal.coe_sub, ← EReal.coe_mul]
  congr 1
  ring

end DenseStages

end
-- ==== Proof.LibDenseRows.lean ====
/-
  A dense layer acts on a matrix one row at a time.

  For a matrix A (m rows of k entries), a weight matrix W (k by n) and a bias laid as a one-row matrix B (1 by n),
  row p of  A·W + B  is the affine image  a ↦ a·W + B  of row p of A, and nothing else of A enters it. The same
  holds after clamping at zero, after a second such layer, and after adding the input row back. So each dense
  stage of the network is a function of one row applied to every row, and a block of consecutive rows of the
  result is that function applied to the same rows of the input.

  Two spellings of one affine layer are read here at row p and column q:
  * a product accumulated into a zero matrix, plus the one-row bias copied down the rows by aligning trailing axes;
  * a plain product, plus the one-row bias copied down the rows by naming the axes.
  Both are  ∑ c, A(p, c) · W(c, q) + B(0, q): the accumulator is the extended real 0 and 0 + x = x, so no
  finiteness is used. A vector laid as a one-row matrix is the same matrix whether it is recast or broadcast.
-/
import Idealize.ShloMosaic.Lib.StackMember
import Idealize.ShloMosaic.Lib.KernelVsHost
import Idealize.ShloMosaic.Lib.ValueLayout
import Idealize.ShloMosaic.PureOps.Ideal.Laws

noncomputable section

namespace DenseRows

open Idealize.ShloMosaic Idealize.ShloMosaic.ValueIdx Idealize.ShloMosaic.StackMember

variable {m k n : Nat}

/-- A matrix of extended reals, entry by entry. -/
abbrev Mat (m n : Nat) := (⟨2, ![m, n]⟩ : Shape).Idx → EReal

/-- Row p of a matrix. -/
def row (A : Mat m k) (p : Fin m) : Fin k → EReal := fun c => A (ix2 p c)

/-- The affine image of one row: a·W + B, with B a one-row matrix. -/
def affine (W : Mat k n) (B : Mat 1 n) (a : Fin k → EReal) : Fin n → EReal :=
  fun q => (∑ c : Fin k, a c * W (ix2 c q)) + B (ix2 (0 : Fin 1) q)

/-- A row clamped below at the zero word's value. -/
def clamp (v : Fin n → EReal) : Fin n → EReal := fun q => max (v q) (Ideal.ofBits .f32 0x00000000#32)

/-- A function of one row applied to every row of a matrix. -/
def onRows (f : (Fin k → EReal) → Fin n → EReal) (A : Mat m k) : Mat m n := fun i => f (row A (i 0)) (i 1)

theorem onRows_apply (f : (Fin k → EReal) → Fin n → EReal) (A : Mat m k) (p : Fin m) (q : Fin n) :
    onRows f A (ix2 p q) = f (row A p) q := rfl

variable {α : Type}

/-- A one-row matrix copied down m rows by aligning trailing axes: at (p, q) it is the row's entry q. -/
theorem broadcastTo_oneRow_apply (B : (⟨2, ![1, n]⟩ : Shape).Idx → α)
    (h : (⟨2, ![1, n]⟩ : Shape).Broadcasts ⟨2, ![m, n]⟩) (p : Fin m) (q : Fin n) :
    broadcastTo ⟨2, ![m, n]⟩ B h (ix2 p q) = B (ix2 (0 : Fin 1) q) := by
  refine broadcastTo_apply B h (ix2 p q) (ix2 (0 : Fin 1) q) fun ax => ?_
  match ax with
  | ⟨0, _⟩ => rfl
  | ⟨1, _⟩ =>
    show q.val = if n = 1 then 0 else q.val
    split
    · have := q.isLt; omega
    · rfl

/-- A vector recast as a one-row matrix is the vector broadcast along axis 1 of a one-row matrix. -/
theorem shapeCast_row_eq_broadcastInDim (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  obtain ⟨u, q, rfl⟩ : ∃ (u : Fin 1) (q : Fin n), i = ix2 u q := ⟨i 0, i 1, eq_ix2 i⟩
  have e1 := shapeCast_apply b h1 (ix2 u q) (ix1 q) (by
    rw [Shape.rowMajor_val_two, Shape.rowMajor_val_one]
    show q.val = u.val * n + q.val
    have := u.isLt; have hu : u.val = 0 := by omega
    rw [hu]; omega)
  have e2 := broadcastInDim_apply ![1] hd b (ix2 u q) (ix1 q) (by
    intro a
    match a with
    | ⟨0, _⟩ =>
      show q.val = if n = 1 then 0 else q.val
      split
      · have := q.isLt; omega
      · rfl)
  exact e1.trans e2.symm

/-- One affine layer in the accumulating spelling, on m rows: at (p, q) it is the affine image of row p. -/
theorem matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    addf (matmul (DotDims.plain m k n) prec X W (constant (F := Ideal) ⟨2, ![m, n]⟩ .f32 0x00000000#32))
        (broadcastTo ⟨2, ![m, n]⟩ B hb) (ix2 p q)
      = affine (n := n) W B (row (k := k) X p) q := by
  show matmul (DotDims.plain m k n) prec X W (constant (F := Ideal) ⟨2, ![m, n]⟩ .f32 0x00000000#32) (ix2 p q)
      + broadcastTo ⟨2, ![m, n]⟩ B hb (ix2 p q) = (∑ c : Fin k, X (ix2 p c) * W (ix2 c q)) + B (ix2 (0 : Fin 1) q)
  rw [matmul_zero_eq_dotGeneral, dotGeneral_plain_apply, broadcastTo_oneRow_apply]

/-- One affine layer in the plain spelling, on m rows: at (p, q) it is the affine image of row p. -/
theorem dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1]) (p : Fin m) (q : Fin n) :
    addf (Host.dotGeneral (DotDims.plain m k n) prec A W) (broadcastInDim ⟨2, ![m, n]⟩ ![0, 1] hbc B) (ix2 p q)
      = affine (n := n) W B (row (k := k) A p) q := by
  show Host.dotGeneral (DotDims.plain m k n) prec A W (ix2 p q) + broadcastInDim ⟨2, ![m, n]⟩ ![0, 1] hbc B (ix2 p q)
      = (∑ c : Fin k, A (ix2 p c) * W (ix2 c q)) + B (ix2 (0 : Fin 1) q)
  rw [dotGeneral_plain_apply, broadcastInDim_oneRow_apply]

/-- One clamped affine layer in the accumulating spelling: at (p, q) the clamped affine image of row p. -/
theorem clamped_matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32)) (ix2 p q)
      = clamp (affine (n := n) W B (row (k := k) X p)) q := by
  show max (addf (matmul (DotDims.plain m k n) prec X W (constant (F := Ideal) ⟨2, ![m, n]⟩ .f32 0x00000000#32))
        (broadcastTo ⟨2, ![m, n]⟩ B hb) (ix2 p q)) (Ideal.ofBits .f32 0x00000000#32) = _
  rw [matmul_bias_apply]
  rfl

/-- Row p of one clamped affine layer in the accumulating spelling, whatever float format it is then read at. -/
theorem row_clamped_matmul_bias {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) :
    row (m := m) (k := n) (maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32))) p
      = clamp (affine (n := n) W B (row (k := k) X p)) :=
  funext fun q => clamped_matmul_bias_apply prec X W B hb p q

/-- One clamped affine layer in the plain spelling, clamped against a broadcast zero constant: at (p, q) the
    clamped affine image of row p. -/
theorem clamped_dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1])
    (hz : (⟨0, ![]⟩ : Shape).BroadcastsInDim ⟨2, ![m, n]⟩ ![]) (p : Fin m) (q : Fin n) :
    maximumf (addf (Host.dotGeneral (DotDims.plain m k n) prec A W) (broadcastInDim ⟨2, ![m, n]⟩ ![0, 1] hbc B))
        (broadcastInDim ⟨2, ![m, n]⟩ ![] hz (constant (F := Ideal) ⟨0, ![]⟩ .f32 0x00000000#32)) (ix2 p q)
      = clamp (affine (n := n) W B (row (k := k) A p)) q := by
  show max (addf (Host.dotGeneral (DotDims.plain m k n) prec A W) (broadcastInDim ⟨2, ![m, n]⟩ ![0, 1] hbc B) (ix2 p q))
      (Ideal.ofBits .f32 0x00000000#32) = _
  rw [dot_bias_apply]
  rfl

/-! ## The three kinds of stage, as functions of one row -/

/-- Two clamped affine layers: the encoder. -/
def encoderRow {k h n : Nat} (W0 : Mat k h) (B0 : Mat 1 h) (W1 : Mat h n) (B1 : Mat 1 n) (a : Fin k → EReal) : Fin n → EReal :=
  clamp (affine W1 B1 (clamp (affine W0 B0 a)))

/-- One clamped affine layer with the input row added back: a hop's update. -/
def hopRow {k : Nat} (W : Mat k k) (B : Mat 1 k) (a : Fin k → EReal) : Fin k → EReal :=
  fun q => clamp (affine W B a) q + a q

/-- A clamped affine layer followed by a plain affine layer: the decoder. -/
def decoderRow {k h n : Nat} (W0 : Mat k h) (B0 : Mat 1 h) (W1 : Mat h n) (B1 : Mat 1 n) (a : Fin k → EReal) : Fin n → EReal :=
  affine W1 B1 (clamp (affine W0 B0 a))

end DenseRows

end
-- ==== Proof.EncValue.lean ====
/-
  What each of the two encoder regions leaves in its output array.

  An encoder region walks the rows of its input matrix in blocks of R consecutive rows: R = 5000 and twenty blocks
  for the first region (100000 rows of 512 entries), R = 2000 and twenty-five blocks for the second (50000 rows of
  768 entries). At block t it reads rows R·t … R·t + R − 1 of the input, and the whole weight matrix, the whole
  scale row and the whole bias row (their blocks do not move with t), and it writes rows R·t … R·t + R − 1 of the
  output.

  The value written at row p, column q of a block is  max((∑ c, x(p, c) · W(c, q)) · s(0, q) + b(0, q), 0):
  the product is accumulated into a zero matrix, and 0 + z = z on the extended reals; the scale row and the bias row
  are copied down the rows; a change of float format is the identity on ideal values; a recast of a shape onto
  itself is the identity.

  An entry of the result depends on one row of the input only. So block t of what is written is block t of ONE
  function of the whole arrays, the folded encoder of the specification, and because the blocks fill the output
  array (row r lies in block r / R), the array ends holding that function.
-/
import proofs.«160307_j3882650436638_2_alg».proof.Proof.Gen.KernelIdeal.Frame
import proofs.«160307_j3882650436638_2_alg».proof.Proof.LibDenseStages
import proofs.«160307_j3882650436638_2_alg».proof.Proof.LibDenseRows
import Idealize.ShloMosaic.Lib.KernelVsHost
import Idealize.ShloMosaic.Lib.StackMember
import Idealize.ShloMosaic.Lib.ValueLayout
import Idealize.ShloMosaic.Lib.ValueIdx
import Idealize.ShloMosaic.Lib.Pipeline.Value

noncomputable section

namespace Cert.KernelIdeal.EncValue

open Cert.KernelIdeal Cert.KernelIdeal.Gen Idealize.ShloMosaic Idealize.ShloMosaic.TcCoe Idealize.SL.Sem
open Idealize.ShloMosaic.ValueIdx Idealize.ShloMosaic.StackMember
open Idealize.ShloMosaic.Pipeline (Dat)

/- The contents of every buffer when a region is entered, at the ideal values. -/
variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-! ## The first encoder region: 100000 rows of 512 entries, in twenty blocks of 5000 rows -/

/-- The block's product contracts the second axis of the left matrix with the first axis of the right one: the
    plain product of a 5000 by 512 and a 512 by 128 matrix. -/
theorem dims0 : dot_S5000x512_S512x128_S5000x128_1_0_0_1_n_n = DotDims.plain 5000 512 128 := rfl

/-- The value a block's body stores at row p, column q, from the four blocks it reads: the folded encoder of the
    blocks at (p, q). -/
theorem pay0_apply (x0 : Vec Ideal S5000x512 .f32) (x1 : Vec Ideal S512x128 .f32) (x2 x3 : Vec Ideal S1x128 .f32)
    (p : Fin 5000) (q : Fin 128) :
    (k0_pay1 (F := Ideal) x0 x1 x2 x3) (ix2 p q) = DenseStages.encFoldedAt (m := 5000) (k := 512) (n := 128) x0 x1 x2 x3 p q := by
  unfold k0_pay1
  rw [shapeCast_self, shapeCast_self, shapeCast_self, dims0, matmul_zero_eq_dotGeneral]
  show max ((Host.dotGeneral (F := Ideal) (DotDims.plain 5000 512 128) none (x0 : FVec Ideal S5000x512 .f32) (x1 : FVec Ideal S512x128 .f32) (ix2 p q) : EReal)
      * (broadcastTo S5000x128 x2 broadcasts_S1x128_S5000x128 (ix2 p q) : EReal)
      + (broadcastTo S5000x128 x3 broadcasts_S1x128_S5000x128 (ix2 p q) : EReal)) (Ideal.ofBits .f32 0x00000000#32) = _
  rw [dotGeneral_plain_apply, DenseRows.broadcastTo_oneRow_apply, DenseRows.broadcastTo_oneRow_apply]
  rfl

/-- If row p of the input block is row P of the input matrix, and the weight, scale and bias blocks are the whole
    arrays, then what is stored at (p, q) is the folded encoder of the whole arrays at (P, q). -/
theorem point0 (A : DenseStages.Mat 100000 512) (W : DenseStages.Mat 512 128) (s b : DenseStages.Mat 1 128)
    (x0 : Vec Ideal S5000x512 .f32) (x1 : Vec Ideal S512x128 .f32) (x2 x3 : Vec Ideal S1x128 .f32)
    (p : Fin 5000) (q : Fin 128) (P : Fin 100000)
    (h0 : ∀ k : Fin 512, x0 (ix2 p k) = A (ix2 P k)) (h1 : ∀ k : Fin 512, x1 (ix2 k q) = W (ix2 k q))
    (h2 : x2 (ix2 (0 : Fin 1) q) = s (ix2 (0 : Fin 1) q)) (h3 : x3 (ix2 (0 : Fin 1) q) = b (ix2 (0 : Fin 1) q)) :
    k0_pay1 (F := Ideal) x0 x1 x2 x3 (ix2 p q) = DenseStages.encFolded A W s b (ix2 P q) := by
  rw [pay0_apply, DenseStages.encFolded_apply]
  unfold DenseStages.encFoldedAt DenseStages.dotAt
  rw [h2, h3]
  simp only [h0, h1]

/-- The block indices at grid point t: the input rows and the output rows are at block t, column block 0; the
    weight, scale and bias blocks are at block (0, 0). Decided over the grid's points. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of the input rows is rows 5000·t … 5000·t + 4999 of the input matrix. -/
theorem blk0_0_apply (c : Dev nD) (t : Fin cfg0.N) (p : Fin 5000) (k : Fin 512) (P : Fin 100000)
    (hP : P.val = t.val * 5000 + p.val) :
    (iblk0 (F := Ideal) V c 0 t : S5000x512.Idx → EReal) (ix2 p k) = (V c main_arg0 : S100000x512.Idx → EReal) (ix2 P k) := by
  obtain ⟨e0, e1, -⟩ := idx_facts0 t
  show V c main_arg0 (((cfg0.win 0).blk t).view.emb (ix2 p k)) = V c main_arg0 (ix2 P k)
  refine congrArg _ (funext fun a => Fin.ext ?_)
  match a with
  | ⟨0, _⟩ => show win0_0.index t (0 : Fin 2) * 5000 + 1 * p.val = P.val; rw [e0, hP]; omega
  | ⟨1, _⟩ => show win0_0.index t (1 : Fin 2) * 512 + 1 * k.val = k.val; rw [e1]; omega

/-- The weight window is the whole weight matrix at every point. -/
theorem blk0_1_apply (c : Dev nD) (t : Fin cfg0.N) (k : Fin 512) (q : Fin 128) :
    (iblk0 (F := Ideal) V c 1 t : S512x128.Idx → EReal) (ix2 k q) = (V c main_v14 : S512x128.Idx → EReal) (ix2 k q) := by
  obtain ⟨-, -, e0, e1, -⟩ := idx_facts0 t
  show V c main_v14 (((cfg0.win 1).blk t).view.emb (ix2 k q)) = V c main_v14 (ix2 k q)
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 128 + 1 * q.val = q.val; rw [e1]; omega

/-- The scale window is the whole scale row at every point. -/
theorem blk0_2_apply (c : Dev nD) (t : Fin cfg0.N) (u : Fin 1) (q : Fin 128) :
    (iblk0 (F := Ideal) V c 2 t : S1x128.Idx → EReal) (ix2 u q) = (V c main_v15 : S1x128.Idx → EReal) (ix2 u q) := by
  obtain ⟨-, -, -, -, e0, e1, -⟩ := idx_facts0 t
  show V c main_v15 (((cfg0.win 2).blk t).view.emb (ix2 u q)) = V c main_v15 (ix2 u q)
  refine congrArg _ (funext fun a => Fin.ext ?_)
  match a with
  | ⟨0, _⟩ => show win0_2.index t (0 : Fin 2) * 1 + 1 * u.val = u.val; rw [e0]; omega
  | ⟨1, _⟩ => show win0_2.index t (1 : Fin 2) * 128 + 1 * q.val = q.val; rw [e1]; omega

/-- The bias window is the whole bias row at every point. -/
theorem blk0_3_apply (c : Dev nD) (t : Fin cfg0.N) (u : Fin 1) (q : Fin 128) :
    (iblk0 (F := Ideal) V c 3 t : S1x128.Idx → EReal) (ix2 u q) = (V c main_v16 : S1x128.Idx → EReal) (ix2 u q) := by
  obtain ⟨-, -, -, -, -, -, e0, e1, -⟩ := idx_facts0 t
  show V c main_v16 (((cfg0.win 3).blk t).view.emb (ix2 u q)) = V c main_v16 (ix2 u q)
  refine congrArg _ (funext fun a => Fin.ext ?_)
  match a with
  | ⟨0, _⟩ => show win0_3.index t (0 : Fin 2) * 1 + 1 * u.val = u.val; rw [e0]; omega
  | ⟨1, _⟩ => show win0_3.index t (1 : Fin 2) * 128 + 1 * q.val = q.val; rw [e1]; omega

/-- Element (p, q) of the output window's block t sits at row 5000·t + p, column q of the output array. -/
theorem emb0_4 (t : Fin cfg0.N) (p : Fin 5000) (q : Fin 128) (P : Fin 100000) (hP : P.val = t.val * 5000 + p.val) :
    (((cfg0.win 4).blk t).view.emb (ix2 p q) : S100000x128.Idx) = ix2 P q := by
  obtain ⟨-, -, -, -, -, -, -, -, e0, e1⟩ := idx_facts0 t
  refine funext fun a => Fin.ext ?_
  match a with
  | ⟨0, _⟩ => show win0_4.index t (0 : Fin 2) * 5000 + 1 * p.val = P.val; rw [e0, hP]; omega
  | ⟨1, _⟩ => show win0_4.index t (1 : Fin 2) * 128 + 1 * q.val = q.val; rw [e1]; omega

/-- What point t writes back is block t of the folded encoder of the arrays the region finds. -/
theorem flushed0 (c : Dev nD) (t : Fin cfg0.N) :
    (dat0 (F := Ideal) V c).flushed 4 t = ((cfg0.win 4).blk t).view.read (Elt Ideal)
      (DenseStages.encFolded (m := 100000) (k := 512) (n := 128) (V c main_arg0) (V c main_v14) (V c main_v15) (V c main_v16)) := by
  show (cfg0.win 4).cut (grid0.coords t) ((dat0 V c).after 4 t) = _
  rw [after0_4]
  unfold out0_4
  rw [View.canon_unit_zero hz]
  simp only [View.ld_unit_zero (S := S5000x512) hz, View.ld_unit_zero (S := S512x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hPlt : t.val * 5000 + p.val < 100000 := by have := p.isLt; omega
  show k0_pay1 (F := Ideal) (iblk0 V c 0 t) (iblk0 V c 1 t) (iblk0 V c 2 t) (iblk0 V c 3 t) (ix2 p q)
    = DenseStages.encFolded (m := 100000) (k := 512) (n := 128) (V c main_arg0) (V c main_v14) (V c main_v15) (V c main_v16)
        (((cfg0.win 4).blk t).view.emb (ix2 p q))
  rw [emb0_4 t p q ⟨t.val * 5000 + p.val, hPlt⟩ rfl]
  exact point0 (V c main_arg0) (V c main_v14) (V c main_v15) (V c main_v16)
    (iblk0 V c 0 t) (iblk0 V c 1 t) (iblk0 V c 2 t) (iblk0 V c 3 t) p q ⟨t.val * 5000 + p.val, hPlt⟩
    (fun k => blk0_0_apply V c t p k _ rfl) (fun k => blk0_1_apply V c t k q)
    (blk0_2_apply V c t 0 q) (blk0_3_apply V c t 0 q)

/-- An index of the output array is in point t's block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v17).slice (win0_4.rect t)).set ↔ _
  rw [View.set_slice_whole, Rect.mem_set_unit]
  exact Iff.rfl

/-- Row r of the output array lies in the block of point r / 5000: the twenty blocks of 5000 rows fill the array. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, e0, e1⟩ := idx_facts0 ⟨(i 0).val / 5000, ht⟩
  refine ⟨⟨(i 0).val / 5000, ht⟩, flush0_4 _, ?_⟩
  rw [mem_blk0]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e1]; omega

/-- The output array of the first encoder region ends holding the folded encoder of the arrays the region finds. -/
theorem region0_value (c : Dev nD) : ((dat0 (F := Ideal) V c).arrAt 4 cfg0.N : S100000x128.Idx → EReal)
    = DenseStages.encFolded (m := 100000) (k := 512) (n := 128) (V c main_arg0) (V c main_v14) (V c main_v15) (V c main_v16) :=
  (dat0 (F := Ideal) V c).arrAt_eq_of_cover 4 _ (fun t _ => flushed0 V c t) cover0

/-! ## The second encoder region: 50000 rows of 768 entries, in twenty-five blocks of 2000 rows -/

/-- The block's product contracts the second axis of the left matrix with the first axis of the right one: the
    plain product of a 2000 by 768 and a 768 by 128 matrix. -/
theorem dims1 : dot_S2000x768_S768x128_S2000x128_1_0_0_1_n_n = DotDims.plain 2000 768 128 := rfl

/-- The value a block's body stores at row p, column q, from the four blocks it reads: the folded encoder of the
    blocks at (p, q). -/
theorem pay1_apply (x0 : Vec Ideal S2000x768 .f32) (x1 : Vec Ideal S768x128 .f32) (x2 x3 : Vec Ideal S1x128 .f32)
    (p : Fin 2000) (q : Fin 128) :
    (k1_pay1 (F := Ideal) x0 x1 x2 x3) (ix2 p q) = DenseStages.encFoldedAt (m := 2000) (k := 768) (n := 128) x0 x1 x2 x3 p q := by
  unfold k1_pay1
  rw [shapeCast_self, shapeCast_self, shapeCast_self, dims1, matmul_zero_eq_dotGeneral]
  show max ((Host.dotGeneral (F := Ideal) (DotDims.plain 2000 768 128) none (x0 : FVec Ideal S2000x768 .f32) (x1 : FVec Ideal S768x128 .f32) (ix2 p q) : EReal)
      * (broadcastTo S2000x128 x2 broadcasts_S1x128_S2000x128 (ix2 p q) : EReal)
      + (broadcastTo S2000x128 x3 broadcasts_S1x128_S2000x128 (ix2 p q) : EReal)) (Ideal.ofBits .f32 0x00000000#32) = _
  rw [dotGeneral_plain_apply, DenseRows.broadcastTo_oneRow_apply, DenseRows.broadcastTo_oneRow_apply]
  rfl

/-- If row p of the input block is row P of the input matrix, and the weight, scale and bias blocks are the whole
    arrays, then what is stored at (p, q) is the folded encoder of the whole arrays at (P, q). -/
theorem point1 (A : DenseStages.Mat 50000 768) (W : DenseStages.Mat 768 128) (s b : DenseStages.Mat 1 128)
    (x0 : Vec Ideal S2000x768 .f32) (x1 : Vec Ideal S768x128 .f32) (x2 x3 : Vec Ideal S1x128 .f32)
    (p : Fin 2000) (q : Fin 128) (P : Fin 50000)
    (h0 : ∀ k : Fin 768, x0 (ix2 p k) = A (ix2 P k)) (h1 : ∀ k : Fin 768, x1 (ix2 k q) = W (ix2 k q))
    (h2 : x2 (ix2 (0 : Fin 1) q) = s (ix2 (0 : Fin 1) q)) (h3 : x3 (ix2 (0 : Fin 1) q) = b (ix2 (0 : Fin 1) q)) :
    k1_pay1 (F := Ideal) x0 x1 x2 x3 (ix2 p q) = DenseStages.encFolded A W s b (ix2 P q) := by
  rw [pay1_apply, DenseStages.encFolded_apply]
  unfold DenseStages.encFoldedAt DenseStages.dotAt
  rw [h2, h3]
  simp only [h0, h1]

/-- The block indices at grid point t: the input rows and the output rows are at block t, column block 0; the
    weight, scale and bias blocks are at block (0, 0). Decided over the grid's points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the input rows is rows 2000·t … 2000·t + 1999 of the input matrix. -/
theorem blk1_0_apply (c : Dev nD) (t : Fin cfg1.N) (p : Fin 2000) (k : Fin 768) (P : Fin 50000)
    (hP : P.val = t.val * 2000 + p.val) :
    (iblk1 (F := Ideal) V c 0 t : S2000x768.Idx → EReal) (ix2 p k) = (V c main_arg1 : S50000x768.Idx → EReal) (ix2 P k) := by
  obtain ⟨e0, e1, -⟩ := idx_facts1 t
  show V c main_arg1 (((cfg1.win 0).blk t).view.emb (ix2 p k)) = V c main_arg1 (ix2 P k)
  refine congrArg _ (funext fun a => Fin.ext ?_)
  match a with
  | ⟨0, _⟩ => show win1_0.index t (0 : Fin 2) * 2000 + 1 * p.val = P.val; rw [e0, hP]; omega
  | ⟨1, _⟩ => show win1_0.index t (1 : Fin 2) * 768 + 1 * k.val = k.val; rw [e1]; omega

/-- The weight window is the whole weight matrix at every point. -/
theorem blk1_1_apply (c : Dev nD) (t : Fin cfg1.N) (k : Fin 768) (q : Fin 128) :
    (iblk1 (F := Ideal) V c 1 t : S768x128.Idx → EReal) (ix2 k q) = (V c main_v18 : S768x128.Idx → EReal) (ix2 k q) := by
  obtain ⟨-, -, e0, e1, -⟩ := idx_facts1 t
  show V c main_v18 (((cfg1.win 1).blk t).view.emb (ix2 k q)) = V c main_v18 (ix2 k q)
  refine congrArg _ (funext fun a => Fin.ext ?_)
  match a with
  | ⟨0, _⟩ => show win1_1.index t (0 : Fin 2) * 768 + 1 * k.val = k.val; rw [e0]; omega
  | ⟨1, _⟩ => show win1_1.index t (1 : Fin 2) * 128 + 1 * q.val = q.val; rw [e1]; omega

/-- The scale window is the whole scale row at every point. -/
theorem blk1_2_apply (c : Dev nD) (t : Fin cfg1.N) (u : Fin 1) (q : Fin 128) :
    (iblk1 (F := Ideal) V c 2 t : S1x128.Idx → EReal) (ix2 u q) = (V c main_v19 : S1x128.Idx → EReal) (ix2 u q) := by
  obtain ⟨-, -, -, -, e0, e1, -⟩ := idx_facts1 t
  show V c main_v19 (((cfg1.win 2).blk t).view.emb (ix2 u q)) = V c main_v19 (ix2 u q)
  refine congrArg _ (funext fun a => Fin.ext ?_)
  match a with
  | ⟨0, _⟩ => show win1_2.index t (0 : Fin 2) * 1 + 1 * u.val = u.val; rw [e0]; omega
  | ⟨1, _⟩ => show win1_2.index t (1 : Fin 2) * 128 + 1 * q.val = q.val; rw [e1]; omega

/-- The bias window is the whole bias row at every point. -/
theorem blk1_3_apply (c : Dev nD) (t : Fin cfg1.N) (u : Fin 1) (q : Fin 128) :
    (iblk1 (F := Ideal) V c 3 t : S1x128.Idx → EReal) (ix2 u q) = (V c main_v20 : S1x128.Idx → EReal) (ix2 u q) := by
  obtain ⟨-, -, -, -, -, -, e0, e1, -⟩ := idx_facts1 t
  show V c main_v20 (((cfg1.win 3).blk t).view.emb (ix2 u q)) = V c main_v20 (ix2 u q)
  refine congrArg _ (funext fun a => Fin.ext ?_)
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- Element (p, q) of the output window's block t sits at row 2000·t + p, column q of the output array. -/
theorem emb1_4 (t : Fin cfg1.N) (p : Fin 2000) (q : Fin 128) (P : Fin 50000) (hP : P.val = t.val * 2000 + p.val) :
    (((cfg1.win 4).blk t).view.emb (ix2 p q) : S50000x128.Idx) = ix2 P q := by
  obtain ⟨-, -, -, -, -, -, -, -, e0, e1⟩ := idx_facts1 t
  refine funext fun a => Fin.ext ?_
  match a with
  | ⟨0, _⟩ => show win1_4.index t (0 : Fin 2) * 2000 + 1 * p.val = P.val; rw [e0, hP]; omega
  | ⟨1, _⟩ => show win1_4.index t (1 : Fin 2) * 128 + 1 * q.val = q.val; rw [e1]; omega

/-- What point t writes back is block t of the folded encoder of the arrays the region finds. -/
theorem flushed1 (c : Dev nD) (t : Fin cfg1.N) :
    (dat1 (F := Ideal) V c).flushed 4 t = ((cfg1.win 4).blk t).view.read (Elt Ideal)
      (DenseStages.encFolded (m := 50000) (k := 768) (n := 128) (V c main_arg1) (V c main_v18) (V c main_v19) (V c main_v20)) := by
  show (cfg1.win 4).cut (grid1.coords t) ((dat1 V c).after 4 t) = _
  rw [after1_4]
  unfold out1_4
  rw [View.canon_unit_zero hz]
  simp only [View.ld_unit_zero (S := S2000x768) hz, View.ld_unit_zero (S := S768x128) hz, View.ld_unit_zero (S := S1x128) hz]
  refine funext fun (j : S2000x128.Idx) => ?_
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hPlt : t.val * 2000 + p.val < 50000 := by have := p.isLt; omega
  show k1_pay1 (F := Ideal) (iblk1 V c 0 t) (iblk1 V c 1 t) (iblk1 V c 2 t) (iblk1 V c 3 t) (ix2 p q)
    = DenseStages.encFolded (m := 50000) (k := 768) (n := 128) (V c main_arg1) (V c main_v18) (V c main_v19) (V c main_v20)
        (((cfg1.win 4).blk t).view.emb (ix2 p q))
  rw [emb1_4 t p q ⟨t.val * 2000 + p.val, hPlt⟩ rfl]
  exact point1 (V c main_arg1) (V c main_v18) (V c main_v19) (V c main_v20)
    (iblk1 V c 0 t) (iblk1 V c 1 t) (iblk1 V c 2 t) (iblk1 V c 3 t) p q ⟨t.val * 2000 + p.val, hPlt⟩
    (fun k => blk1_0_apply V c t p k _ rfl) (fun k => blk1_1_apply V c t k q)
    (blk1_2_apply V c t 0 q) (blk1_3_apply V c t 0 q)

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v21).slice (win1_4.rect t)).set ↔ _
  rw [View.set_slice_whole, Rect.mem_set_unit]
  exact Iff.rfl

/-- Row r of the output array lies in the block of point r / 2000: the twenty-five blocks of 2000 rows fill the array. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, -, -, e0, e1⟩ := idx_facts1 ⟨(i 0).val / 2000, ht⟩
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e1]; omega

/-- The output array of the second encoder region ends holding the folded encoder of the arrays the region finds. -/
theorem region1_value (c : Dev nD) : ((dat1 (F := Ideal) V c).arrAt 4 cfg1.N : S50000x128.Idx → EReal)
    = DenseStages.encFolded (m := 50000) (k := 768) (n := 128) (V c main_arg1) (V c main_v18) (V c main_v19) (V c main_v20) :=
  (dat1 (F := Ideal) V c).arrAt_eq_of_cover 4 _ (fun t _ => flushed1 V c t) cover1

end Cert.KernelIdeal.EncValue

end
-- ==== Proof.SageValue.lean ====
/-
  What each graph-convolution region leaves in its result array, as one function of the arrays it finds.

  A region walks its result array in blocks of R consecutive rows, one block per grid point. At point t it holds
  rows R·t, …, R·t + R − 1 of the aggregated-neighbour matrix a and of the destination-row matrix x, and the whole of
  the two weight matrices Wl, Wr and of the one-row bias bl. On these it forms  a·Wl + x·Wr,  each product accumulated
  into a zero matrix, adds the bias row copied down the rows, clamps at zero in the first two of the four regions, and
  writes the block back. Over the extended reals a change of float format is the identity and 0 + z = z, so entry
  (p, q) of the block is  (∑ c, a(r, c)·Wl(c, q) + ∑ c, x(r, c)·Wr(c, q)) + bl(0, q)  with r = R·t + p: entry (r, q) of
  the stage of the whole arrays. Row r lies in the block of point r / R and the points are all written back, so the
  blocks tile the result array, which therefore ends holding that stage at every index.
-/
import proofs.«160307_j3882650436638_2_alg».proof.Proof.Gen.KernelIdeal.Frame
import proofs.«160307_j3882650436638_2_alg».proof.Proof.LibDenseStages
import Idealize.ShloMosaic.Lib.Pipeline.Value
import Idealize.ShloMosaic.Lib.KernelVsHost
import Idealize.ShloMosaic.Lib.StackMember
import Idealize.ShloMosaic.Lib.ValueLayout

noncomputable section

namespace Cert.KernelIdeal.SageValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StackMember DenseStages

/-! ## Shared by the four regions -/

theorem hz : (![0, 0] : Fin 2 → Nat) = fun _ => 0 := funext fun a => by fin_cases a <;> rfl

/-- The contraction of the two products: the second axis of the left factor against the first of the right. -/
theorem plain2000 : dot_S2000x128_S128x128_S2000x128_1_0_0_1_n_n = DotDims.plain 2000 128 128 := rfl
theorem plain5000 : dot_S5000x128_S128x128_S5000x128_1_0_0_1_n_n = DotDims.plain 5000 128 128 := rfl

/-- A product accumulated into the zero matrix, at (p, q): the sum over c of A(p, c)·W(c, q). -/
theorem prod_apply {R : Nat} {φ₁ φ₂ : FTy} (A : FVec Ideal ⟨2, ![R, 128]⟩ φ₁) (W : FVec Ideal ⟨2, ![128, 128]⟩ φ₂)
    (p : Fin R) (q : Fin 128) :
    matmul (DotDims.plain R 128 128) none A W (constant (F := Ideal) ⟨2, ![R, 128]⟩ .f32 0x00000000#32) (ix2 p q)
      = dotAt (m := R) (k := 128) (n := 128) A W p q := by
  rw [matmul_zero_eq_dotGeneral, dotGeneral_plain_apply]
  rfl

/-! ## The second region: blocks of 2000 rows over 25 points, clamped at zero -/

section Region2
variable (V : (c : Dev nD) → (b : Ref sig .tc) → Buf (Elt Ideal) ((c : Thread nD τ).loc b))

/-- The body's arithmetic on blocks, at (p, q): the two products are sums over the contracted coordinate, the
    roundings between formats are the identity on the extended reals, the one-row bias is read at column q. -/
theorem pay2_apply (v0 : Vec Ideal S2000x128 .f32) (v3 : Vec Ideal S2000x128 .bf16) (v5 v8 : Vec Ideal S128x128 .f32)
    (v14 : Vec Ideal S1x128 .f32) (p : Fin 2000) (q : Fin 128) :
    k2_pay1 v0 v3 v5 v8 v14 (ix2 p q) = convBiasLastAt (m := 2000) (k := 128) (n := 128) true v0 v3 v5 v8 v14 p q := by
  unfold k2_pay1
  simp only [shapeCast_self]
  rw [plain2000]
  show max ((matmul (F := Ideal) _ none _ _ _ (ix2 p q) + matmul (F := Ideal) _ none _ _ _ (ix2 p q)) + broadcastTo _ v14 _ (ix2 p q)) _ = _
  rw [prod_apply, prod_apply, broadcastTo_1b_ab_apply]
  rfl

/-- The index maps over the grid: the row windows sit at block t, the weight and bias windows at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The stage on a block of rows whose entries are those of whole arrays: entry (p, q) of the block is entry (r, q)
    of the stage of the arrays, r the array row that block row p is. -/
theorem block2_apply (x0 : Vec Ideal S2000x128 .f32) (x1 : Vec Ideal S2000x128 .bf16) (x2 x4 : Vec Ideal S128x128 .f32)
    (x3 : Vec Ideal S1x128 .f32) (A0 A1 : S50000x128.Idx → EReal) (W2 W4 : S128x128.Idx → EReal) (B3 : S1x128.Idx → EReal)
    (p : Fin 2000) (q : Fin 128) (r : Fin 50000)
    (h0 : ∀ c : Fin 128, x0 (ix2 p c) = A0 (ix2 r c)) (h1 : ∀ c : Fin 128, x1 (ix2 p c) = A1 (ix2 r c))
    (h2 : ∀ c : Fin 128, x2 (ix2 c q) = W2 (ix2 c q)) (h4 : ∀ c : Fin 128, x4 (ix2 c q) = W4 (ix2 c q))
    (h3 : x3 (ix2 (0 : Fin 1) q) = B3 (ix2 (0 : Fin 1) q)) :
    k2_pay1 x0 x1 x2 x4 x3 (ix2 p q) = convBiasLastAt (m := 50000) (k := 128) (n := 128) true A0 A1 W2 W4 B3 r q := by
  rw [pay2_apply]
  unfold convBiasLastAt dotAt
  simp only [h0, h1, h2, h4, h3]

/-! A row window's block at point t holds rows 2000·t, …, 2000·t + 1999 of its array; the weight and bias windows'
    blocks are their whole arrays at every point. -/

theorem read2_0 (c : Dev nD) (t : Fin cfg2.N) (p : Fin 2000) (q : Fin 128) (r : Fin 50000) (hr : r.val = t.val * 2000 + p.val) :
    (iblk2 V c 0 t : Vec Ideal S2000x128 .f32) (ix2 p q) = (V c main_v51 : S50000x128.Idx → EReal) (ix2 r q) := by
  obtain ⟨e0, e1, -⟩ := idx_facts2 t
  unfold iblk2
  rw [View.read_apply]
  show V c main_v51 _ = V c main_v51 _
  refine congrArg _ ?_
  funext a; apply Fin.ext
  match a with
  | ⟨0, _⟩ => show win2_0.index t (0 : Fin 2) * 2000 + 1 * p.val = r.val; omega
  | ⟨1, _⟩ => show win2_0.index t (1 : Fin 2) * 128 + 1 * q.val = q.val; omega

theorem read2_1 (c : Dev nD) (t : Fin cfg2.N) (p : Fin 2000) (q : Fin 128) (r : Fin 50000) (hr : r.val = t.val * 2000 + p.val) :
    (iblk2 V c 1 t : Vec Ideal S2000x128 .bf16) (ix2 p q) = (V c main_v21 : S50000x128.Idx → EReal) (ix2 r q) := by
  obtain ⟨-, -, e0, e1, -⟩ := idx_facts2 t
  unfold iblk2
  rw [View.read_apply]
  show V c main_v21 _ = V c main_v21 _
  refine congrArg _ ?_
  funext a; apply Fin.ext
  match a with
  | ⟨0, _⟩ => show win2_1.index t (0 : Fin 2) * 2000 + 1 * p.val = r.val; omega
  | ⟨1, _⟩ => show win2_1.index t (1 : Fin 2) * 128 + 1 * q.val = q.val; omega

theorem read2_2 (c : Dev nD) (t : Fin cfg2.N) (p : Fin 128) (q : Fin 128) :
    (iblk2 V c 2 t : Vec Ideal S128x128 .f32) (ix2 p q) = (V c main_v52 : S128x128.Idx → EReal) (ix2 p q) := by
  obtain ⟨-, -, -, -, e0, e1, -⟩ := idx_facts2 t
  unfold iblk2
  rw [View.read_apply]
  show V c main_v52 _ = V c main_v52 _
  refine congrArg _ ?_
  funext a; apply Fin.ext
  match a with
  | ⟨0, _⟩ => show win2_2.index t (0 : Fin 2) * 128 + 1 * p.val = p.val; omega
  | ⟨1, _⟩ => show win2_2.index t (1 : Fin 2) * 128 + 1 * q.val = q.val; omega

theorem read2_3 (c : Dev nD) (t : Fin cfg2.N) (p : Fin 1) (q : Fin 128) :
    (iblk2 V c 3 t : Vec Ideal S1x128 .f32) (ix2 p q) = (V c main_v54 : S1x128.Idx → EReal) (ix2 p q) := by
  obtain ⟨-, -, -, -, -, -, e0, e1, -⟩ := idx_facts2 t
  unfold iblk2
  rw [View.read_apply]
  show V c main_v54 _ = V c main_v54 _
  refine congrArg _ ?_
  funext a; apply Fin.ext
  match a with
  | ⟨0, _⟩ => show win2_3.index t (0 : Fin 2) * 1 + 1 * p.val = p.val; omega
  | ⟨1, _⟩ => show win2_3.index t (1 : Fin 2) * 128 + 1 * q.val = q.val; omega

theorem read2_4 (c : Dev nD) (t : Fin cfg2.N) (p : Fin 128) (q : Fin 128) :
    (iblk2 V c 4 t : Vec Ideal S128x128 .f32) (ix2 p q) = (V c main_v53 : S128x128.Idx → EReal) (ix2 p q) := by
  obtain ⟨-, -, -, -, -, -, -, -, e0, e1, -⟩ := idx_facts2 t
  unfold iblk2
  rw [View.read_apply]
  show V c main_v53 _ = V c main_v53 _
  refine congrArg _ ?_
  funext a; apply Fin.ext
  match a with
  | ⟨0, _⟩ => show win2_4.index t (0 : Fin 2) * 128 + 1 * p.val = p.val; omega
  | ⟨1, _⟩ => show win2_4.index t (1 : Fin 2) * 128 + 1 * q.val = q.val; omega

/-- What point t writes back is block t of the stage of the arrays the region finds. -/
theorem flushed2_eq (c : Dev nD) (t : Fin cfg2.N) :
    (dat2 V c).flushed 5 t = ((cfg2.win 5).blk t).view.read (Elt Ideal) (convBiasLast (m := 50000) (k := 128) (n := 128) true (V c main_v51) (V c main_v21) (V c main_v52) (V c main_v53) (V c main_v54)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts2 t
  funext j
  obtain ⟨p, q, rfl⟩ : ∃ (p : Fin 2000) (q : Fin 128), j = ix2 p q := ⟨j 0, j 1, eq_ix2 j⟩
  have ht : t.val < 25 := t.isLt
  have hr : t.val * 2000 + p.val < 50000 := by have := p.isLt; omega
  have hemb : ((cfg2.win 5).blk t).view.emb (ix2 p q) = ix2 (⟨t.val * 2000 + p.val, hr⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay1 (iblk2 V c 0 t) (iblk2 V c 1 t) (iblk2 V c 2 t) (iblk2 V c 4 t) (iblk2 V c 3 t) (ix2 p q)
    = convBiasLast (m := 50000) (k := 128) (n := 128) true (V c main_v51) (V c main_v21) (V c main_v52) (V c main_v53) (V c main_v54) (((cfg2.win 5).blk t).view.emb (ix2 p q))
  rw [hemb, convBiasLast_apply]
  exact block2_apply (iblk2 V c 0 t) (iblk2 V c 1 t) (iblk2 V c 2 t) (iblk2 V c 4 t) (iblk2 V c 3 t)
    (V c main_v51) (V c main_v21) (V c main_v52) (V c main_v53) (V c main_v54) p q ⟨t.val * 2000 + p.val, hr⟩
    (fun k => read2_0 V c t p k _ rfl) (fun k => read2_1 V c t p k _ rfl)
    (fun k => read2_2 V c t k q) (fun k => read2_4 V c t k q) (read2_3 V c t 0 q)

/-- An index of the result array is in point t's block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v55).slice (win2_5.rect t)).set ↔ _
  rw [View.set_slice_whole, Rect.mem_set_unit]
  exact Iff.rfl

/-- Every row of the result array lies in the block of the point numbered by the row's quotient by 2000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hlt : (i 0).val / 2000 < cfg2.N := by rw [show cfg2.N = 25 from N_2]; omega
  obtain ⟨-, -, -, -, -, -, -, -, -, -, e0, e1⟩ := idx_facts2 ⟨(i 0).val / 2000, hlt⟩
  have e0' : win2_5.index ⟨(i 0).val / 2000, hlt⟩ (0 : Fin 2) = (i 0).val / 2000 := e0
  refine ⟨⟨(i 0).val / 2000, hlt⟩, flush2_5 _, ?_⟩
  rw [mem_blk2]
  intro a
  match a with
  | ⟨0, _⟩ => show win2_5.index ⟨(i 0).val / 2000, hlt⟩ (0 : Fin 2) * 2000 ≤ (i 0).val ∧ (i 0).val < win2_5.index ⟨(i 0).val / 2000, hlt⟩ (0 : Fin 2) * 2000 + 2000; omega
  | ⟨1, _⟩ => show win2_5.index ⟨(i 0).val / 2000, hlt⟩ (1 : Fin 2) * 128 ≤ (i 1).val ∧ (i 1).val < win2_5.index ⟨(i 0).val / 2000, hlt⟩ (1 : Fin 2) * 128 + 128; omega

/-- The array the region leaves: the convolution stage, clamped at zero, of the arrays it found. -/
theorem region2_value (c : Dev nD) : ((Gen.dat2 (F := Ideal) V c).arrAt 5 cfg2.N : S50000x128.Idx → EReal)
      = DenseStages.convBiasLast (m := 50000) (k := 128) (n := 128) true (V c main_v51) (V c main_v21) (V c main_v52) (V c main_v53) (V c main_v54) :=
  (dat2 V c).arrAt_eq_of_cover 5 _ (fun t _ => flushed2_eq V c t) cover2

end Region2

/-! ## The third region: blocks of 5000 rows over 20 points, clamped at zero -/

section Region3
variable (V : (c : Dev nD) → (b : Ref sig .tc) → Buf (Elt Ideal) ((c : Thread nD τ).loc b))

/-- The body's arithmetic on blocks, at (p, q): the two products are sums over the contracted coordinate, the
    roundings between formats are the identity on the extended reals, the one-row bias is read at column q. -/
theorem pay3_apply (v0 : Vec Ideal S5000x128 .f32) (v3 : Vec Ideal S5000x128 .bf16) (v5 v8 : Vec Ideal S128x128 .f32)
    (v14 : Vec Ideal S1x128 .f32) (p : Fin 5000) (q : Fin 128) :
    k3_pay1 v0 v3 v5 v8 v14 (ix2 p q) = convBiasLastAt (m := 5000) (k := 128) (n := 128) true v0 v3 v5 v8 v14 p q := by
  unfold k3_pay1
  simp only [shapeCast_self]
  rw [plain5000]
  show max ((matmul (F := Ideal) _ none _ _ _ (ix2 p q) + matmul (F := Ideal) _ none _ _ _ (ix2 p q)) + broadcastTo _ v14 _ (ix2 p q)) _ = _
  rw [prod_apply, prod_apply, broadcastTo_1b_ab_apply]
  rfl

/-- The index maps over the grid: the row windows sit at block t, the weight and bias windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The stage on a block of rows whose entries are those of whole arrays: entry (p, q) of the block is entry (r, q)
    of the stage of the arrays, r the array row that block row p is. -/
theorem block3_apply (x0 : Vec Ideal S5000x128 .f32) (x1 : Vec Ideal S5000x128 .bf16) (x2 x4 : Vec Ideal S128x128 .f32)
    (x3 : Vec Ideal S1x128 .f32) (A0 A1 : S100000x128.Idx → EReal) (W2 W4 : S128x128.Idx → EReal) (B3 : S1x128.Idx → EReal)
    (p : Fin 5000) (q : Fin 128) (r : Fin 100000)
    (h0 : ∀ c : Fin 128, x0 (ix2 p c) = A0 (ix2 r c)) (h1 : ∀ c : Fin 128, x1 (ix2 p c) = A1 (ix2 r c))
    (h2 : ∀ c : Fin 128, x2 (ix2 c q) = W2 (ix2 c q)) (h4 : ∀ c : Fin 128, x4 (ix2 c q) = W4 (ix2 c q))
    (h3 : x3 (ix2 (0 : Fin 1) q) = B3 (ix2 (0 : Fin 1) q)) :
    k3_pay1 x0 x1 x2 x4 x3 (ix2 p q) = convBiasLastAt (m := 100000) (k := 128) (n := 128) true A0 A1 W2 W4 B3 r q := by
  rw [pay3_apply]
  unfold convBiasLastAt dotAt
  simp only [h0, h1, h2, h4, h3]

/-! A row window's block at point t holds rows 5000·t, …, 5000·t + 4999 of its array; the weight and bias windows'
    blocks are their whole arrays at every point. -/

theorem read3_0 (c : Dev nD) (t : Fin cfg3.N) (p : Fin 5000) (q : Fin 128) (r : Fin 100000) (hr : r.val = t.val * 5000 + p.val) :
    (iblk3 V c 0 t : Vec Ideal S5000x128 .f32) (ix2 p q) = (V c main_v68 : S100000x128.Idx → EReal) (ix2 r q) := by
  obtain ⟨e0, e1, -⟩ := idx_facts3 t
  unfold iblk3
  rw [View.read_apply]
  show V c main_v68 _ = V c main_v68 _
  refine congrArg _ ?_
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

theorem read3_1 (c : Dev nD) (t : Fin cfg3.N) (p : Fin 5000) (q : Fin 128) (r : Fin 100000) (hr : r.val = t.val * 5000 + p.val) :
    (iblk3 V c 1 t : Vec Ideal S5000x128 .bf16) (ix2 p q) = (V c main_v17 : S100000x128.Idx → EReal) (ix2 r q) := by
  obtain ⟨-, -, e0, e1, -⟩ := idx_facts3 t
  unfold iblk3
  rw [View.read_apply]
  show V c main_v17 _ = V c main_v17 _
  refine congrArg _ ?_
  funext a; apply Fin.ext
  match a with
  | ⟨0, _⟩ => show win3_1.index t (0 : Fin 2) * 5000 + 1 * p.val = r.val; omega
  | ⟨1, _⟩ => show win3_1.index t (1 : Fin 2) * 128 + 1 * q.val = q.val; omega

theorem read3_2 (c : Dev nD) (t : Fin cfg3.N) (p : Fin 128) (q : Fin 128) :
    (iblk3 V c 2 t : Vec Ideal S128x128 .f32) (ix2 p q) = (V c main_v69 : S128x128.Idx → EReal) (ix2 p q) := by
  obtain ⟨-, -, -, -, e0, e1, -⟩ := idx_facts3 t
  unfold iblk3
  rw [View.read_apply]
  show V c main_v69 _ = V c main_v69 _
  refine congrArg _ ?_
  funext a; apply Fin.ext
  match a with
  | ⟨0, _⟩ => show win3_2.index t (0 : Fin 2) * 128 + 1 * p.val = p.val; omega
  | ⟨1, _⟩ => show win3_2.index t (1 : Fin 2) * 128 + 1 * q.val = q.val; omega

theorem read3_3 (c : Dev nD) (t : Fin cfg3.N) (p : Fin 1) (q : Fin 128) :
    (iblk3 V c 3 t : Vec Ideal S1x128 .f32) (ix2 p q) = (V c main_v71 : S1x128.Idx → EReal) (ix2 p q) := by
  obtain ⟨-, -, -, -, -, -, e0, e1, -⟩ := idx_facts3 t
  unfold iblk3
  rw [View.read_apply]
  show V c main_v71 _ = V c main_v71 _
  refine congrArg _ ?_
  funext a; apply Fin.ext
  match a with
  | ⟨0, _⟩ => show win3_3.index t (0 : Fin 2) * 1 + 1 * p.val = p.val; omega
  | ⟨1, _⟩ => show win3_3.index t (1 : Fin 2) * 128 + 1 * q.val = q.val; omega

theorem read3_4 (c : Dev nD) (t : Fin cfg3.N) (p : Fin 128) (q : Fin 128) :
    (iblk3 V c 4 t : Vec Ideal S128x128 .f32) (ix2 p q) = (V c main_v70 : S128x128.Idx → EReal) (ix2 p q) := by
  obtain ⟨-, -, -, -, -, -, -, -, e0, e1, -⟩ := idx_facts3 t
  unfold iblk3
  rw [View.read_apply]
  show V c main_v70 _ = V c main_v70 _
  refine congrArg _ ?_
  funext a; apply Fin.ext
  match a with
  | ⟨0, _⟩ => show win3_4.index t (0 : Fin 2) * 128 + 1 * p.val = p.val; omega
  | ⟨1, _⟩ => show win3_4.index t (1 : Fin 2) * 128 + 1 * q.val = q.val; omega

/-- What point t writes back is block t of the stage of the arrays the region finds. -/
theorem flushed3_eq (c : Dev nD) (t : Fin cfg3.N) :
    (dat3 V c).flushed 5 t = ((cfg3.win 5).blk t).view.read (Elt Ideal) (convBiasLast (m := 100000) (k := 128) (n := 128) true (V c main_v68) (V c main_v17) (V c main_v69) (V c main_v70) (V c main_v71)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts3 t
  funext j
  obtain ⟨p, q, rfl⟩ : ∃ (p : Fin 5000) (q : Fin 128), j = ix2 p q := ⟨j 0, j 1, eq_ix2 j⟩
  have ht : t.val < 20 := t.isLt
  have hr : t.val * 5000 + p.val < 100000 := by have := p.isLt; omega
  have hemb : ((cfg3.win 5).blk t).view.emb (ix2 p q) = ix2 (⟨t.val * 5000 + p.val, hr⟩ : Fin 100000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  show k3_pay1 (iblk3 V c 0 t) (iblk3 V c 1 t) (iblk3 V c 2 t) (iblk3 V c 4 t) (iblk3 V c 3 t) (ix2 p q)
    = convBiasLast (m := 100000) (k := 128) (n := 128) true (V c main_v68) (V c main_v17) (V c main_v69) (V c main_v70) (V c main_v71) (((cfg3.win 5).blk t).view.emb (ix2 p q))
  rw [hemb, convBiasLast_apply]
  exact block3_apply (iblk3 V c 0 t) (iblk3 V c 1 t) (iblk3 V c 2 t) (iblk3 V c 4 t) (iblk3 V c 3 t)
    (V c main_v68) (V c main_v17) (V c main_v69) (V c main_v70) (V c main_v71) p q ⟨t.val * 5000 + p.val, hr⟩
    (fun k => read3_0 V c t p k _ rfl) (fun k => read3_1 V c t p k _ rfl)
    (fun k => read3_2 V c t k q) (fun k => read3_4 V c t k q) (read3_3 V c t 0 q)

/-- An index of the result array is in point t's block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v72).slice (win3_5.rect t)).set ↔ _
  rw [View.set_slice_whole, Rect.mem_set_unit]
  exact Iff.rfl

/-- Every row of the result array lies in the block of the point numbered by the row's quotient by 5000. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hlt : (i 0).val / 5000 < cfg3.N := by rw [show cfg3.N = 20 from N_3]; omega
  obtain ⟨-, -, -, -, -, -, -, -, -, -, e0, e1⟩ := idx_facts3 ⟨(i 0).val / 5000, hlt⟩
  have e0' : win3_5.index ⟨(i 0).val / 5000, hlt⟩ (0 : Fin 2) = (i 0).val / 5000 := e0
  refine ⟨⟨(i 0).val / 5000, hlt⟩, flush3_5 _, ?_⟩
  rw [mem_blk3]
  intro a
  match a with
  | ⟨0, _⟩ => show win3_5.index ⟨(i 0).val / 5000, hlt⟩ (0 : Fin 2) * 5000 ≤ (i 0).val ∧ (i 0).val < win3_5.index ⟨(i 0).val / 5000, hlt⟩ (0 : Fin 2) * 5000 + 5000; omega
  | ⟨1, _⟩ => show win3_5.index ⟨(i 0).val / 5000, hlt⟩ (1 : Fin 2) * 128 ≤ (i 1).val ∧ (i 1).val < win3_5.index ⟨(i 0).val / 5000, hlt⟩ (1 : Fin 2) * 128 + 128; omega

/-- The array the region leaves: the convolution stage, clamped at zero, of the arrays it found. -/
theorem region3_value (c : Dev nD) : ((Gen.dat3 (F := Ideal) V c).arrAt 5 cfg3.N : S100000x128.Idx → EReal)
      = DenseStages.convBiasLast (m := 100000) (k := 128) (n := 128) true (V c main_v68) (V c main_v17) (V c main_v69) (V c main_v70) (V c main_v71) :=
  (dat3 V c).arrAt_eq_of_cover 5 _ (fun t _ => flushed3_eq V c t) cover3

end Region3

/-! ## The fourth region: blocks of 2000 rows over 25 points, not clamped -/

section Region4
variable (V : (c : Dev nD) → (b : Ref sig .tc) → Buf (Elt Ideal) ((c : Thread nD τ).loc b))

/-- The body's arithmetic on blocks, at (p, q): the two products are sums over the contracted coordinate, the
    roundings between formats are the identity on the extended reals, the one-row bias is read at column q. -/
theorem pay4_apply (v0 : Vec Ideal S2000x128 .f32) (v3 : Vec Ideal S2000x128 .bf16) (v5 v8 : Vec Ideal S128x128 .f32)
    (v14 : Vec Ideal S1x128 .f32) (p : Fin 2000) (q : Fin 128) :
    k4_pay1 v0 v3 v5 v8 v14 (ix2 p q) = convBiasLastAt (m := 2000) (k := 128) (n := 128) false v0 v3 v5 v8 v14 p q := by
  unfold k4_pay1
  simp only [shapeCast_self]
  rw [plain2000]
  show (matmul (F := Ideal) _ none _ _ _ (ix2 p q) + matmul (F := Ideal) _ none _ _ _ (ix2 p q)) + broadcastTo _ v14 _ (ix2 p q) = _
  rw [prod_apply, prod_apply, broadcastTo_1b_ab_apply]
  rfl

/-- The index maps over the grid: the row windows sit at block t, the weight and bias windows at block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The stage on a block of rows whose entries are those of whole arrays: entry (p, q) of the block is entry (r, q)
    of the stage of the arrays, r the array row that block row p is. -/
theorem block4_apply (x0 : Vec Ideal S2000x128 .f32) (x1 : Vec Ideal S2000x128 .bf16) (x2 x4 : Vec Ideal S128x128 .f32)
    (x3 : Vec Ideal S1x128 .f32) (A0 A1 : S50000x128.Idx → EReal) (W2 W4 : S128x128.Idx → EReal) (B3 : S1x128.Idx → EReal)
    (p : Fin 2000) (q : Fin 128) (r : Fin 50000)
    (h0 : ∀ c : Fin 128, x0 (ix2 p c) = A0 (ix2 r c)) (h1 : ∀ c : Fin 128, x1 (ix2 p c) = A1 (ix2 r c))
    (h2 : ∀ c : Fin 128, x2 (ix2 c q) = W2 (ix2 c q)) (h4 : ∀ c : Fin 128, x4 (ix2 c q) = W4 (ix2 c q))
    (h3 : x3 (ix2 (0 : Fin 1) q) = B3 (ix2 (0 : Fin 1) q)) :
    k4_pay1 x0 x1 x2 x4 x3 (ix2 p q) = convBiasLastAt (m := 50000) (k := 128) (n := 128) false A0 A1 W2 W4 B3 r q := by
  rw [pay4_apply]
  unfold convBiasLastAt dotAt
  simp only [h0, h1, h2, h4, h3]

/-! A row window's block at point t holds rows 2000·t, …, 2000·t + 1999 of its array; the weight and bias windows'
    blocks are their whole arrays at every point. -/

theorem read4_0 (c : Dev nD) (t : Fin cfg4.N) (p : Fin 2000) (q : Fin 128) (r : Fin 50000) (hr : r.val = t.val * 2000 + p.val) :
    (iblk4 V c 0 t : Vec Ideal S2000x128 .f32) (ix2 p q) = (V c main_v85 : S50000x128.Idx → EReal) (ix2 r q) := by
  obtain ⟨e0, e1, -⟩ := idx_facts4 t
  unfold iblk4
  rw [View.read_apply]
  show V c main_v85 _ = V c main_v85 _
  refine congrArg _ ?_
  funext a; apply Fin.ext
  match a with
  | ⟨0, _⟩ => show win4_0.index t (0 : Fin 2) * 2000 + 1 * p.val = r.val; omega
  | ⟨1, _⟩ => show win4_0.index t (1 : Fin 2) * 128 + 1 * q.val = q.val; omega

theorem read4_1 (c : Dev nD) (t : Fin cfg4.N) (p : Fin 2000) (q : Fin 128) (r : Fin 50000) (hr : r.val = t.val * 2000 + p.val) :
    (iblk4 V c 1 t : Vec Ideal S2000x128 .bf16) (ix2 p q) = (V c main_v55 : S50000x128.Idx → EReal) (ix2 r q) := by
  obtain ⟨-, -, e0, e1, -⟩ := idx_facts4 t
  unfold iblk4
  rw [View.read_apply]
  show V c main_v55 _ = V c main_v55 _
  refine congrArg _ ?_
  funext a; apply Fin.ext
  match a with
  | ⟨0, _⟩ => show win4_1.index t (0 : Fin 2) * 2000 + 1 * p.val = r.val; omega
  | ⟨1, _⟩ => show win4_1.index t (1 : Fin 2) * 128 + 1 * q.val = q.val; omega

theorem read4_2 (c : Dev nD) (t : Fin cfg4.N) (p : Fin 128) (q : Fin 128) :
    (iblk4 V c 2 t : Vec Ideal S128x128 .f32) (ix2 p q) = (V c main_v86 : S128x128.Idx → EReal) (ix2 p q) := by
  obtain ⟨-, -, -, -, e0, e1, -⟩ := idx_facts4 t
  unfold iblk4
  rw [View.read_apply]
  show V c main_v86 _ = V c main_v86 _
  refine congrArg _ ?_
  funext a; apply Fin.ext
  match a with
  | ⟨0, _⟩ => show win4_2.index t (0 : Fin 2) * 128 + 1 * p.val = p.val; omega
  | ⟨1, _⟩ => show win4_2.index t (1 : Fin 2) * 128 + 1 * q.val = q.val; omega

theorem read4_3 (c : Dev nD) (t : Fin cfg4.N) (p : Fin 1) (q : Fin 128) :
    (iblk4 V c 3 t : Vec Ideal S1x128 .f32) (ix2 p q) = (V c main_v88 : S1x128.Idx → EReal) (ix2 p q) := by
  obtain ⟨-, -, -, -, -, -, e0, e1, -⟩ := idx_facts4 t
  unfold iblk4
  rw [View.read_apply]
  show V c main_v88 _ = V c main_v88 _
  refine congrArg _ ?_
  funext a; apply Fin.ext
  match a with
  | ⟨0, _⟩ => show win4_3.index t (0 : Fin 2) * 1 + 1 * p.val = p.val; omega
  | ⟨1, _⟩ => show win4_3.index t (1 : Fin 2) * 128 + 1 * q.val = q.val; omega

theorem read4_4 (c : Dev nD) (t : Fin cfg4.N) (p : Fin 128) (q : Fin 128) :
    (iblk4 V c 4 t : Vec Ideal S128x128 .f32) (ix2 p q) = (V c main_v87 : S128x128.Idx → EReal) (ix2 p q) := by
  obtain ⟨-, -, -, -, -, -, -, -, e0, e1, -⟩ := idx_facts4 t
  unfold iblk4
  rw [View.read_apply]
  show V c main_v87 _ = V c main_v87 _
  refine congrArg _ ?_
  funext a; apply Fin.ext
  match a with
  | ⟨0, _⟩ => show win4_4.index t (0 : Fin 2) * 128 + 1 * p.val = p.val; omega
  | ⟨1, _⟩ => show win4_4.index t (1 : Fin 2) * 128 + 1 * q.val = q.val; omega

/-- What point t writes back is block t of the stage of the arrays the region finds. -/
theorem flushed4_eq (c : Dev nD) (t : Fin cfg4.N) :
    (dat4 V c).flushed 5 t = ((cfg4.win 5).blk t).view.read (Elt Ideal) (convBiasLast (m := 50000) (k := 128) (n := 128) false (V c main_v85) (V c main_v55) (V c main_v86) (V c main_v87) (V c main_v88)) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts4 t
  funext j
  obtain ⟨p, q, rfl⟩ : ∃ (p : Fin 2000) (q : Fin 128), j = ix2 p q := ⟨j 0, j 1, eq_ix2 j⟩
  have ht : t.val < 25 := t.isLt
  have hr : t.val * 2000 + p.val < 50000 := by have := p.isLt; omega
  have hemb : ((cfg4.win 5).blk t).view.emb (ix2 p q) = ix2 (⟨t.val * 2000 + p.val, hr⟩ : Fin 50000) q := by
    funext a; apply Fin.ext
    match a with
    | ⟨0, _⟩ => show win4_5.index t (0 : Fin 2) * 2000 + 1 * p.val = t.val * 2000 + p.val; omega
    | ⟨1, _⟩ => show win4_5.index t (1 : Fin 2) * 128 + 1 * q.val = q.val; omega
  show k4_pay1 (iblk4 V c 0 t) (iblk4 V c 1 t) (iblk4 V c 2 t) (iblk4 V c 4 t) (iblk4 V c 3 t) (ix2 p q)
    = convBiasLast (m := 50000) (k := 128) (n := 128) false (V c main_v85) (V c main_v55) (V c main_v86) (V c main_v87) (V c main_v88) (((cfg4.win 5).blk t).view.emb (ix2 p q))
  rw [hemb, convBiasLast_apply]
  exact block4_apply (iblk4 V c 0 t) (iblk4 V c 1 t) (iblk4 V c 2 t) (iblk4 V c 4 t) (iblk4 V c 3 t)
    (V c main_v85) (V c main_v55) (V c main_v86) (V c main_v87) (V c main_v88) p q ⟨t.val * 2000 + p.val, hr⟩
    (fun k => read4_0 V c t p k _ rfl) (fun k => read4_1 V c t p k _ rfl)
    (fun k => read4_2 V c t k q) (fun k => read4_4 V c t k q) (read4_3 V c t 0 q)

/-- An index of the result array is in point t's block iff each coordinate is in the block's range on its axis. -/
theorem mem_blk4 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v89).slice (win4_5.rect t)).set ↔ _
  rw [View.set_slice_whole, Rect.mem_set_unit]
  exact Iff.rfl

/-- Every row of the result array lies in the block of the point numbered by the row's quotient by 2000. -/
theorem cover4 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have hlt : (i 0).val / 2000 < cfg4.N := by rw [show cfg4.N = 25 from N_4]; omega
  obtain ⟨-, -, -, -, -, -, -, -, -, -, e0, e1⟩ := idx_facts4 ⟨(i 0).val / 2000, hlt⟩
  have e0' : win4_5.index ⟨(i 0).val / 2000, hlt⟩ (0 : Fin 2) = (i 0).val / 2000 := e0
  refine ⟨⟨(i 0).val / 2000, hlt⟩, flush4_5 _, ?_⟩
  rw [mem_blk4]
  intro a
  match a with
  | ⟨0, _⟩ => show win4_5.index ⟨(i 0).val / 2000, hlt⟩ (0 : Fin 2) * 2000 ≤ (i 0).val ∧ (i 0).val < win4_5.index ⟨(i 0).val / 2000, hlt⟩ (0 : Fin 2) * 2000 + 2000; omega
  | ⟨1, _⟩ => show win4_5.index ⟨(i 0).val / 2000, hlt⟩ (1 : Fin 2) * 128 ≤ (i 1).val ∧ (i 1).val < win4_5.index ⟨(i 0).val / 2000, hlt⟩ (1 : Fin 2) * 128 + 128; omega

/-- The array the region leaves: the convolution stage, not clamped, of the arrays it found. -/
theorem region4_value (c : Dev nD) : ((Gen.dat4 (F := Ideal) V c).arrAt 5 cfg4.N : S50000x128.Idx → EReal)
      = DenseStages.convBiasLast (m := 50000) (k := 128) (n := 128) false (V c main_v85) (V c main_v55) (V c main_v86) (V c main_v87) (V c main_v88) :=
  (dat4 V c).arrAt_eq_of_cover 5 _ (fun t _ => flushed4_eq V c t) cover4

end Region4

/-! ## The fifth region: blocks of 5000 rows over 20 points, not clamped -/

section Region5
variable (V : (c : Dev nD) → (b : Ref sig .tc) → Buf (Elt Ideal) ((c : Thread nD τ).loc b))

/-- The body's arithmetic on blocks, at (p, q): the two products are sums over the contracted coordinate, the
    roundings between formats are the identity on the extended reals, the one-row bias is read at column q. -/
theorem pay5_apply (v0 : Vec Ideal S5000x128 .f32) (v3 : Vec Ideal S5000x128 .bf16) (v5 v8 : Vec Ideal S128x128 .f32)
    (v14 : Vec Ideal S1x128 .f32) (p : Fin 5000) (q : Fin 128) :
    k5_pay1 v0 v3 v5 v8 v14 (ix2 p q) = convBiasLastAt (m := 5000) (k := 128) (n := 128) false v0 v3 v5 v8 v14 p q := by
  unfold k5_pay1
  simp only [shapeCast_self]
  rw [plain5000]
  show (matmul (F := Ideal) _ none _ _ _ (ix2 p q) + matmul (F := Ideal) _ none _ _ _ (ix2 p q)) + broadcastTo _ v14 _ (ix2 p q) = _
  rw [prod_apply, prod_apply, broadcastTo_1b_ab_apply]
  rfl

/-- The index maps over the grid: the row windows sit at block t, the weight and bias windows at block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The stage on a block of rows whose entries are those of whole arrays: entry (p, q) of the block is entry (r, q)
    of the stage of the arrays, r the array row that block row p is. -/
theorem block5_apply (x0 : Vec Ideal S5000x128 .f32) (x1 : Vec Ideal S5000x128 .bf16) (x2 x4 : Vec Ideal S128x128 .f32)
    (x3 : Vec Ideal S1x128 .f32) (A0 A1 : S100000x128.Idx → EReal) (W2 W4 : S128x128.Idx → EReal) (B3 : S1x128.Idx → EReal)
    (p : Fin 5000) (q : Fin 128) (r : Fin 100000)
    (h0 : ∀ c : Fin 128, x0 (ix2 p c) = A0 (ix2 r c)) (h1 : ∀ c : Fin 128, x1 (ix2 p c) = A1 (ix2 r c))
    (h2 : ∀ c : Fin 128, x2 (ix2 c q) = W2 (ix2 c q)) (h4 : ∀ c : Fin 128, x4 (ix2 c q) = W4 (ix2 c q))
    (h3 : x3 (ix2 (0 : Fin 1) q) = B3 (ix2 (0 : Fin 1) q)) :
    k5_pay1 x0 x1 x2 x4 x3 (ix2 p q) = convBiasLastAt (m := 100000) (k := 128) (n := 128) false A0 A1 W2 W4 B3 r q := by
  rw [pay5_apply]
  unfold convBiasLastAt dotAt
  simp only [h0, h1, h2, h4, h3]

/-! A row window's block at point t holds rows 5000·t, …, 5000·t + 4999 of its array; the weight and bias windows'
    blocks are their whole arrays at every point. -/

theorem read5_0 (c : Dev nD) (t : Fin cfg5.N) (p : Fin 5000) (q : Fin 128) (r : Fin 100000) (hr : r.val = t.val * 5000 + p.val) :
    (iblk5 V c 0 t : Vec Ideal S5000x128 .f32) (ix2 p q) = (V c main_v102 : S100000x128.Idx → EReal) (ix2 r q) := by
  obtain ⟨e0, e1, -⟩ := idx_facts5 t
  unfold iblk5
  rw [View.read_apply]
  show V c main_v102 _ = V c main_v102 _
  refine congrArg _ ?_
  funext a; apply Fin.ext
  match a with
  | ⟨0, _⟩ => show win5_0.index t (0 : Fin 2) * 5000 + 1 * p.val = r.val; omega
  | ⟨1, _⟩ => show win5_0.index t (1 : Fin 2) * 128 + 1 * q.val = q.val; omega

theorem read5_1 (c : Dev nD) (t : Fin cfg5.N) (p : Fin 5000) (q : Fin 128) (r : Fin 100000) (hr : r.val = t.val * 5000 + p.val) :
    (iblk5 V c 1 t : Vec Ideal S5000x128 .bf16) (ix2 p q) = (V c main_v72 : S100000x128.Idx → EReal) (ix2 r q) := by
  obtain ⟨-, -, e0, e1, -⟩ := idx_facts5 t
  unfold iblk5
  rw [View.read_apply]
  show V c main_v72 _ = V c main_v72 _
  refine congrArg _ ?_
  funext a; apply Fin.ext
  match a with
  | ⟨0, _⟩ => show win5_1.index t (0 : Fin 2) * 5000 + 1 * p.val = r.val; omega
  | ⟨1, _⟩ => show win5_1.index t (1 : Fin 2) * 128 + 1 * q.val = q.val; omega

theorem read5_2 (c : Dev nD) (t : Fin cfg5.N) (p : Fin 128) (q : Fin 128) :
    (iblk5 V c 2 t : Vec Ideal S128x128 .f32) (ix2 p q) = (V c main_v103 : S128x128.Idx → EReal) (ix2 p q) := by
  obtain ⟨-, -, -, -, e0, e1, -⟩ := idx_facts5 t
  unfold iblk5
  rw [View.read_apply]
  show V c main_v103 _ = V c main_v103 _
  refine congrArg _ ?_
  funext a; apply Fin.ext
  match a with
  | ⟨0, _⟩ => show win5_2.index t (0 : Fin 2) * 128 + 1 * p.val = p.val; omega
  | ⟨1, _⟩ => show win5_2.index t (1 : Fin 2) * 128 + 1 * q.val = q.val; omega

theorem read5_3 (c : Dev nD) (t : Fin cfg5.N) (p : Fin 1) (q : Fin 128) :
    (iblk5 V c 3 t : Vec Ideal S1x128 .f32) (ix2 p q) = (V c main_v105 : S1x128.Idx → EReal) (ix2 p q) := by
  obtain ⟨-, -, -, -, -, -, e0, e1, -⟩ := idx_facts5 t
  unfold iblk5
  rw [View.read_apply]
  show V c main_v105 _ = V c main_v105 _
  refine congrArg _ ?_
  funext a; apply Fin.ext
  match a with
  | ⟨0, _⟩ => show win5_3.index t (0 : Fin 2) * 1 + 1 * p.val = p.val; omega
  | ⟨1, _⟩ => show win5_3.index t (1 : Fin 2) * 128 + 1 * q.val = q.val; omega

theorem read5_4 (c : Dev nD) (t : Fin cfg5.N) (p : Fin 128) (q : Fin 128) :
    (iblk5 V c 4 t : Vec Ideal S128x128 .f32) (ix2 p q) = (V c main_v104 : S128x128.Idx → EReal) (ix2 p q) := by
  obtain ⟨-, -, -, -, -, -, -, -, e0, e1, -⟩ := idx_facts5 t
  unfold iblk5
  rw [View.read_apply]
  show V c main_v104 _ = V c main_v104 _
  refine congrArg _ ?_
  funext a; apply Fin.ext
  match a with
  | ⟨0, _⟩ => show win5_4.index t (0 : Fin 2) * 128 + 1 * p.val = p.val; omega
  | ⟨1, _⟩ => show win5_4.index t (1 : Fin 2) * 128 + 1 * q.val = q.val; omega

/-- What point t writes back is block t of the stage of the arrays the region finds. -/
theorem flushed5_eq (c : Dev nD) (t : Fin cfg5.N) :
    (dat5 V c).flushed 5 t = ((cfg5.win 5).blk t).view.read (Elt Ideal) (convBiasLast (m := 100000) (k := 128) (n := 128) false (V c main_v102) (V c main_v72) (V c main_v103) (V c main_v104) (V c main_v105)) := by
  show (cfg5.win 5).cut (grid5.coords t) ((dat5 V c).after 5 t) = _
  rw [after5_5]
  unfold out5_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts5 t
  funext j
  obtain ⟨p, q, rfl⟩ : ∃ (p : Fin 5000) (q : Fin 128), j = ix2 p q := ⟨j 0, j 1, eq_ix2 j⟩
  have ht : t.val < 20 := t.isLt
  have hr : t.val * 5000 + p.val < 100000 := by have := p.isLt; omega
  have hemb : ((cfg5.win 5).blk t).view.emb (ix2 p q) = ix2 (⟨t.val * 5000 + p.val, hr⟩ : Fin 100000) q := by
    funext a; apply Fin.ext
    match a with
    | ⟨0, _⟩ => show win5_5.index t (0 : Fin 2) * 5000 + 1 * p.val = t.val * 5000 + p.val; omega
    | ⟨1, _⟩ => show win5_5.index t (1 : Fin 2) * 128 + 1 * q.val = q.val; omega
  show k5_pay1 (iblk5 V c 0 t) (iblk5 V c 1 t) (iblk5 V c 2 t) (iblk5 V c 4 t) (iblk5 V c 3 t) (ix2 p q)
    = convBiasLast (m := 100000) (k := 128) (n := 128) false (V c main_v102) (V c main_v72) (V c main_v103) (V c main_v104) (V c main_v105) (((cfg5.win 5).blk t).view.emb (ix2 p q))
  rw [hemb, convBiasLast_apply]
  exact block5_apply (iblk5 V c 0 t) (iblk5 V c 1 t) (iblk5 V c 2 t) (iblk5 V c 4 t) (iblk5 V c 3 t)
    (V c main_v102) (V c main_v72) (V c main_v103) (V c main_v104) (V c main_v105) p q ⟨t.val * 5000 + p.val, hr⟩
    (fun k => read5_0 V c t p k _ rfl) (fun k => read5_1 V c t p k _ rfl)
    (fun k => read5_2 V c t k q) (fun k => read5_4 V c t k q) (read5_3 V c t 0 q)

/-- An index of the result array is in point t's block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v106).slice (win5_5.rect t)).set ↔ _
  rw [View.set_slice_whole, Rect.mem_set_unit]
  exact Iff.rfl

/-- Every row of the result array lies in the block of the point numbered by the row's quotient by 5000. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hlt : (i 0).val / 5000 < cfg5.N := by rw [show cfg5.N = 20 from N_5]; omega
  obtain ⟨-, -, -, -, -, -, -, -, -, -, e0, e1⟩ := idx_facts5 ⟨(i 0).val / 5000, hlt⟩
  have e0' : win5_5.index ⟨(i 0).val / 5000, hlt⟩ (0 : Fin 2) = (i 0).val / 5000 := e0
  refine ⟨⟨(i 0).val / 5000, hlt⟩, flush5_5 _, ?_⟩
  rw [mem_blk5]
  intro a
  match a with
  | ⟨0, _⟩ => show win5_5.index ⟨(i 0).val / 5000, hlt⟩ (0 : Fin 2) * 5000 ≤ (i 0).val ∧ (i 0).val < win5_5.index ⟨(i 0).val / 5000, hlt⟩ (0 : Fin 2) * 5000 + 5000; omega
  | ⟨1, _⟩ => show win5_5.index ⟨(i 0).val / 5000, hlt⟩ (1 : Fin 2) * 128 ≤ (i 1).val ∧ (i 1).val < win5_5.index ⟨(i 0).val / 5000, hlt⟩ (1 : Fin 2) * 128 + 128; omega

/-- The array the region leaves: the convolution stage, not clamped, of the arrays it found. -/
theorem region5_value (c : Dev nD) : ((Gen.dat5 (F := Ideal) V c).arrAt 5 cfg5.N : S100000x128.Idx → EReal)
      = DenseStages.convBiasLast (m := 100000) (k := 128) (n := 128) false (V c main_v102) (V c main_v72) (V c main_v103) (V c main_v104) (V c main_v105) :=
  (dat5 V c).arrAt_eq_of_cover 5 _ (fun t _ => flushed5_eq V c t) cover5

end Region5

end Cert.KernelIdeal.SageValue

end
-- ==== Proof.LibMatrixReads.lean ====
/-
  Matrices read entry by entry, at the exact extended-real values.

  * A product of an m×k matrix with a k×n matrix accumulated into a zero matrix has, at row a and column b, the entry
    ∑ c, A(a, c) · B(c, b): the zero it starts from is the extended real 0, and 0 + x = x.
  * A column of m entries (an m×1 matrix) copied along n columns has at (a, b) the column's entry (a, 0), in both
    spellings of that copy: the one that aligns trailing axes and the one that names the axes.
  * A vector of n entries laid as a 1×n matrix by naming axis 1 has at (u, b) the vector's entry b.
-/
import Idealize.ShloMosaic.Lib.StackMember
import Idealize.ShloMosaic.Lib.KernelVsHost
import Idealize.ShloMosaic.Lib.ValueLayout
import Idealize.ShloMosaic.PureOps.Ideal.Laws

namespace MatrixReads

open Idealize.ShloMosaic Idealize.ShloMosaic.ValueIdx Idealize.ShloMosaic.StackMember

/-- The product of an m×k and a k×n matrix accumulated into the zero matrix, at (a, b): the sum over the shared
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact dotGeneral_plain_apply prec A B a b

variable {α : Type}

/-- A column (an a×1 matrix) copied along b columns by aligning trailing axes: at (p, c) it is the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same copy with the axes named (axis 0 to axis 0, axis 1 to axis 1). -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid as a one-row matrix by naming axis 1: at (u, c) it is the vector at c. -/
theorem broadcastInDim_b_1b_apply {b : ℕ} (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end MatrixReads
-- ==== Proof.LibMeanByCount.lean ====
/-
  Dividing each row of a matrix by a count is multiplying it by the count's reciprocal.

  The counts here are of the form max(c, 1), so they are at least 1 and never zero; for such a y the quotient x / y
  is x · y⁻¹ on every extended real x, and 1 / y is 1 · y⁻¹ = y⁻¹, hence x · (1 / y) = x / y with no finiteness
  assumed of x. Entry by entry this turns a matrix times the column of reciprocal counts copied along the rows
  into the matrix divided by the column of counts copied along the rows. A bf16 array read as f32 is the same
  array of extended reals.
-/
import proofs.«160307_j3882650436638_2_alg».proof.Proof.LibMatrixReads

noncomputable section

namespace MeanByCount

open Idealize.ShloMosaic Idealize.ShloMosaic.ValueIdx MatrixReads

/-- The word of the float one denotes the number one. -/
theorem ofBits_one : Ideal.ofBits .f32 0x3F800000#32 = 1 := by
  simp [Ideal.ofBits, Ideal.ieee, -EReal.coe_mul]; norm_num

/-- x · (1 / max(c, 1)) = x / max(c, 1) on the extended reals. -/
theorem mul_recip_count (x c : EReal) :
    x * Ideal.div (Ideal.ofBits .f32 0x3F800000#32) (max c (Ideal.ofBits .f32 0x3F800000#32))
      = Ideal.div x (max c (Ideal.ofBits .f32 0x3F800000#32)) := by
  rw [ofBits_one]
  have hy : max c 1 ≠ 0 := ne_of_gt (lt_of_lt_of_le zero_lt_one (le_max_right c 1))
  unfold Ideal.div
  rw [if_neg hy, if_neg hy, one_mul]

variable {α : Type}

/-- A vector of a entries laid as a column (an a×1 matrix) by naming axis 0: at (p, u) it is the vector at p. -/
theorem broadcastInDim_a_a1_apply {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

variable {m n : Nat}

/-- A matrix times the reciprocal counts copied along its rows is the matrix divided by the counts copied along its rows. -/
theorem mul_recip_eq_div (h0 : (⟨0, ![]⟩ : Shape).BroadcastsInDim ⟨1, ![m]⟩ ![])
    (h1 : (⟨1, ![m]⟩ : Shape).BroadcastsInDim ⟨2, ![m, 1]⟩ ![0]) (h2 : (⟨2, ![m, 1]⟩ : Shape).BroadcastsInDim ⟨2, ![m, n]⟩ ![0, 1])
    (S : FVec Ideal ⟨2, ![m, n]⟩ .f32) (cnt : FVec Ideal ⟨1, ![m]⟩ .f32) :
    mulf S (broadcastInDim ⟨2, ![m, n]⟩ ![0, 1] h2 (broadcastInDim ⟨2, ![m, 1]⟩ ![0] h1
        (Host.divf (broadcastInDim ⟨1, ![m]⟩ ![] h0 (constant (F := Ideal) ⟨0, ![]⟩ .f32 0x3F800000#32))
          (maximumf cnt (broadcastInDim ⟨1, ![m]⟩ ![] h0 (constant (F := Ideal) ⟨0, ![]⟩ .f32 0x3F800000#32))))))
      = Host.divf S (broadcastInDim ⟨2, ![m, n]⟩ ![0, 1] h2 (broadcastInDim ⟨2, ![m, 1]⟩ ![0] h1
          (maximumf cnt (broadcastInDim ⟨1, ![m]⟩ ![] h0 (constant (F := Ideal) ⟨0, ![]⟩ .f32 0x3F800000#32))))) := by
  funext i
  obtain ⟨p, q, rfl⟩ : ∃ (p : Fin m) (q : Fin n), i = ix2 p q := ⟨i 0, i 1, eq_ix2 i⟩
  show S (ix2 p q) * broadcastInDim (s := ⟨2, ![m, 1]⟩) ⟨2, ![m, n]⟩ ![0, 1] h2 _ (ix2 p q)
    = Ideal.div (S (ix2 p q)) (broadcastInDim (s := ⟨2, ![m, 1]⟩) ⟨2, ![m, n]⟩ ![0, 1] h2 _ (ix2 p q))
  rw [broadcastInDim_a1_ab_apply, broadcastInDim_a1_ab_apply, broadcastInDim_a_a1_apply, broadcastInDim_a_a1_apply]
  exact mul_recip_count (S (ix2 p q)) (cnt (ix1 p))

/-- A change of float format is the identity on extended reals. -/
theorem extf_eq_self {s : Shape} (x : FVec Ideal s .bf16) (h) : (extf (F := Ideal) .f32 x h : s.Idx → EReal) = x := rfl

end MeanByCount

end
-- ==== Proof.ChainBase.lean ====
/-
  What the chain of boundary values assumes, the reciprocal in-degree columns, and the argument arrays read at the
  boundaries.

  The buffer contents at the program's boundaries are a fold through seven stretches of host operations and six
  regions. The chain evaluates that fold from the launch memory to the result, one boundary at a time, each value
  stated as the reference's stage function of the argument arrays.
-/
import proofs.«160307_j3882650436638_2_alg».proof.Proof.Gen.KernelIdeal.Frame
import proofs.«160307_j3882650436638_2_alg».proof.Proof.Gen.ReferenceIdeal.Read
import proofs.«160307_j3882650436638_2_alg».proof.Proof.LibMeanByCount
import proofs.«160307_j3882650436638_2_alg».proof.Proof.LibDenseStages
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the chain assumes of the regions and of the inputs -/

/-- The six regions' output arrays as the specification's matrices of the arrays each region finds, and the
    realness of the encoder inputs: the user features, weights, bias, mean and scale, and the same of the jobs. -/
structure Hyps (m : (ℓ : Loc nD τ sig) → Buf (Elt Ideal) ℓ) (c : Dev nD) : Prop where
  hR0 : ∀ (V : (c : Dev nD) → (b : Ref sig .tc) → Buf (Elt Ideal) ((c : Thread nD τ).loc b)) (c : Dev nD), ((dat0 (F := Ideal) V c).arrAt 4 cfg0.N : S100000x128.Idx → EReal) = DenseStages.encFolded (m := 100000) (k := 512) (n := 128) (V c main_arg0) (V c main_v14) (V c main_v15) (V c main_v16)
  hR1 : ∀ (V : (c : Dev nD) → (b : Ref sig .tc) → Buf (Elt Ideal) ((c : Thread nD τ).loc b)) (c : Dev nD), ((dat1 (F := Ideal) V c).arrAt 4 cfg1.N : S50000x128.Idx → EReal) = DenseStages.encFolded (m := 50000) (k := 768) (n := 128) (V c main_arg1) (V c main_v18) (V c main_v19) (V c main_v20)
  hR2 : ∀ (V : (c : Dev nD) → (b : Ref sig .tc) → Buf (Elt Ideal) ((c : Thread nD τ).loc b)) (c : Dev nD), ((dat2 (F := Ideal) V c).arrAt 5 cfg2.N : S50000x128.Idx → EReal) = DenseStages.convBiasLast (m := 50000) (k := 128) (n := 128) true (V c main_v51) (V c main_v21) (V c main_v52) (V c main_v53) (V c main_v54)
  hR3 : ∀ (V : (c : Dev nD) → (b : Ref sig .tc) → Buf (Elt Ideal) ((c : Thread nD τ).loc b)) (c : Dev nD), ((dat3 (F := Ideal) V c).arrAt 5 cfg3.N : S100000x128.Idx → EReal) = DenseStages.convBiasLast (m := 100000) (k := 128) (n := 128) true (V c main_v68) (V c main_v17) (V c main_v69) (V c main_v70) (V c main_v71)
  hR4 : ∀ (V : (c : Dev nD) → (b : Ref sig .tc) → Buf (Elt Ideal) ((c : Thread nD τ).loc b)) (c : Dev nD), ((dat4 (F := Ideal) V c).arrAt 5 cfg4.N : S50000x128.Idx → EReal) = DenseStages.convBiasLast (m := 50000) (k := 128) (n := 128) false (V c main_v85) (V c main_v55) (V c main_v86) (V c main_v87) (V c main_v88)
  hR5 : ∀ (V : (c : Dev nD) → (b : Ref sig .tc) → Buf (Elt Ideal) ((c : Thread nD τ).loc b)) (c : Dev nD), ((dat5 (F := Ideal) V c).arrAt 5 cfg5.N : S100000x128.Idx → EReal) = DenseStages.convBiasLast (m := 100000) (k := 128) (n := 128) false (V c main_v102) (V c main_v72) (V c main_v103) (V c main_v104) (V c main_v105)
  h0 : (∀ i, ∃ r : ℝ, (m ((c : Thread nD τ).loc main_arg0)) i = (r : EReal))
  h1 : (∀ i, ∃ r : ℝ, (m ((c : Thread nD τ).loc main_arg1)) i = (r : EReal))
  h2 : (∀ i, ∃ r : ℝ, (m ((c : Thread nD τ).loc main_arg2)) i = (r : EReal))
  h3 : (∀ i, ∃ r : ℝ, (m ((c : Thread nD τ).loc main_arg3)) i = (r : EReal))
  h6 : (∀ i, ∃ r : ℝ, (m ((c : Thread nD τ).loc main_arg6)) i = (r : EReal))
  h8 : (∀ i, ∃ r : ℝ, (m ((c : Thread nD τ).loc main_arg8)) i = (r : EReal))
  h9 : (∀ i, ∃ r : ℝ, (m ((c : Thread nD τ).loc main_arg9)) i = (r : EReal))
  h12 : (∀ i, ∃ r : ℝ, (m ((c : Thread nD τ).loc main_arg12)) i = (r : EReal))
  hsU : (∀ i, ∃ r : ℝ, (Cert.ReferenceIdeal.Read.val_main_v11 (F := Ideal) (m ((c : Thread nD τ).loc main_arg4)) (m ((c : Thread nD τ).loc main_arg7))) i = (r : EReal))
  hsJ : (∀ i, ∃ r : ℝ, (Cert.ReferenceIdeal.Read.val_main_v30 (F := Ideal) (m ((c : Thread nD τ).loc main_arg10)) (m ((c : Thread nD τ).loc main_arg13))) i = (r : EReal))

/-- The column of reciprocal in-degrees of the jobs, 1 / max(count, 1), the count being the sum of ones over the edges
    that end at each job. -/
def invCountJob (x27 : (⟨S2000000, .i32⟩ : BufTy).Contents (Elt Ideal)) : (⟨S50000x1, .f32⟩ : BufTy).Contents (Elt Ideal) :=
  broadcastInDim S50000x1 ![0] bcast_S50000_S50000x1_0 (Host.divf (F := Ideal) (broadcastInDim S50000 ![] bcast_S_S50000 (constant (F := Ideal) S_ .f32 0x3F800000#32))
    (maximumf (Host.scatterAdd (F := Ideal) scatter_S50000_S2000000x1_S2000000_n_0_0_1 (broadcastInDim S50000 ![] bcast_S_S50000 (constant (F := Ideal) S_ .f32 0x00000000#32))
      (broadcastInDim S2000000x1 ![0] bcast_S2000000_S2000000x1_0 x27) (broadcastInDim S2000000 ![] bcast_S_S2000000 (constant (F := Ideal) S_ .f32 0x3F800000#32)))
      (broadcastInDim S50000 ![] bcast_S_S50000 (constant (F := Ideal) S_ .f32 0x3F800000#32))))

/-- The column of reciprocal in-degrees of the users. -/
def invCountUser (x26 : (⟨S2000000, .i32⟩ : BufTy).Contents (Elt Ideal)) : (⟨S100000x1, .f32⟩ : BufTy).Contents (Elt Ideal) :=
  broadcastInDim S100000x1 ![0] bcast_S100000_S100000x1_0 (Host.divf (F := Ideal) (broadcastInDim S100000 ![] bcast_S_S100000 (constant (F := Ideal) S_ .f32 0x3F800000#32))
    (maximumf (Host.scatterAdd (F := Ideal) scatter_S100000_S2000000x1_S2000000_n_0_0_1 (broadcastInDim S100000 ![] bcast_S_S100000 (constant (F := Ideal) S_ .f32 0x00000000#32))
      (broadcastInDim S2000000x1 ![0] bcast_S2000000_S2000000x1_0 x26) (broadcastInDim S2000000 ![] bcast_S_S2000000 (constant (F := Ideal) S_ .f32 0x3F800000#32)))
      (broadcastInDim S100000 ![] bcast_S_S100000 (constant (F := Ideal) S_ .f32 0x3F800000#32))))

/-! ## The argument arrays are as launched at every boundary where they are read

No host operation and no region writes an argument array, so the fold at an argument's buffer walks back to the
launch memory, one region and one stretch of host operations at a time. -/
theorem keep_arg14_2 : W2 m ρ c (Proc.devRef .tc main_arg14) = (m ((c : Thread nD τ).loc main_arg14)) :=
  (W2_of_ne m ρ c main_arg14 (by decide)).trans (by dsimp only [W1, W0, hostOps0]; after_results_simp; all_goals rfl)
theorem keep_arg14_4 : W4 m ρ c (Proc.devRef .tc main_arg14) = (m ((c : Thread nD τ).loc main_arg14)) :=
  (W4_of_ne m ρ c main_arg14 (by decide)).trans (by dsimp only [W3, hostOps1]; after_results_simp; exact keep_arg14_2 m ρ c)
theorem keep_arg15_2 : W2 m ρ c (Proc.devRef .tc main_arg15) = (m ((c : Thread nD τ).loc main_arg15)) :=
  (W2_of_ne m ρ c main_arg15 (by decide)).trans (by dsimp only [W1, W0, hostOps0]; after_results_simp; all_goals rfl)
theorem keep_arg15_4 : W4 m ρ c (Proc.devRef .tc main_arg15) = (m ((c : Thread nD τ).loc main_arg15)) :=
  (W4_of_ne m ρ c main_arg15 (by decide)).trans (by dsimp only [W3, hostOps1]; after_results_simp; exact keep_arg15_2 m ρ c)
theorem keep_arg16_2 : W2 m ρ c (Proc.devRef .tc main_arg16) = (m ((c : Thread nD τ).loc main_arg16)) :=
  (W2_of_ne m ρ c main_arg16 (by decide)).trans (by dsimp only [W1, W0, hostOps0]; after_results_simp; all_goals rfl)
theorem keep_arg16_4 : W4 m ρ c (Proc.devRef .tc main_arg16) = (m ((c : Thread nD τ).loc main_arg16)) :=
  (W4_of_ne m ρ c main_arg16 (by decide)).trans (by dsimp only [W3, hostOps1]; after_results_simp; exact keep_arg16_2 m ρ c)
theorem keep_arg17_2 : W2 m ρ c (Proc.devRef .tc main_arg17) = (m ((c : Thread nD τ).loc main_arg17)) :=
  (W2_of_ne m ρ c main_arg17 (by decide)).trans (by dsimp only [W1, W0, hostOps0]; after_results_simp; all_goals rfl)
theorem keep_arg17_4 : W4 m ρ c (Proc.devRef .tc main_arg17) = (m ((c : Thread nD τ).loc main_arg17)) :=
  (W4_of_ne m ρ c main_arg17 (by decide)).trans (by dsimp only [W3, hostOps1]; after_results_simp; exact keep_arg17_2 m ρ c)
theorem keep_arg17_6 : W6 m ρ c (Proc.devRef .tc main_arg17) = (m ((c : Thread nD τ).loc main_arg17)) :=
  (W6_of_ne m ρ c main_arg17 (by decide)).trans (by dsimp only [W5, hostOps2]; after_results_simp; exact keep_arg17_4 m ρ c)
theorem keep_arg18_2 : W2 m ρ c (Proc.devRef .tc main_arg18) = (m ((c : Thread nD τ).loc main_arg18)) :=
  (W2_of_ne m ρ c main_arg18 (by decide)).trans (by dsimp only [W1, W0, hostOps0]; after_results_simp; all_goals rfl)
theorem keep_arg18_4 : W4 m ρ c (Proc.devRef .tc main_arg18) = (m ((c : Thread nD τ).loc main_arg18)) :=
  (W4_of_ne m ρ c main_arg18 (by decide)).trans (by dsimp only [W3, hostOps1]; after_results_simp; exact keep_arg18_2 m ρ c)
theorem keep_arg18_6 : W6 m ρ c (Proc.devRef .tc main_arg18) = (m ((c : Thread nD τ).loc main_arg18)) :=
  (W6_of_ne m ρ c main_arg18 (by decide)).trans (by dsimp only [W5, hostOps2]; after_results_simp; exact keep_arg18_4 m ρ c)
theorem keep_arg19_2 : W2 m ρ c (Proc.devRef .tc main_arg19) = (m ((c : Thread nD τ).loc main_arg19)) :=
  (W2_of_ne m ρ c main_arg19 (by decide)).trans (by dsimp only [W1, W0, hostOps0]; after_results_simp; all_goals rfl)
theorem keep_arg19_4 : W4 m ρ c (Proc.devRef .tc main_arg19) = (m ((c : Thread nD τ).loc main_arg19)) :=
  (W4_of_ne m ρ c main_arg19 (by decide)).trans (by dsimp only [W3, hostOps1]; after_results_simp; exact keep_arg19_2 m ρ c)
theorem keep_arg19_6 : W6 m ρ c (Proc.devRef .tc main_arg19) = (m ((c : Thread nD τ).loc main_arg19)) :=
  (W6_of_ne m ρ c main_arg19 (by decide)).trans (by dsimp only [W5, hostOps2]; after_results_simp; exact keep_arg19_4 m ρ c)
theorem keep_arg20_2 : W2 m ρ c (Proc.devRef .tc main_arg20) = (m ((c : Thread nD τ).loc main_arg20)) :=
  (W2_of_ne m ρ c main_arg20 (by decide)).trans (by dsimp only [W1, W0, hostOps0]; after_results_simp; all_goals rfl)
theorem keep_arg20_4 : W4 m ρ c (Proc.devRef .tc main_arg20) = (m ((c : Thread nD τ).loc main_arg20)) :=
  (W4_of_ne m ρ c main_arg20 (by decide)).trans (by dsimp only [W3, hostOps1]; after_results_simp; exact keep_arg20_2 m ρ c)
theorem keep_arg20_6 : W6 m ρ c (Proc.devRef .tc main_arg20) = (m ((c : Thread nD τ).loc main_arg20)) :=
  (W6_of_ne m ρ c main_arg20 (by decide)).trans (by dsimp only [W5, hostOps2]; after_results_simp; exact keep_arg20_4 m ρ c)
theorem keep_arg20_8 : W8 m ρ c (Proc.devRef .tc main_arg20) = (m ((c : Thread nD τ).loc main_arg20)) :=
  (W8_of_ne m ρ c main_arg20 (by decide)).trans (by dsimp only [W7, hostOps3]; after_results_simp; exact keep_arg20_6 m ρ c)
theorem keep_arg21_2 : W2 m ρ c (Proc.devRef .tc main_arg21) = (m ((c : Thread nD τ).loc main_arg21)) :=
  (W2_of_ne m ρ c main_arg21 (by decide)).trans (by dsimp only [W1, W0, hostOps0]; after_results_simp; all_goals rfl)
theorem keep_arg21_4 : W4 m ρ c (Proc.devRef .tc main_arg21) = (m ((c : Thread nD τ).loc main_arg21)) :=
  (W4_of_ne m ρ c main_arg21 (by decide)).trans (by dsimp only [W3, hostOps1]; after_results_simp; exact keep_arg21_2 m ρ c)
theorem keep_arg21_6 : W6 m ρ c (Proc.devRef .tc main_arg21) = (m ((c : Thread nD τ).loc main_arg21)) :=
  (W6_of_ne m ρ c main_arg21 (by decide)).trans (by dsimp only [W5, hostOps2]; after_results_simp; exact keep_arg21_4 m ρ c)
theorem keep_arg21_8 : W8 m ρ c (Proc.devRef .tc main_arg21) = (m ((c : Thread nD τ).loc main_arg21)) :=
  (W8_of_ne m ρ c main_arg21 (by decide)).trans (by dsimp only [W7, hostOps3]; after_results_simp; exact keep_arg21_6 m ρ c)
theorem keep_arg22_2 : W2 m ρ c (Proc.devRef .tc main_arg22) = (m ((c : Thread nD τ).loc main_arg22)) :=
  (W2_of_ne m ρ c main_arg22 (by decide)).trans (by dsimp only [W1, W0, hostOps0]; after_results_simp; all_goals rfl)
theorem keep_arg22_4 : W4 m ρ c (Proc.devRef .tc main_arg22) = (m ((c : Thread nD τ).loc main_arg22)) :=
  (W4_of_ne m ρ c main_arg22 (by decide)).trans (by dsimp only [W3, hostOps1]; after_results_simp; exact keep_arg22_2 m ρ c)
theorem keep_arg22_6 : W6 m ρ c (Proc.devRef .tc main_arg22) = (m ((c : Thread nD τ).loc main_arg22)) :=
  (W6_of_ne m ρ c main_arg22 (by decide)).trans (by dsimp only [W5, hostOps2]; after_results_simp; exact keep_arg22_4 m ρ c)
theorem keep_arg22_8 : W8 m ρ c (Proc.devRef .tc main_arg22) = (m ((c : Thread nD τ).loc main_arg22)) :=
  (W8_of_ne m ρ c main_arg22 (by decide)).trans (by dsimp only [W7, hostOps3]; after_results_simp; exact keep_arg22_6 m ρ c)
theorem keep_arg23_2 : W2 m ρ c (Proc.devRef .tc main_arg23) = (m ((c : Thread nD τ).loc main_arg23)) :=
  (W2_of_ne m ρ c main_arg23 (by decide)).trans (by dsimp only [W1, W0, hostOps0]; after_results_simp; all_goals rfl)
theorem keep_arg23_4 : W4 m ρ c (Proc.devRef .tc main_arg23) = (m ((c : Thread nD τ).loc main_arg23)) :=
  (W4_of_ne m ρ c main_arg23 (by decide)).trans (by dsimp only [W3, hostOps1]; after_results_simp; exact keep_arg23_2 m ρ c)
theorem keep_arg23_6 : W6 m ρ c (Proc.devRef .tc main_arg23) = (m ((c : Thread nD τ).loc main_arg23)) :=
  (W6_of_ne m ρ c main_arg23 (by decide)).trans (by dsimp only [W5, hostOps2]; after_results_simp; exact keep_arg23_4 m ρ c)
theorem keep_arg23_8 : W8 m ρ c (Proc.devRef .tc main_arg23) = (m ((c : Thread nD τ).loc main_arg23)) :=
  (W8_of_ne m ρ c main_arg23 (by decide)).trans (by dsimp only [W7, hostOps3]; after_results_simp; exact keep_arg23_6 m ρ c)
theorem keep_arg23_10 : W10 m ρ c (Proc.devRef .tc main_arg23) = (m ((c : Thread nD τ).loc main_arg23)) :=
  (W10_of_ne m ρ c main_arg23 (by decide)).trans (by dsimp only [W9, hostOps4]; after_results_simp; exact keep_arg23_8 m ρ c)
theorem keep_arg24_2 : W2 m ρ c (Proc.devRef .tc main_arg24) = (m ((c : Thread nD τ).loc main_arg24)) :=
  (W2_of_ne m ρ c main_arg24 (by decide)).trans (by dsimp only [W1, W0, hostOps0]; after_results_simp; all_goals rfl)
theorem keep_arg24_4 : W4 m ρ c (Proc.devRef .tc main_arg24) = (m ((c : Thread nD τ).loc main_arg24)) :=
  (W4_of_ne m ρ c main_arg24 (by decide)).trans (by dsimp only [W3, hostOps1]; after_results_simp; exact keep_arg24_2 m ρ c)
theorem keep_arg24_6 : W6 m ρ c (Proc.devRef .tc main_arg24) = (m ((c : Thread nD τ).loc main_arg24)) :=
  (W6_of_ne m ρ c main_arg24 (by decide)).trans (by dsimp only [W5, hostOps2]; after_results_simp; exact keep_arg24_4 m ρ c)
theorem keep_arg24_8 : W8 m ρ c (Proc.devRef .tc main_arg24) = (m ((c : Thread nD τ).loc main_arg24)) :=
  (W8_of_ne m ρ c main_arg24 (by decide)).trans (by dsimp only [W7, hostOps3]; after_results_simp; exact keep_arg24_6 m ρ c)
theorem keep_arg24_10 : W10 m ρ c (Proc.devRef .tc main_arg24) = (m ((c : Thread nD τ).loc main_arg24)) :=
  (W10_of_ne m ρ c main_arg24 (by decide)).trans (by dsimp only [W9, hostOps4]; after_results_simp; exact keep_arg24_8 m ρ c)
theorem keep_arg25_2 : W2 m ρ c (Proc.devRef .tc main_arg25) = (m ((c : Thread nD τ).loc main_arg25)) :=
  (W2_of_ne m ρ c main_arg25 (by decide)).trans (by dsimp only [W1, W0, hostOps0]; after_results_simp; all_goals rfl)
theorem keep_arg25_4 : W4 m ρ c (Proc.devRef .tc main_arg25) = (m ((c : Thread nD τ).loc main_arg25)) :=
  (W4_of_ne m ρ c main_arg25 (by decide)).trans (by dsimp only [W3, hostOps1]; after_results_simp; exact keep_arg25_2 m ρ c)
theorem keep_arg25_6 : W6 m ρ c (Proc.devRef .tc main_arg25) = (m ((c : Thread nD τ).loc main_arg25)) :=
  (W6_of_ne m ρ c main_arg25 (by decide)).trans (by dsimp only [W5, hostOps2]; after_results_simp; exact keep_arg25_4 m ρ c)
theorem keep_arg25_8 : W8 m ρ c (Proc.devRef .tc main_arg25) = (m ((c : Thread nD τ).loc main_arg25)) :=
  (W8_of_ne m ρ c main_arg25 (by decide)).trans (by dsimp only [W7, hostOps3]; after_results_simp; exact keep_arg25_6 m ρ c)
theorem keep_arg25_10 : W10 m ρ c (Proc.devRef .tc main_arg25) = (m ((c : Thread nD τ).loc main_arg25)) :=
  (W10_of_ne m ρ c main_arg25 (by decide)).trans (by dsimp only [W9, hostOps4]; after_results_simp; exact keep_arg25_8 m ρ c)
theorem keep_arg26_2 : W2 m ρ c (Proc.devRef .tc main_arg26) = (m ((c : Thread nD τ).loc main_arg26)) :=
  (W2_of_ne m ρ c main_arg26 (by decide)).trans (by dsimp only [W1, W0, hostOps0]; after_results_simp; all_goals rfl)
theorem keep_arg26_4 : W4 m ρ c (Proc.devRef .tc main_arg26) = (m ((c : Thread nD τ).loc main_arg26)) :=
  (W4_of_ne m ρ c main_arg26 (by decide)).trans (by dsimp only [W3, hostOps1]; after_results_simp; exact keep_arg26_2 m ρ c)
theorem keep_arg26_6 : W6 m ρ c (Proc.devRef .tc main_arg26) = (m ((c : Thread nD τ).loc main_arg26)) :=
  (W6_of_ne m ρ c main_arg26 (by decide)).trans (by dsimp only [W5, hostOps2]; after_results_simp; exact keep_arg26_4 m ρ c)
theorem keep_arg26_8 : W8 m ρ c (Proc.devRef .tc main_arg26) = (m ((c : Thread nD τ).loc main_arg26)) :=
  (W8_of_ne m ρ c main_arg26 (by decide)).trans (by dsimp only [W7, hostOps3]; after_results_simp; exact keep_arg26_6 m ρ c)
theorem keep_arg26_10 : W10 m ρ c (Proc.devRef .tc main_arg26) = (m ((c : Thread nD τ).loc main_arg26)) :=
  (W10_of_ne m ρ c main_arg26 (by decide)).trans (by dsimp only [W9, hostOps4]; after_results_simp; exact keep_arg26_8 m ρ c)
theorem keep_arg27_2 : W2 m ρ c (Proc.devRef .tc main_arg27) = (m ((c : Thread nD τ).loc main_arg27)) :=
  (W2_of_ne m ρ c main_arg27 (by decide)).trans (by dsimp only [W1, W0, hostOps0]; after_results_simp; all_goals rfl)
theorem keep_arg27_4 : W4 m ρ c (Proc.devRef .tc main_arg27) = (m ((c : Thread nD τ).loc main_arg27)) :=
  (W4_of_ne m ρ c main_arg27 (by decide)).trans (by dsimp only [W3, hostOps1]; after_results_simp; exact keep_arg27_2 m ρ c)
theorem keep_arg27_6 : W6 m ρ c (Proc.devRef .tc main_arg27) = (m ((c : Thread nD τ).loc main_arg27)) :=
  (W6_of_ne m ρ c main_arg27 (by decide)).trans (by dsimp only [W5, hostOps2]; after_results_simp; exact keep_arg27_4 m ρ c)
theorem keep_arg27_8 : W8 m ρ c (Proc.devRef .tc main_arg27) = (m ((c : Thread nD τ).loc main_arg27)) :=
  (W8_of_ne m ρ c main_arg27 (by decide)).trans (by dsimp only [W7, hostOps3]; after_results_simp; exact keep_arg27_6 m ρ c)
theorem keep_arg27_10 : W10 m ρ c (Proc.devRef .tc main_arg27) = (m ((c : Thread nD τ).loc main_arg27)) :=
  (W10_of_ne m ρ c main_arg27 (by decide)).trans (by dsimp only [W9, hostOps4]; after_results_simp; exact keep_arg27_8 m ρ c)
theorem keep_arg28_2 : W2 m ρ c (Proc.devRef .tc main_arg28) = (m ((c : Thread nD τ).loc main_arg28)) :=
  (W2_of_ne m ρ c main_arg28 (by decide)).trans (by dsimp only [W1, W0, hostOps0]; after_results_simp; all_goals rfl)
theorem keep_arg28_4 : W4 m ρ c (Proc.devRef .tc main_arg28) = (m ((c : Thread nD τ).loc main_arg28)) :=
  (W4_of_ne m ρ c main_arg28 (by decide)).trans (by dsimp only [W3, hostOps1]; after_results_simp; exact keep_arg28_2 m ρ c)
theorem keep_arg28_6 : W6 m ρ c (Proc.devRef .tc main_arg28) = (m ((c : Thread nD τ).loc main_arg28)) :=
  (W6_of_ne m ρ c main_arg28 (by decide)).trans (by dsimp only [W5, hostOps2]; after_results_simp; exact keep_arg28_4 m ρ c)
theorem keep_arg28_8 : W8 m ρ c (Proc.devRef .tc main_arg28) = (m ((c : Thread nD τ).loc main_arg28)) :=
  (W8_of_ne m ρ c main_arg28 (by decide)).trans (by dsimp only [W7, hostOps3]; after_results_simp; exact keep_arg28_6 m ρ c)
theorem keep_arg28_10 : W10 m ρ c (Proc.devRef .tc main_arg28) = (m ((c : Thread nD τ).loc main_arg28)) :=
  (W10_of_ne m ρ c main_arg28 (by decide)).trans (by dsimp only [W9, hostOps4]; after_results_simp; exact keep_arg28_8 m ρ c)
theorem keep_arg28_12 : W12 m ρ c (Proc.devRef .tc main_arg28) = (m ((c : Thread nD τ).loc main_arg28)) :=
  (W12_of_ne m ρ c main_arg28 (by decide)).trans (by dsimp only [W11, hostOps5]; after_results_simp; exact keep_arg28_10 m ρ c)
theorem keep_arg29_2 : W2 m ρ c (Proc.devRef .tc main_arg29) = (m ((c : Thread nD τ).loc main_arg29)) :=
  (W2_of_ne m ρ c main_arg29 (by decide)).trans (by dsimp only [W1, W0, hostOps0]; after_results_simp; all_goals rfl)
theorem keep_arg29_4 : W4 m ρ c (Proc.devRef .tc main_arg29) = (m ((c : Thread nD τ).loc main_arg29)) :=
  (W4_of_ne m ρ c main_arg29 (by decide)).trans (by dsimp only [W3, hostOps1]; after_results_simp; exact keep_arg29_2 m ρ c)
theorem keep_arg29_6 : W6 m ρ c (Proc.devRef .tc main_arg29) = (m ((c : Thread nD τ).loc main_arg29)) :=
  (W6_of_ne m ρ c main_arg29 (by decide)).trans (by dsimp only [W5, hostOps2]; after_results_simp; exact keep_arg29_4 m ρ c)
theorem keep_arg29_8 : W8 m ρ c (Proc.devRef .tc main_arg29) = (m ((c : Thread nD τ).loc main_arg29)) :=
  (W8_of_ne m ρ c main_arg29 (by decide)).trans (by dsimp only [W7, hostOps3]; after_results_simp; exact keep_arg29_6 m ρ c)
theorem keep_arg29_10 : W10 m ρ c (Proc.devRef .tc main_arg29) = (m ((c : Thread nD τ).loc main_arg29)) :=
  (W10_of_ne m ρ c main_arg29 (by decide)).trans (by dsimp only [W9, hostOps4]; after_results_simp; exact keep_arg29_8 m ρ c)
theorem keep_arg29_12 : W12 m ρ c (Proc.devRef .tc main_arg29) = (m ((c : Thread nD τ).loc main_arg29)) :=
  (W12_of_ne m ρ c main_arg29 (by decide)).trans (by dsimp only [W11, hostOps5]; after_results_simp; exact keep_arg29_10 m ρ c)

end Cert.KernelIdeal.Chain
end
-- ==== Proof.LibDenseStagesHost.lean ====
/-
  The dense stages in the host's spelling, read as the specification's matrices.

  The host writes an affine layer as a plain product plus vectors copied to every row: a vector of n entries is
  first laid as a one-row matrix and that row is then copied down the m rows, so at (p, q) the copy holds the
  vector's entry q. With the product read as the sum over the shared coordinate, the encoder in the order bias,
  mean, scale, shift, clamp, and the convolution stage with the bias between its two products, are entry by entry
  the specification's stepwise encoder and its bias-in-the-middle convolution.
-/
import proofs.«160307_j3882650436638_2_alg».proof.Proof.LibDenseStages
import proofs.«160307_j3882650436638_2_alg».proof.Proof.LibMatrixReads

noncomputable section

namespace DenseStages

open Idealize.ShloMosaic Idealize.ShloMosaic.ValueIdx Idealize.ShloMosaic.StackMember MatrixReads

/-- A vector laid as a one-row matrix by a change of shape: at (u, q) it is the vector at q (both have row-major
    position q, the one row being row 0). -/
theorem shapeCast_oneRow_apply {α : Type} {n : Nat} (b : (⟨1, ![n]⟩ : Shape).Idx → α)
    (h1 : (⟨1, ![n]⟩ : Shape).ShapeCasts ⟨2, ![1, n]⟩) (u : Fin 1) (q : Fin n) :
    shapeCast ⟨2, ![1, n]⟩ b h1 (ValueIdx.ix2 u q) = b (ValueIdx.ix1 q) := by
  refine shapeCast_apply b h1 (ix2 u q) (ix1 q) ?_
  rw [Shape.rowMajor_val_one, Shape.rowMajor_val_two]
  have hu : u.val = 0 := by have := u.isLt; omega
  show q.val = u.val * n + q.val
  rw [hu, Nat.zero_mul, Nat.zero_add]

variable {m k n : Nat}

/-- A vector copied to every row of an m-by-n matrix, by way of a one-row matrix. -/
abbrev everyRow (h1 : (⟨1, ![n]⟩ : Shape).BroadcastsInDim ⟨2, ![1, n]⟩ ![1])
    (h2 : (⟨2, ![1, n]⟩ : Shape).BroadcastsInDim ⟨2, ![m, n]⟩ ![0, 1]) (v : FVec Ideal ⟨1, ![n]⟩ .f32) : FVec Ideal ⟨2, ![m, n]⟩ .f32 :=
  broadcastInDim ⟨2, ![m, n]⟩ ![0, 1] h2 (broadcastInDim ⟨2, ![1, n]⟩ ![1] h1 v)

theorem everyRow_apply (h1 : (⟨1, ![n]⟩ : Shape).BroadcastsInDim ⟨2, ![1, n]⟩ ![1])
    (h2 : (⟨2, ![1, n]⟩ : Shape).BroadcastsInDim ⟨2, ![m, n]⟩ ![0, 1]) (v : FVec Ideal ⟨1, ![n]⟩ .f32) (p : Fin m) (q : Fin n) :
    everyRow h1 h2 v (ix2 p q) = v (ix1 q) := by
  unfold everyRow
  rw [broadcastInDim_oneRow_apply, broadcastInDim_b_1b_apply]

/-- The host's encoder, bias, mean, scale, shift and clamp in that order, is the stepwise encoder. -/
theorem encSteps_plain (h1 : (⟨1, ![n]⟩ : Shape).BroadcastsInDim ⟨2, ![1, n]⟩ ![1])
    (h2 : (⟨2, ![1, n]⟩ : Shape).BroadcastsInDim ⟨2, ![m, n]⟩ ![0, 1]) (hz : (⟨0, ![]⟩ : Shape).BroadcastsInDim ⟨2, ![m, n]⟩ ![])
    (X : FVec Ideal ⟨2, ![m, k]⟩ .f32) (W : FVec Ideal ⟨2, ![k, n]⟩ .f32) (b mu s beta : FVec Ideal ⟨1, ![n]⟩ .f32) :
    maximumf (addf (mulf (subf (addf (Host.dotGeneral (DotDims.plain m k n) none X W) (everyRow h1 h2 b)) (everyRow h1 h2 mu))
        (everyRow h1 h2 s)) (everyRow h1 h2 beta))
        (broadcastInDim ⟨2, ![m, n]⟩ ![] hz (constant (F := Ideal) ⟨0, ![]⟩ .f32 0x00000000#32))
      = encSteps X W b mu s beta := by
  funext i
  obtain ⟨p, q, rfl⟩ : ∃ (p : Fin m) (q : Fin n), i = ix2 p q := ⟨i 0, i 1, eq_ix2 i⟩
  rw [encSteps_apply]
  unfold encStepsAt dotAt
  show max (((Host.dotGeneral (DotDims.plain m k n) none X W (ix2 p q) + everyRow h1 h2 b (ix2 p q)) - everyRow h1 h2 mu (ix2 p q))
      * everyRow h1 h2 s (ix2 p q) + everyRow h1 h2 beta (ix2 p q)) (Ideal.ofBits .f32 0x00000000#32) = _
  rw [dotGeneral_plain_apply, everyRow_apply, everyRow_apply, everyRow_apply, everyRow_apply]

/-- The host's convolution stage, clamped: (a·Wl + bl) + x·Wr, then the clamp. -/
theorem convBiasMid_plain_clamped (h1 : (⟨1, ![n]⟩ : Shape).BroadcastsInDim ⟨2, ![1, n]⟩ ![1])
    (h2 : (⟨2, ![1, n]⟩ : Shape).BroadcastsInDim ⟨2, ![m, n]⟩ ![0, 1]) (hz : (⟨0, ![]⟩ : Shape).BroadcastsInDim ⟨2, ![m, n]⟩ ![])
    (A X : FVec Ideal ⟨2, ![m, k]⟩ .f32) (Wl Wr : FVec Ideal ⟨2, ![k, n]⟩ .f32) (bl : FVec Ideal ⟨1, ![n]⟩ .f32) :
    maximumf (addf (addf (Host.dotGeneral (DotDims.plain m k n) none A Wl) (everyRow h1 h2 bl)) (Host.dotGeneral (DotDims.plain m k n) none X Wr))
        (broadcastInDim ⟨2, ![m, n]⟩ ![] hz (constant (F := Ideal) ⟨0, ![]⟩ .f32 0x00000000#32))
      = convBiasMid true A X Wl Wr bl := by
  funext i
  obtain ⟨p, q, rfl⟩ : ∃ (p : Fin m) (q : Fin n), i = ix2 p q := ⟨i 0, i 1, eq_ix2 i⟩
  rw [convBiasMid_apply]
  unfold convBiasMidAt clampIf dotAt
  show max ((Host.dotGeneral (DotDims.plain m k n) none A Wl (ix2 p q) + everyRow h1 h2 bl (ix2 p q))
      + Host.dotGeneral (DotDims.plain m k n) none X Wr (ix2 p q)) (Ideal.ofBits .f32 0x00000000#32) = _
  rw [dotGeneral_plain_apply, dotGeneral_plain_apply, everyRow_apply]
  rfl

/-- The host's convolution stage, not clamped. -/
theorem convBiasMid_plain (h1 : (⟨1, ![n]⟩ : Shape).BroadcastsInDim ⟨2, ![1, n]⟩ ![1])
    (h2 : (⟨2, ![1, n]⟩ : Shape).BroadcastsInDim ⟨2, ![m, n]⟩ ![0, 1])
    (A X : FVec Ideal ⟨2, ![m, k]⟩ .f32) (Wl Wr : FVec Ideal ⟨2, ![k, n]⟩ .f32) (bl : FVec Ideal ⟨1, ![n]⟩ .f32) :
    addf (addf (Host.dotGeneral (DotDims.plain m k n) none A Wl) (everyRow h1 h2 bl)) (Host.dotGeneral (DotDims.plain m k n) none X Wr)
      = convBiasMid false A X Wl Wr bl := by
  funext i
  obtain ⟨p, q, rfl⟩ : ∃ (p : Fin m) (q : Fin n), i = ix2 p q := ⟨i 0, i 1, eq_ix2 i⟩
  rw [convBiasMid_apply]
  unfold convBiasMidAt clampIf dotAt
  show (Host.dotGeneral (DotDims.plain m k n) none A Wl (ix2 p q) + everyRow h1 h2 bl (ix2 p q))
      + Host.dotGeneral (DotDims.plain m k n) none X Wr (ix2 p q) = _
  rw [dotGeneral_plain_apply, dotGeneral_plain_apply, everyRow_apply]
  rfl

end DenseStages

end
-- ==== Proof.RefStages.lean ====
/-
  The reference's dense stages are the specification's stepwise encoder and bias-in-the-middle convolution.

  The reference is read one operation at a time by its generated stage functions. Each dense stage is a short chain
  of them: a plain product, vectors copied to every row, additions, a product with the scale row, a clamp. Opening
  exactly that chain, and nothing below it (the aggregated neighbours, the destination rows, the transposed weights
  and the scale vector stay named), the stage is the corresponding matrix of the specification.
-/
import proofs.«160307_j3882650436638_2_alg».proof.Proof.Gen.ReferenceIdeal.Read
import proofs.«160307_j3882650436638_2_alg».proof.Proof.LibDenseStagesHost

noncomputable section

namespace Cert.ReferenceIdeal.RefStages

open Cert.ReferenceIdeal Cert.ReferenceIdeal.Gen Cert.ReferenceIdeal.Read Idealize.ShloMosaic DenseStages

theorem dot_user : dot_S100000x512_S512x128_S100000x128_1_0_0_1_n_n = DotDims.plain 100000 512 128 := rfl
theorem dot_job : dot_S50000x768_S768x128_S50000x128_1_0_0_1_n_n = DotDims.plain 50000 768 128 := rfl
theorem dot_conv_job : dot_S50000x128_S128x128_S50000x128_1_0_0_1_n_n = DotDims.plain 50000 128 128 := rfl
theorem dot_conv_user : dot_S100000x128_S128x128_S100000x128_1_0_0_1_n_n = DotDims.plain 100000 128 128 := rfl

/-- The user encoder. -/
theorem user_encoder (x0 : (⟨S100000x512, .f32⟩ : BufTy).Contents (Elt Ideal)) (x2 : (⟨S128x512, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) :
    val_main_v18 (F := Ideal) x0 x2 x3 x4 x5 x6 x7 = encSteps (m := 100000) (k := 512) (n := 128) x0 (val_main_v0 (F := Ideal) x2) x3 x6 (val_main_v11 (F := Ideal) x4 x7) x5 := by
  unfold val_main_v18 val_main_v17 val_main_v16 val_main_v15 val_main_v14 val_main_v13 val_main_v12 val_main_v7 val_main_v6 val_main_v5
    val_main_v4 val_main_v3 val_main_v2 val_main_v1 val_main_call0_v0 val_main_call0_cst
  rw [dot_user]
  exact encSteps_plain bcast_S128_S1x128_1 bcast_S1x128_S100000x128_0_1 bcast_S_S100000x128 x0 _ x3 x6 _ x5

/-- The job encoder. -/
theorem job_encoder (x1 : (⟨S50000x768, .f32⟩ : BufTy).Contents (Elt Ideal)) (x8 : (⟨S128x768, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) :
    val_main_v37 (F := Ideal) x1 x8 x9 x10 x11 x12 x13 = encSteps (m := 50000) (k := 768) (n := 128) x1 (val_main_v19 (F := Ideal) x8) x9 x12 (val_main_v30 (F := Ideal) x10 x13) x11 := by
  unfold val_main_v37 val_main_v36 val_main_v35 val_main_v34 val_main_v33 val_main_v32 val_main_v31 val_main_v26 val_main_v25 val_main_v24
    val_main_v23 val_main_v22 val_main_v21 val_main_v20 val_main_call1_v0 val_main_call1_cst
  rw [dot_job]
  exact encSteps_plain bcast_S128_S1x128_1 bcast_S1x128_S50000x128_0_1 bcast_S_S50000x128 x1 _ x9 x12 _ x11

/-- Layer 1 onto the jobs, clamped. -/
theorem conv1_job (x0 : (⟨S100000x512, .f32⟩ : BufTy).Contents (Elt Ideal)) (x1 : (⟨S50000x768, .f32⟩ : BufTy).Contents (Elt Ideal)) (x2 : (⟨S128x512, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x768, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x26 : (⟨S2000000, .i32⟩ : BufTy).Contents (Elt Ideal)) (x27 : (⟨S2000000, .i32⟩ : BufTy).Contents (Elt Ideal)) :
    val_main_v65 (F := Ideal) x0 x1 x2 x3 x4 x5 x6 x7 x8 x9 x10 x11 x12 x13 x14 x15 x16 x26 x27 = convBiasMid (m := 50000) (k := 128) (n := 128) true (val_main_v56 (F := Ideal) x0 x2 x3 x4 x5 x6 x7 x26 x27) (val_main_v37 (F := Ideal) x1 x8 x9 x10 x11 x12 x13) (val_main_v57 (F := Ideal) x14) (val_main_v62 (F := Ideal) x16) x15 := by
  unfold val_main_v65 val_main_v64 val_main_v63 val_main_v61 val_main_v60 val_main_v59 val_main_v58 val_main_call2_v0 val_main_call2_cst
  rw [dot_conv_job]
  exact convBiasMid_plain_clamped bcast_S128_S1x128_1 bcast_S1x128_S50000x128_0_1 bcast_S_S50000x128 _ _ _ _ x15

/-- Layer 1 onto the users, clamped. -/
theorem conv1_user (x0 : (⟨S100000x512, .f32⟩ : BufTy).Contents (Elt Ideal)) (x1 : (⟨S50000x768, .f32⟩ : BufTy).Contents (Elt Ideal)) (x2 : (⟨S128x512, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x768, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x26 : (⟨S2000000, .i32⟩ : BufTy).Contents (Elt Ideal)) (x27 : (⟨S2000000, .i32⟩ : BufTy).Contents (Elt Ideal)) :
    val_main_v93 (F := Ideal) x0 x1 x2 x3 x4 x5 x6 x7 x8 x9 x10 x11 x12 x13 x17 x18 x19 x26 x27 = convBiasMid (m := 100000) (k := 128) (n := 128) true (val_main_v84 (F := Ideal) x1 x8 x9 x10 x11 x12 x13 x26 x27) (val_main_v18 (F := Ideal) x0 x2 x3 x4 x5 x6 x7) (val_main_v85 (F := Ideal) x17) (val_main_v90 (F := Ideal) x19) x18 := by
  unfold val_main_v93 val_main_v92 val_main_v91 val_main_v89 val_main_v88 val_main_v87 val_main_v86 val_main_call3_v0 val_main_call3_cst
  rw [dot_conv_user]
  exact convBiasMid_plain_clamped bcast_S128_S1x128_1 bcast_S1x128_S100000x128_0_1 bcast_S_S100000x128 _ _ _ _ x18

/-- Layer 2 onto the jobs. -/
theorem conv2_job (x0 : (⟨S100000x512, .f32⟩ : BufTy).Contents (Elt Ideal)) (x1 : (⟨S50000x768, .f32⟩ : BufTy).Contents (Elt Ideal)) (x2 : (⟨S128x512, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x768, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x26 : (⟨S2000000, .i32⟩ : BufTy).Contents (Elt Ideal)) (x27 : (⟨S2000000, .i32⟩ : BufTy).Contents (Elt Ideal)) :
    val_main_v120 (F := Ideal) x0 x1 x2 x3 x4 x5 x6 x7 x8 x9 x10 x11 x12 x13 x14 x15 x16 x17 x18 x19 x20 x21 x22 x26 x27 = convBiasMid (m := 50000) (k := 128) (n := 128) false (val_main_v112 (F := Ideal) x0 x1 x2 x3 x4 x5 x6 x7 x8 x9 x10 x11 x12 x13 x17 x18 x19 x26 x27) (val_main_v65 (F := Ideal) x0 x1 x2 x3 x4 x5 x6 x7 x8 x9 x10 x11 x12 x13 x14 x15 x16 x26 x27) (val_main_v113 (F := Ideal) x20) (val_main_v118 (F := Ideal) x22) x21 := by
  unfold val_main_v120 val_main_v119 val_main_v117 val_main_v116 val_main_v115 val_main_v114
  rw [dot_conv_job]
  exact convBiasMid_plain bcast_S128_S1x128_1 bcast_S1x128_S50000x128_0_1 _ _ _ _ x21

/-- Layer 2 onto the users. -/
theorem conv2_user (x0 : (⟨S100000x512, .f32⟩ : BufTy).Contents (Elt Ideal)) (x1 : (⟨S50000x768, .f32⟩ : BufTy).Contents (Elt Ideal)) (x2 : (⟨S128x512, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x768, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S2000000, .i32⟩ : BufTy).Contents (Elt Ideal)) (x27 : (⟨S2000000, .i32⟩ : BufTy).Contents (Elt Ideal)) :
    val_main_v147 (F := Ideal) x0 x1 x2 x3 x4 x5 x6 x7 x8 x9 x10 x11 x12 x13 x14 x15 x16 x17 x18 x19 x23 x24 x25 x26 x27 = convBiasMid (m := 100000) (k := 128) (n := 128) false (val_main_v139 (F := Ideal) x0 x1 x2 x3 x4 x5 x6 x7 x8 x9 x10 x11 x12 x13 x14 x15 x16 x26 x27) (val_main_v93 (F := Ideal) x0 x1 x2 x3 x4 x5 x6 x7 x8 x9 x10 x11 x12 x13 x17 x18 x19 x26 x27) (val_main_v140 (F := Ideal) x23) (val_main_v145 (F := Ideal) x25) x24 := by
  unfold val_main_v147 val_main_v146 val_main_v144 val_main_v143 val_main_v142 val_main_v141
  rw [dot_conv_user]
  exact convBiasMid_plain bcast_S128_S1x128_1 bcast_S1x128_S100000x128_0_1 _ _ _ _ x24

end Cert.ReferenceIdeal.RefStages

end
-- ==== Proof.Chain1.lean ====
/-
  The two encoders.

  The first stretch of host operations folds each normalisation into a scale row s = γ·rsqrt(σ² + ε) and a bias row
  (b − μ)·s + β, and transposes the weights. The first region then leaves in its output array, row by row,
  max(x·Wᵀ·s + ((b − μ)·s + β), 0), which is the reference's max(((x·Wᵀ + b) − μ)·s + β, 0) because every number
  entering the product, the bias, the mean and the scale is real. The same for the jobs in the second region.
-/
import proofs.«160307_j3882650436638_2_alg».proof.Proof.ChainBase
import proofs.«160307_j3882650436638_2_alg».proof.Proof.RefStages
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The folded bias row (b − μ)·s + β. -/
def foldedBias (b mu s beta : FVec Ideal S128 .f32) : FVec Ideal S128 .f32 := addf (mulf (subf b mu) s) beta

/-! ## After the first stretch of host operations -/

theorem W1_arg0 : W1 m ρ c (Proc.devRef .tc main_arg0) = (m ((c : Thread nD τ).loc main_arg0)) := by
  dsimp only [W1, W0, hostOps0]; after_results_simp; all_goals rfl

theorem W1_arg1 : W1 m ρ c (Proc.devRef .tc main_arg1) = (m ((c : Thread nD τ).loc main_arg1)) := by
  dsimp only [W1, W0, hostOps0]; after_results_simp; all_goals rfl

theorem W1_arg8 : W1 m ρ c (Proc.devRef .tc main_arg8) = (m ((c : Thread nD τ).loc main_arg8)) := by
  dsimp only [W1, W0, hostOps0]; after_results_simp; all_goals rfl

theorem W1_v14 : W1 m ρ c (Proc.devRef .tc main_v14) = Cert.ReferenceIdeal.Read.val_main_v0 (F := Ideal) (m ((c : Thread nD τ).loc main_arg2)) := by
  dsimp only [W1, W0, hostOps0]; after_results_simp; all_goals rfl

theorem W1_v15 : W1 m ρ c (Proc.devRef .tc main_v15) = shapeCast S1x128 (Cert.ReferenceIdeal.Read.val_main_v11 (F := Ideal) (m ((c : Thread nD τ).loc main_arg4)) (m ((c : Thread nD τ).loc main_arg7))) shapeCasts_S128_S1x128 := by
  dsimp only [W1, W0, hostOps0]; after_results_simp; all_goals rfl

theorem W1_v16 : W1 m ρ c (Proc.devRef .tc main_v16) = shapeCast S1x128 (foldedBias (m ((c : Thread nD τ).loc main_arg3)) (m ((c : Thread nD τ).loc main_arg6)) (Cert.ReferenceIdeal.Read.val_main_v11 (F := Ideal) (m ((c : Thread nD τ).loc main_arg4)) (m ((c : Thread nD τ).loc main_arg7))) (m ((c : Thread nD τ).loc main_arg5))) shapeCasts_S128_S1x128 := by
  dsimp only [W1, W0, hostOps0]; after_results_simp; all_goals rfl

theorem W1_v10 : W1 m ρ c (Proc.devRef .tc main_v10) = (Cert.ReferenceIdeal.Read.val_main_v30 (F := Ideal) (m ((c : Thread nD τ).loc main_arg10)) (m ((c : Thread nD τ).loc main_arg13))) := by
  dsimp only [W1, W0, hostOps0]; after_results_simp; all_goals rfl

theorem W1_v13 : W1 m ρ c (Proc.devRef .tc main_v13) = (foldedBias (m ((c : Thread nD τ).loc main_arg9)) (m ((c : Thread nD τ).loc main_arg12)) (Cert.ReferenceIdeal.Read.val_main_v30 (F := Ideal) (m ((c : Thread nD τ).loc main_arg10)) (m ((c : Thread nD τ).loc main_arg13))) (m ((c : Thread nD τ).loc main_arg11))) := by
  dsimp only [W1, W0, hostOps0]; after_results_simp; all_goals rfl

/-! ## The user encoder -/

/-- The first region's output array is the reference's user encoder. -/
theorem user_rows (H : Hyps m c) : W2 m ρ c (Proc.devRef .tc main_v17) = Cert.ReferenceIdeal.Read.val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W2_arr m ρ c 4).trans (H.hR0 (V1 m ρ) c)).trans ?_
  have e0 : V1 m ρ c main_arg0 = _ := W1_arg0 m ρ c
  have e1 : V1 m ρ c main_v14 = _ := W1_v14 m ρ c
  have e2 : V1 m ρ c main_v15 = _ := W1_v15 m ρ c
  have e3 : V1 m ρ c main_v16 = _ := W1_v16 m ρ c
  rw [e0, e1, e2, e3, Cert.ReferenceIdeal.RefStages.user_encoder]
  funext i
  obtain ⟨p, q, rfl⟩ : ∃ (p : Fin 100000) (q : Fin 128), i = ValueIdx.ix2 p q := ⟨i 0, i 1, ValueIdx.eq_ix2 i⟩
  rw [DenseStages.encFolded_apply, DenseStages.encSteps_apply]
  refine DenseStages.encFoldedAt_eq_steps _ _ _ _ _ _ _ _ H.h0 (fun i => ?_) H.h3 H.h6 H.hsU (fun q => ?_) (fun q => ?_) p q
  · rw [Cert.ReferenceIdeal.Read.val_main_v0_apply]; exact H.h2 _
  · exact DenseStages.shapeCast_oneRow_apply _ _ _ _
  · rw [DenseStages.shapeCast_oneRow_apply]; rfl

/-! ## Through the first region and the second stretch -/

theorem W2_v10 : W2 m ρ c (Proc.devRef .tc main_v10) = (Cert.ReferenceIdeal.Read.val_main_v30 (F := Ideal) (m ((c : Thread nD τ).loc main_arg10)) (m ((c : Thread nD τ).loc main_arg13))) :=
  (W2_of_ne m ρ c main_v10 (by decide)).trans (W1_v10 m ρ c)
theorem W2_v13 : W2 m ρ c (Proc.devRef .tc main_v13) = (foldedBias (m ((c : Thread nD τ).loc main_arg9)) (m ((c : Thread nD τ).loc main_arg12)) (Cert.ReferenceIdeal.Read.val_main_v30 (F := Ideal) (m ((c : Thread nD τ).loc main_arg10)) (m ((c : Thread nD τ).loc main_arg13))) (m ((c : Thread nD τ).loc main_arg11))) :=
  (W2_of_ne m ρ c main_v13 (by decide)).trans (W1_v13 m ρ c)
theorem W2_arg8 : W2 m ρ c (Proc.devRef .tc main_arg8) = (m ((c : Thread nD τ).loc main_arg8)) :=
  (W2_of_ne m ρ c main_arg8 (by decide)).trans (W1_arg8 m ρ c)
theorem W2_arg1 : W2 m ρ c (Proc.devRef .tc main_arg1) = (m ((c : Thread nD τ).loc main_arg1)) :=
  (W2_of_ne m ρ c main_arg1 (by decide)).trans (W1_arg1 m ρ c)

theorem W3_v18 : W3 m ρ c (Proc.devRef .tc main_v18) = Cert.ReferenceIdeal.Read.val_main_v19 (F := Ideal) (m ((c : Thread nD τ).loc main_arg8)) := by
  dsimp only [W3, hostOps1]; after_results_simp; rw [W2_arg8 m ρ c]; all_goals rfl
theorem W3_v19 : W3 m ρ c (Proc.devRef .tc main_v19) = shapeCast S1x128 (Cert.ReferenceIdeal.Read.val_main_v30 (F := Ideal) (m ((c : Thread nD τ).loc main_arg10)) (m ((c : Thread nD τ).loc main_arg13))) shapeCasts_S128_S1x128 := by
  dsimp only [W3, hostOps1]; after_results_simp; rw [W2_v10 m ρ c]; all_goals rfl
theorem W3_v20 : W3 m ρ c (Proc.devRef .tc main_v20) = shapeCast S1x128 (foldedBias (m ((c : Thread nD τ).loc main_arg9)) (m ((c : Thread nD τ).loc main_arg12)) (Cert.ReferenceIdeal.Read.val_main_v30 (F := Ideal) (m ((c : Thread nD τ).loc main_arg10)) (m ((c : Thread nD τ).loc main_arg13))) (m ((c : Thread nD τ).loc main_arg11))) shapeCasts_S128_S1x128 := by
  dsimp only [W3, hostOps1]; after_results_simp; rw [W2_v13 m ρ c]; all_goals rfl
theorem W3_arg1 : W3 m ρ c (Proc.devRef .tc main_arg1) = (m ((c : Thread nD τ).loc main_arg1)) := by
  dsimp only [W3, hostOps1]; after_results_simp; exact W2_arg1 m ρ c
theorem W3_v17 (H : Hyps m c) : W3 m ρ c (Proc.devRef .tc main_v17) = Cert.ReferenceIdeal.Read.val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W3, hostOps1]; after_results_simp; exact user_rows m ρ c H

/-! ## The job encoder -/

/-- The second region's output array is the reference's job encoder. -/
theorem job_rows (H : Hyps m c) : W4 m ρ c (Proc.devRef .tc main_v21) = Cert.ReferenceIdeal.Read.val_main_v37 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W4_arr m ρ c 4).trans (H.hR1 (V3 m ρ) c)).trans ?_
  have e0 : V3 m ρ c main_arg1 = _ := W3_arg1 m ρ c
  have e1 : V3 m ρ c main_v18 = _ := W3_v18 m ρ c
  have e2 : V3 m ρ c main_v19 = _ := W3_v19 m ρ c
  have e3 : V3 m ρ c main_v20 = _ := W3_v20 m ρ c
  rw [e0, e1, e2, e3, Cert.ReferenceIdeal.RefStages.job_encoder]
  funext i
  obtain ⟨p, q, rfl⟩ : ∃ (p : Fin 50000) (q : Fin 128), i = ValueIdx.ix2 p q := ⟨i 0, i 1, ValueIdx.eq_ix2 i⟩
  rw [DenseStages.encFolded_apply, DenseStages.encSteps_apply]
  refine DenseStages.encFoldedAt_eq_steps _ _ _ _ _ _ _ _ H.h1 (fun i => ?_) H.h9 H.h12 H.hsJ (fun q => ?_) (fun q => ?_) p q
  · rw [Cert.ReferenceIdeal.Read.val_main_v19_apply]; exact H.h8 _
  · exact DenseStages.shapeCast_oneRow_apply _ _ _ _
  · rw [DenseStages.shapeCast_oneRow_apply]; rfl

theorem W4_v17 (H : Hyps m c) : W4 m ρ c (Proc.devRef .tc main_v17) = Cert.ReferenceIdeal.Read.val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_of_ne m ρ c main_v17 (by decide)).trans (W3_v17 m ρ c H)

end Cert.KernelIdeal.Chain
end
-- ==== Proof.Chain2.lean ====
/-
  The first convolution onto the jobs.

  The third stretch of host operations counts the edges into each job and each user, gathers the user rows along
  the edges, sums them into the jobs and multiplies each job's sum by the reciprocal of its count; the reference
  divides the same sum by the count. The third region then adds the two products and the bias and clamps.
-/
import proofs.«160307_j3882650436638_2_alg».proof.Proof.Chain1
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The mean of the neighbouring user rows at each job. -/
theorem W5_v51 (H : Hyps m c) : W5 m ρ c (Proc.devRef .tc main_v51) = Cert.ReferenceIdeal.Read.val_main_v56 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg26)) (m ((c : Thread nD τ).loc main_arg27)) := by
  dsimp only [W5, hostOps2]; after_results_simp
  rw [keep_arg26_4 m ρ c, keep_arg27_4 m ρ c, W4_v17 m ρ c H]
  refine (MeanByCount.mul_recip_eq_div _ _ _ _ _).trans ?_
  unfold Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_cst_5 Cert.ReferenceIdeal.Read.val_main_v51 Cert.ReferenceIdeal.Read.val_main_v50 Cert.ReferenceIdeal.Read.val_main_v49 Cert.ReferenceIdeal.Read.val_main_cst_4 Cert.ReferenceIdeal.Read.val_main_v48 Cert.ReferenceIdeal.Read.val_main_cst_3 Cert.ReferenceIdeal.Read.val_main_v47 Cert.ReferenceIdeal.Read.val_main_v46 Cert.ReferenceIdeal.Read.val_main_v45 Cert.ReferenceIdeal.Read.val_main_cst_2 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_c_1 Cert.ReferenceIdeal.Read.val_main_v39 Cert.ReferenceIdeal.Read.val_main_v38 Cert.ReferenceIdeal.Read.val_main_c
  rfl

theorem W5_v21 (H : Hyps m c) : W5 m ρ c (Proc.devRef .tc main_v21) = Cert.ReferenceIdeal.Read.val_main_v37 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  dsimp only [W5, hostOps2]; after_results_simp; exact job_rows m ρ c H

theorem W5_v17 (H : Hyps m c) : W5 m ρ c (Proc.devRef .tc main_v17) = Cert.ReferenceIdeal.Read.val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W5, hostOps2]; after_results_simp; exact W4_v17 m ρ c H

theorem W5_v52 : W5 m ρ c (Proc.devRef .tc main_v52) = Cert.ReferenceIdeal.Read.val_main_v57 (F := Ideal) (m ((c : Thread nD τ).loc main_arg14)) := by
  dsimp only [W5, hostOps2]; after_results_simp; rw [keep_arg14_4 m ρ c]; all_goals rfl

theorem W5_v53 : W5 m ρ c (Proc.devRef .tc main_v53) = Cert.ReferenceIdeal.Read.val_main_v62 (F := Ideal) (m ((c : Thread nD τ).loc main_arg16)) := by
  dsimp only [W5, hostOps2]; after_results_simp; rw [keep_arg16_4 m ρ c]; all_goals rfl

theorem W5_v54 : W5 m ρ c (Proc.devRef .tc main_v54) = shapeCast S1x128 (m ((c : Thread nD τ).loc main_arg15)) shapeCasts_S128_S1x128 := by
  dsimp only [W5, hostOps2]; after_results_simp; rw [keep_arg15_4 m ρ c]; all_goals rfl

theorem W5_v33 : W5 m ρ c (Proc.devRef .tc main_v33) = (invCountJob (m ((c : Thread nD τ).loc main_arg27))) := by
  dsimp only [W5, hostOps2]; after_results_simp; rw [keep_arg27_4 m ρ c]; all_goals rfl

theorem W5_v38 : W5 m ρ c (Proc.devRef .tc main_v38) = (invCountUser (m ((c : Thread nD τ).loc main_arg26))) := by
  dsimp only [W5, hostOps2]; after_results_simp; rw [keep_arg26_4 m ρ c]; all_goals rfl

/-- The third region's output array is the reference's first-layer job rows. -/
theorem job_rows1 (H : Hyps m c) : W6 m ρ c (Proc.devRef .tc main_v55) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg26)) (m ((c : Thread nD τ).loc main_arg27)) := by
  refine ((W6_arr m ρ c 5).trans (H.hR2 (V5 m ρ) c)).trans ?_
  have e0 : V5 m ρ c main_v51 = _ := W5_v51 m ρ c H
  have e1 : V5 m ρ c main_v21 = _ := W5_v21 m ρ c H
  have e2 : V5 m ρ c main_v52 = _ := W5_v52 m ρ c
  have e3 : V5 m ρ c main_v53 = _ := W5_v53 m ρ c
  have e4 : V5 m ρ c main_v54 = _ := W5_v54 m ρ c
  rw [e0, e1, e2, e3, e4, Cert.ReferenceIdeal.RefStages.conv1_job]
  funext i
  obtain ⟨p, q, rfl⟩ : ∃ (p : Fin 50000) (q : Fin 128), i = ValueIdx.ix2 p q := ⟨i 0, i 1, ValueIdx.eq_ix2 i⟩
  rw [DenseStages.convBiasLast_apply, DenseStages.convBiasMid_apply]
  exact DenseStages.convBiasLastAt_eq_mid _ _ _ _ _ _ _ (fun q => DenseStages.shapeCast_oneRow_apply _ _ _ _) p q

theorem W6_v17 (H : Hyps m c) : W6 m ρ c (Proc.devRef .tc main_v17) = Cert.ReferenceIdeal.Read.val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_of_ne m ρ c main_v17 (by decide)).trans (W5_v17 m ρ c H)

theorem W6_v21 (H : Hyps m c) : W6 m ρ c (Proc.devRef .tc main_v21) = Cert.ReferenceIdeal.Read.val_main_v37 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  ((W6_arr m ρ c 1).trans (((dat2 (V5 m ρ) c).arrAt_in 1 rfl _).trans (A_eq2 (V5 m ρ) c 1))).trans (W5_v21 m ρ c H)

theorem W6_v33 : W6 m ρ c (Proc.devRef .tc main_v33) = (invCountJob (m ((c : Thread nD τ).loc main_arg27))) :=
  (W6_of_ne m ρ c main_v33 (by decide)).trans (W5_v33 m ρ c)

theorem W6_v38 : W6 m ρ c (Proc.devRef .tc main_v38) = (invCountUser (m ((c : Thread nD τ).loc main_arg26))) :=
  (W6_of_ne m ρ c main_v38 (by decide)).trans (W5_v38 m ρ c)

end Cert.KernelIdeal.Chain
end
-- ==== Proof.Chain3.lean ====
/-
  The first convolution onto the users.

  The fourth stretch of host operations gathers the job rows along the edges, sums them into the users and scales
  each sum by the reciprocal in-degree computed in the third stretch; the fourth region adds the two products and
  the bias and clamps.
-/
import proofs.«160307_j3882650436638_2_alg».proof.Proof.Chain2
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The mean of the neighbouring job rows at each user. -/
theorem W7_v68 (H : Hyps m c) : W7 m ρ c (Proc.devRef .tc main_v68) = Cert.ReferenceIdeal.Read.val_main_v84 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg26)) (m ((c : Thread nD τ).loc main_arg27)) := by
  dsimp only [W7, hostOps3]; after_results_simp
  rw [keep_arg26_6 m ρ c, keep_arg27_6 m ρ c, W6_v21 m ρ c H, W6_v38 m ρ c]
  unfold invCountUser
  refine (MeanByCount.mul_recip_eq_div _ _ _ _ _).trans ?_
  unfold Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_cst_11 Cert.ReferenceIdeal.Read.val_main_v79 Cert.ReferenceIdeal.Read.val_main_v78 Cert.ReferenceIdeal.Read.val_main_v77 Cert.ReferenceIdeal.Read.val_main_cst_10 Cert.ReferenceIdeal.Read.val_main_v76 Cert.ReferenceIdeal.Read.val_main_cst_9 Cert.ReferenceIdeal.Read.val_main_v75 Cert.ReferenceIdeal.Read.val_main_v74 Cert.ReferenceIdeal.Read.val_main_v73 Cert.ReferenceIdeal.Read.val_main_cst_8 Cert.ReferenceIdeal.Read.val_main_v72 Cert.ReferenceIdeal.Read.val_main_v71 Cert.ReferenceIdeal.Read.val_main_v70 Cert.ReferenceIdeal.Read.val_main_v69 Cert.ReferenceIdeal.Read.val_main_v68 Cert.ReferenceIdeal.Read.val_main_c_7 Cert.ReferenceIdeal.Read.val_main_v67 Cert.ReferenceIdeal.Read.val_main_v66 Cert.ReferenceIdeal.Read.val_main_c_6
  rfl

theorem W7_v17 (H : Hyps m c) : W7 m ρ c (Proc.devRef .tc main_v17) = Cert.ReferenceIdeal.Read.val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W7, hostOps3]; after_results_simp; exact W6_v17 m ρ c H

theorem W7_v55 (H : Hyps m c) : W7 m ρ c (Proc.devRef .tc main_v55) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg26)) (m ((c : Thread nD τ).loc main_arg27)) := by
  dsimp only [W7, hostOps3]; after_results_simp; exact job_rows1 m ρ c H

theorem W7_v33 : W7 m ρ c (Proc.devRef .tc main_v33) = (invCountJob (m ((c : Thread nD τ).loc main_arg27))) := by
  dsimp only [W7, hostOps3]; after_results_simp; exact W6_v33 m ρ c

theorem W7_v38 : W7 m ρ c (Proc.devRef .tc main_v38) = (invCountUser (m ((c : Thread nD τ).loc main_arg26))) := by
  dsimp only [W7, hostOps3]; after_results_simp; exact W6_v38 m ρ c

theorem W7_v69 : W7 m ρ c (Proc.devRef .tc main_v69) = Cert.ReferenceIdeal.Read.val_main_v85 (F := Ideal) (m ((c : Thread nD τ).loc main_arg17)) := by
  dsimp only [W7, hostOps3]; after_results_simp; rw [keep_arg17_6 m ρ c]; all_goals rfl

theorem W7_v70 : W7 m ρ c (Proc.devRef .tc main_v70) = Cert.ReferenceIdeal.Read.val_main_v90 (F := Ideal) (m ((c : Thread nD τ).loc main_arg19)) := by
  dsimp only [W7, hostOps3]; after_results_simp; rw [keep_arg19_6 m ρ c]; all_goals rfl

theorem W7_v71 : W7 m ρ c (Proc.devRef .tc main_v71) = shapeCast S1x128 (m ((c : Thread nD τ).loc main_arg18)) shapeCasts_S128_S1x128 := by
  dsimp only [W7, hostOps3]; after_results_simp; rw [keep_arg18_6 m ρ c]; all_goals rfl

/-- The fourth region's output array is the reference's first-layer user rows. -/
theorem user_rows1 (H : Hyps m c) : W8 m ρ c (Proc.devRef .tc main_v72) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg26)) (m ((c : Thread nD τ).loc main_arg27)) := by
  refine ((W8_arr m ρ c 5).trans (H.hR3 (V7 m ρ) c)).trans ?_
  have e0 : V7 m ρ c main_v68 = _ := W7_v68 m ρ c H
  have e1 : V7 m ρ c main_v17 = _ := W7_v17 m ρ c H
  have e2 : V7 m ρ c main_v69 = _ := W7_v69 m ρ c
  have e3 : V7 m ρ c main_v70 = _ := W7_v70 m ρ c
  have e4 : V7 m ρ c main_v71 = _ := W7_v71 m ρ c
  rw [e0, e1, e2, e3, e4, Cert.ReferenceIdeal.RefStages.conv1_user]
  funext i
  obtain ⟨p, q, rfl⟩ : ∃ (p : Fin 100000) (q : Fin 128), i = ValueIdx.ix2 p q := ⟨i 0, i 1, ValueIdx.eq_ix2 i⟩
  rw [DenseStages.convBiasLast_apply, DenseStages.convBiasMid_apply]
  exact DenseStages.convBiasLastAt_eq_mid _ _ _ _ _ _ _ (fun q => DenseStages.shapeCast_oneRow_apply _ _ _ _) p q

theorem W8_v55 (H : Hyps m c) : W8 m ρ c (Proc.devRef .tc main_v55) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg26)) (m ((c : Thread nD τ).loc main_arg27)) :=
  (W8_of_ne m ρ c main_v55 (by decide)).trans (W7_v55 m ρ c H)

theorem W8_v33 : W8 m ρ c (Proc.devRef .tc main_v33) = (invCountJob (m ((c : Thread nD τ).loc main_arg27))) :=
  (W8_of_ne m ρ c main_v33 (by decide)).trans (W7_v33 m ρ c)

theorem W8_v38 : W8 m ρ c (Proc.devRef .tc main_v38) = (invCountUser (m ((c : Thread nD τ).loc main_arg26))) :=
  (W8_of_ne m ρ c main_v38 (by decide)).trans (W7_v38 m ρ c)

end Cert.KernelIdeal.Chain
end
-- ==== Proof.Chain4.lean ====
/-
  The second convolution onto the jobs.

  The fifth stretch gathers the first-layer user rows along the edges, sums them into the jobs and scales by the
  jobs' reciprocal in-degrees; the fifth region adds the two products and the bias, with no clamp.
-/
import proofs.«160307_j3882650436638_2_alg».proof.Proof.Chain3
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The mean of the neighbouring first-layer user rows at each job. -/
theorem W9_v85 (H : Hyps m c) : W9 m ρ c (Proc.devRef .tc main_v85) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg26)) (m ((c : Thread nD τ).loc main_arg27)) := by
  dsimp only [W9, hostOps4]; after_results_simp
  rw [keep_arg26_8 m ρ c, keep_arg27_8 m ρ c, user_rows1 m ρ c H, W8_v33 m ρ c]
  unfold invCountJob
  refine (MeanByCount.mul_recip_eq_div _ _ _ _ _).trans ?_
  unfold Cert.ReferenceIdeal.Read.val_main_v112 Cert.ReferenceIdeal.Read.val_main_v111 Cert.ReferenceIdeal.Read.val_main_v110 Cert.ReferenceIdeal.Read.val_main_v109 Cert.ReferenceIdeal.Read.val_main_v108 Cert.ReferenceIdeal.Read.val_main_cst_17 Cert.ReferenceIdeal.Read.val_main_v107 Cert.ReferenceIdeal.Read.val_main_v106 Cert.ReferenceIdeal.Read.val_main_v105 Cert.ReferenceIdeal.Read.val_main_cst_16 Cert.ReferenceIdeal.Read.val_main_v104 Cert.ReferenceIdeal.Read.val_main_cst_15 Cert.ReferenceIdeal.Read.val_main_v103 Cert.ReferenceIdeal.Read.val_main_v102 Cert.ReferenceIdeal.Read.val_main_v101 Cert.ReferenceIdeal.Read.val_main_cst_14 Cert.ReferenceIdeal.Read.val_main_v100 Cert.ReferenceIdeal.Read.val_main_v99 Cert.ReferenceIdeal.Read.val_main_v98 Cert.ReferenceIdeal.Read.val_main_v97 Cert.ReferenceIdeal.Read.val_main_v96 Cert.ReferenceIdeal.Read.val_main_c_13 Cert.ReferenceIdeal.Read.val_main_v95 Cert.ReferenceIdeal.Read.val_main_v94 Cert.ReferenceIdeal.Read.val_main_c_12
  rfl

theorem W9_v55 (H : Hyps m c) : W9 m ρ c (Proc.devRef .tc main_v55) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg26)) (m ((c : Thread nD τ).loc main_arg27)) := by
  dsimp only [W9, hostOps4]; after_results_simp; exact W8_v55 m ρ c H

theorem W9_v72 (H : Hyps m c) : W9 m ρ c (Proc.devRef .tc main_v72) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg26)) (m ((c : Thread nD τ).loc main_arg27)) := by
  dsimp only [W9, hostOps4]; after_results_simp; exact user_rows1 m ρ c H

theorem W9_v38 : W9 m ρ c (Proc.devRef .tc main_v38) = (invCountUser (m ((c : Thread nD τ).loc main_arg26))) := by
  dsimp only [W9, hostOps4]; after_results_simp; exact W8_v38 m ρ c

theorem W9_v86 : W9 m ρ c (Proc.devRef .tc main_v86) = Cert.ReferenceIdeal.Read.val_main_v113 (F := Ideal) (m ((c : Thread nD τ).loc main_arg20)) := by
  dsimp only [W9, hostOps4]; after_results_simp; rw [keep_arg20_8 m ρ c]; all_goals rfl

theorem W9_v87 : W9 m ρ c (Proc.devRef .tc main_v87) = Cert.ReferenceIdeal.Read.val_main_v118 (F := Ideal) (m ((c : Thread nD τ).loc main_arg22)) := by
  dsimp only [W9, hostOps4]; after_results_simp; rw [keep_arg22_8 m ρ c]; all_goals rfl

theorem W9_v88 : W9 m ρ c (Proc.devRef .tc main_v88) = shapeCast S1x128 (m ((c : Thread nD τ).loc main_arg21)) shapeCasts_S128_S1x128 := by
  dsimp only [W9, hostOps4]; after_results_simp; rw [keep_arg21_8 m ρ c]; all_goals rfl

/-- The fifth region's output array is the reference's second-layer job rows. -/
theorem job_rows2 (H : Hyps m c) : W10 m ρ c (Proc.devRef .tc main_v89) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg26)) (m ((c : Thread nD τ).loc main_arg27)) := by
  refine ((W10_arr m ρ c 5).trans (H.hR4 (V9 m ρ) c)).trans ?_
  have e0 : V9 m ρ c main_v85 = _ := W9_v85 m ρ c H
  have e1 : V9 m ρ c main_v55 = _ := W9_v55 m ρ c H
  have e2 : V9 m ρ c main_v86 = _ := W9_v86 m ρ c
  have e3 : V9 m ρ c main_v87 = _ := W9_v87 m ρ c
  have e4 : V9 m ρ c main_v88 = _ := W9_v88 m ρ c
  rw [e0, e1, e2, e3, e4, Cert.ReferenceIdeal.RefStages.conv2_job]
  funext i
  obtain ⟨p, q, rfl⟩ : ∃ (p : Fin 50000) (q : Fin 128), i = ValueIdx.ix2 p q := ⟨i 0, i 1, ValueIdx.eq_ix2 i⟩
  rw [DenseStages.convBiasLast_apply, DenseStages.convBiasMid_apply]
  exact DenseStages.convBiasLastAt_eq_mid _ _ _ _ _ _ _ (fun q => DenseStages.shapeCast_oneRow_apply _ _ _ _) p q

theorem W10_v55 (H : Hyps m c) : W10 m ρ c (Proc.devRef .tc main_v55) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg26)) (m ((c : Thread nD τ).loc main_arg27)) :=
  ((W10_arr m ρ c 1).trans (((dat4 (V9 m ρ) c).arrAt_in 1 rfl _).trans (A_eq4 (V9 m ρ) c 1))).trans (W9_v55 m ρ c H)

theorem W10_v72 (H : Hyps m c) : W10 m ρ c (Proc.devRef .tc main_v72) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg26)) (m ((c : Thread nD τ).loc main_arg27)) :=
  (W10_of_ne m ρ c main_v72 (by decide)).trans (W9_v72 m ρ c H)

theorem W10_v38 : W10 m ρ c (Proc.devRef .tc main_v38) = (invCountUser (m ((c : Thread nD τ).loc main_arg26))) :=
  (W10_of_ne m ρ c main_v38 (by decide)).trans (W9_v38 m ρ c)

end Cert.KernelIdeal.Chain
end
-- ==== Proof.Chain5.lean ====
/-
  The second convolution onto the users.

  The sixth stretch gathers the first-layer job rows along the edges, sums them into the users and scales by the
  users' reciprocal in-degrees; the sixth region adds the two products and the bias, with no clamp.
-/
import proofs.«160307_j3882650436638_2_alg».proof.Proof.Chain4
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The mean of the neighbouring first-layer job rows at each user. -/
theorem W11_v102 (H : Hyps m c) : W11 m ρ c (Proc.devRef .tc main_v102) = Cert.ReferenceIdeal.Read.val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg26)) (m ((c : Thread nD τ).loc main_arg27)) := by
  dsimp only [W11, hostOps5]; after_results_simp
  rw [keep_arg26_10 m ρ c, keep_arg27_10 m ρ c, W10_v55 m ρ c H, W10_v38 m ρ c]
  unfold invCountUser
  refine (MeanByCount.mul_recip_eq_div _ _ _ _ _).trans ?_
  unfold Cert.ReferenceIdeal.Read.val_main_v139 Cert.ReferenceIdeal.Read.val_main_v138 Cert.ReferenceIdeal.Read.val_main_v137 Cert.ReferenceIdeal.Read.val_main_v136 Cert.ReferenceIdeal.Read.val_main_v135 Cert.ReferenceIdeal.Read.val_main_cst_23 Cert.ReferenceIdeal.Read.val_main_v134 Cert.ReferenceIdeal.Read.val_main_v133 Cert.ReferenceIdeal.Read.val_main_v132 Cert.ReferenceIdeal.Read.val_main_cst_22 Cert.ReferenceIdeal.Read.val_main_v131 Cert.ReferenceIdeal.Read.val_main_cst_21 Cert.ReferenceIdeal.Read.val_main_v130 Cert.ReferenceIdeal.Read.val_main_v129 Cert.ReferenceIdeal.Read.val_main_v128 Cert.ReferenceIdeal.Read.val_main_cst_20 Cert.ReferenceIdeal.Read.val_main_v127 Cert.ReferenceIdeal.Read.val_main_v126 Cert.ReferenceIdeal.Read.val_main_v125 Cert.ReferenceIdeal.Read.val_main_v124 Cert.ReferenceIdeal.Read.val_main_v123 Cert.ReferenceIdeal.Read.val_main_c_19 Cert.ReferenceIdeal.Read.val_main_v122 Cert.ReferenceIdeal.Read.val_main_v121 Cert.ReferenceIdeal.Read.val_main_c_18
  rfl

theorem W11_v72 (H : Hyps m c) : W11 m ρ c (Proc.devRef .tc main_v72) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg26)) (m ((c : Thread nD τ).loc main_arg27)) := by
  dsimp only [W11, hostOps5]; after_results_simp; exact W10_v72 m ρ c H

theorem W11_v89 (H : Hyps m c) : W11 m ρ c (Proc.devRef .tc main_v89) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg26)) (m ((c : Thread nD τ).loc main_arg27)) := by
  dsimp only [W11, hostOps5]; after_results_simp; exact job_rows2 m ρ c H

theorem W11_v103 : W11 m ρ c (Proc.devRef .tc main_v103) = Cert.ReferenceIdeal.Read.val_main_v140 (F := Ideal) (m ((c : Thread nD τ).loc main_arg23)) := by
  dsimp only [W11, hostOps5]; after_results_simp; rw [keep_arg23_10 m ρ c]; all_goals rfl

theorem W11_v104 : W11 m ρ c (Proc.devRef .tc main_v104) = Cert.ReferenceIdeal.Read.val_main_v145 (F := Ideal) (m ((c : Thread nD τ).loc main_arg25)) := by
  dsimp only [W11, hostOps5]; after_results_simp; rw [keep_arg25_10 m ρ c]; all_goals rfl

theorem W11_v105 : W11 m ρ c (Proc.devRef .tc main_v105) = shapeCast S1x128 (m ((c : Thread nD τ).loc main_arg24)) shapeCasts_S128_S1x128 := by
  dsimp only [W11, hostOps5]; after_results_simp; rw [keep_arg24_10 m ρ c]; all_goals rfl

/-- The sixth region's output array is the reference's second-layer user rows. -/
theorem user_rows2 (H : Hyps m c) : W12 m ρ c (Proc.devRef .tc main_v106) = Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg23)) (m ((c : Thread nD τ).loc main_arg24)) (m ((c : Thread nD τ).loc main_arg25)) (m ((c : Thread nD τ).loc main_arg26)) (m ((c : Thread nD τ).loc main_arg27)) := by
  refine ((W12_arr m ρ c 5).trans (H.hR5 (V11 m ρ) c)).trans ?_
  have e0 : V11 m ρ c main_v102 = _ := W11_v102 m ρ c H
  have e1 : V11 m ρ c main_v72 = _ := W11_v72 m ρ c H
  have e2 : V11 m ρ c main_v103 = _ := W11_v103 m ρ c
  have e3 : V11 m ρ c main_v104 = _ := W11_v104 m ρ c
  have e4 : V11 m ρ c main_v105 = _ := W11_v105 m ρ c
  rw [e0, e1, e2, e3, e4, Cert.ReferenceIdeal.RefStages.conv2_user]
  funext i
  obtain ⟨p, q, rfl⟩ : ∃ (p : Fin 100000) (q : Fin 128), i = ValueIdx.ix2 p q := ⟨i 0, i 1, ValueIdx.eq_ix2 i⟩
  rw [DenseStages.convBiasLast_apply, DenseStages.convBiasMid_apply]
  exact DenseStages.convBiasLastAt_eq_mid _ _ _ _ _ _ _ (fun q => DenseStages.shapeCast_oneRow_apply _ _ _ _) p q

theorem W12_v89 (H : Hyps m c) : W12 m ρ c (Proc.devRef .tc main_v89) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg26)) (m ((c : Thread nD τ).loc main_arg27)) :=
  (W12_of_ne m ρ c main_v89 (by decide)).trans (W11_v89 m ρ c H)

end Cert.KernelIdeal.Chain
end
-- ==== Proof.Chain6.lean ====
/-
  The link scores.

  The last stretch of host operations gathers the second-layer user and job rows along the label edges, multiplies
  them entry by entry and sums each row: the same operations, on the same rows, as the reference's last stage.
-/
import proofs.«160307_j3882650436638_2_alg».proof.Proof.Chain5
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The result buffer at the last boundary is the reference's result stage of the argument arrays. -/
theorem result_eq (H : Hyps m c) : W13 m ρ c (Proc.devRef .tc main_v124) = Cert.ReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  dsimp only [W13, hostOps6]; after_results_simp
  rw [keep_arg28_12 m ρ c, keep_arg29_12 m ρ c, user_rows2 m ρ c H, W12_v89 m ρ c H]
  unfold Cert.ReferenceIdeal.Read.val_main_v163 Cert.ReferenceIdeal.Read.val_main_cst_28 Cert.ReferenceIdeal.Read.val_main_v162 Cert.ReferenceIdeal.Read.val_main_v161 Cert.ReferenceIdeal.Read.val_main_v160 Cert.ReferenceIdeal.Read.val_main_v159 Cert.ReferenceIdeal.Read.val_main_v158 Cert.ReferenceIdeal.Read.val_main_v157 Cert.ReferenceIdeal.Read.val_main_c_27 Cert.ReferenceIdeal.Read.val_main_v156 Cert.ReferenceIdeal.Read.val_main_v155 Cert.ReferenceIdeal.Read.val_main_c_26 Cert.ReferenceIdeal.Read.val_main_v154 Cert.ReferenceIdeal.Read.val_main_v153 Cert.ReferenceIdeal.Read.val_main_v152 Cert.ReferenceIdeal.Read.val_main_v151 Cert.ReferenceIdeal.Read.val_main_v150 Cert.ReferenceIdeal.Read.val_main_c_25 Cert.ReferenceIdeal.Read.val_main_v149 Cert.ReferenceIdeal.Read.val_main_v148 Cert.ReferenceIdeal.Read.val_main_c_24
  rfl

end Cert.KernelIdeal.Chain
end
-- ==== Proof.lean ====
/-
  A two-layer graph network on a bipartite graph of users and jobs, ending in a link score: the kernel and the
  reference end with the same array of extended reals, and both leave their arguments as they were.

  The inputs are the node features x_u (100000 × 512) and x_j (50000 × 768), an encoder for each node type, two
  layers of mean-aggregating graph convolution in each direction over 2000000 edges, and 500000 labelled pairs.
  * Encoder: h = max(((x·Wᵀ + b) − μ)·s + β, 0) with s = γ · rsqrt(var + ε). The kernel folds the normalisation into
    one scale row s and one bias row (b − μ)·s + β applied after the product. On the extended reals the folded form
    is the stepwise one when x, W, b, μ and s are real numbers (distributivity), and the precondition gives that:
    every float argument is finite, the variances are ≥ 0 and ε > 0, so var + ε > 0 and s is real.
  * Convolution toward a node type: (mean over the incoming edges of the source rows)·Wlᵀ + bl + h·Wrᵀ, clamped at 0
    in layer 1 and not in layer 2. The mean is the sum over the incoming edges divided by max(count, 1); multiplying
    by 1 / max(count, 1) instead is the same, since max(count, 1) ≥ 1 is never 0. Adding the bias after both
    products or between them is the same: addition on the extended reals is commutative and associative.
  * Score of a pair (u, j): the sum over the 128 features of u₂(u, ·) · j₂(j, ·).
  The kernel's buffer contents are followed from the launch memory through its six regions (the two encoders and the
  four convolutions) and the host operations between them, each boundary value stated as the reference's stage
  function of the argument arrays; at the end the kernel's result array is the reference's composed term of the
  arguments. The reference's own run gives that term at its arguments, which agree with the kernel's.
-/
import proofs.«160307_j3882650436638_2_alg».proof.Defs
import proofs.«160307_j3882650436638_2_alg».proof.Proof.Gen.Kernel
import proofs.«160307_j3882650436638_2_alg».proof.Proof.Gen.Kernel.Skeleton
import proofs.«160307_j3882650436638_2_alg».proof.Proof.Gen.Kernel.Launch
import proofs.«160307_j3882650436638_2_alg».proof.Proof.Gen.Kernel.Points
import proofs.«160307_j3882650436638_2_alg».proof.Proof.Gen.Kernel.Frame
import proofs.«160307_j3882650436638_2_alg».proof.Proof.Gen.KernelIdeal
import proofs.«160307_j3882650436638_2_alg».proof.Proof.Gen.KernelIdeal.Skeleton
import proofs.«160307_j3882650436638_2_alg».proof.Proof.Gen.KernelIdeal.Launch
import proofs.«160307_j3882650436638_2_alg».proof.Proof.Gen.KernelIdeal.Points
import proofs.«160307_j3882650436638_2_alg».proof.Proof.Gen.KernelIdeal.Frame
import proofs.«160307_j3882650436638_2_alg».proof.Proof.Gen.ReferenceIdeal
import proofs.«160307_j3882650436638_2_alg».proof.Proof.Gen.Pre_finite_inputs
import proofs.«160307_j3882650436638_2_alg».proof.Proof.Gen.ReferenceIdeal.Run
import proofs.«160307_j3882650436638_2_alg».proof.Proof.Gen.ReferenceIdeal.Read
import Idealize.ShloMosaic.Adequacy
import Idealize.ShloMosaic.Init
import proofs.«160307_j3882650436638_2_alg».proof.Proof.KernelRun
import proofs.«160307_j3882650436638_2_alg».proof.Proof.Finite
import proofs.«160307_j3882650436638_2_alg».proof.Proof.EncValue
import proofs.«160307_j3882650436638_2_alg».proof.Proof.SageValue
import proofs.«160307_j3882650436638_2_alg».proof.Proof.Chain6

set_option maxRecDepth 16384

noncomputable section

namespace Cert.Proof

open Idealize.ShloMosaic Idealize.ShloMosaic.TcCoe Idealize.SL.Sem Cert.KernelIdeal

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the ideal reading: there is nothing to preserve. -/
theorem preserves : Cert.preserves_Kernel_KernelIdeal := trivial

/-! ## What the chain assumes holds under the precondition -/

/-- The six regions compute the specification's matrices, the encoder inputs are real under the precondition, and
    the two normalisation scales γ · rsqrt(var + ε) are real because the variances are non-negative reals. -/
theorem hyps (m : (ℓ : Loc nD τ sig) → Buf (Elt Ideal) ℓ) (hpre : Cert.Pre_KernelIdeal m) (c : Dev nD) :
    Cert.KernelIdeal.Chain.Hyps m c := by
  obtain ⟨r0, r1, r2, r3, r4, r5, r6, r7, r8, r9, r10, r11, r12, r13⟩ := Cert.Finite.args_real m hpre c
  obtain ⟨n7, n13⟩ := Cert.Finite.var_nonneg m hpre c
  exact
    { hR0 := fun V c => Cert.KernelIdeal.EncValue.region0_value V c
      hR1 := fun V c => Cert.KernelIdeal.EncValue.region1_value V c
      hR2 := fun V c => Cert.KernelIdeal.SageValue.region2_value V c
      hR3 := fun V c => Cert.KernelIdeal.SageValue.region3_value V c
      hR4 := fun V c => Cert.KernelIdeal.SageValue.region4_value V c
      hR5 := fun V c => Cert.KernelIdeal.SageValue.region5_value V c
      h0 := r0
      h1 := r1
      h2 := r2
      h3 := r3
      h6 := r6
      h8 := r8
      h9 := r9
      h12 := r12
      hsU := Cert.Finite.scale_real _ _ Cert.ReferenceIdeal.Gen.bcast_S_S128 r4 n7
      hsJ := Cert.Finite.scale_real _ _ Cert.ReferenceIdeal.Gen.bcast_S_S128 r10 n13 }

/-! ## The two programs end with one result -/

/-- From memories that agree on the thirty arguments, both programs run, leave the arguments as they were, and end
    with the reference's composed term of the kernel's argument arrays: the kernel by the chain of its boundary
    values, the reference by its own run read at arguments that are the kernel's. -/
theorem algebraic : Cert.algebraic_KernelIdeal_ReferenceIdeal := by
  intro m ρ m' ρ' hpre hagree
  refine ⟨fun c => Cert.ReferenceIdeal.Read.val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)), ?_, ?_⟩
  · exact (θ_run Cert.KernelIdeal.defs _ _).mono
      (fun r h c => ⟨(h c).1.trans (Cert.KernelIdeal.Chain.result_eq m ρ c (hyps m hpre c)), (h c).2⟩)
      (Cert.KernelIdeal.ResultRun.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29⟩ := hagree c
    rw [Cert.ReferenceIdeal.Read.val_main_v163_eq, e0, e1, e2, e3, e4, e5, e6, e7, e8, e9, e10, e11, e12, e13, e14, e15, e16, e17, e18, e19, e20, e21, e22, e23, e24, e25, e26, e27, e28, e29]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
